-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S128x10 .f32) (main_arg10 : FVec F S10 .f32) (main_v33 : IVec S_ 1) : IVec S_ 1 :=
  let main_v34 : FVec F S128x10 .f32 := Host.absf main_arg9
  let main_cst_12 : FVec F S_ .f32 := constant S_ .f32 0x7F800000#32
  let main_v35 : FVec F S128x10 .f32 := broadcastInDim S128x10 ![] bcast_S_S128x10 main_cst_12
  let main_v36 : IVec S128x10 1 := cmpf .olt main_v34 main_v35
  let main_c_13 : IVec S_ 1 := constantI S_ 1 1#1
  let main_v37 : IVec S_ 1 := (fun x v => Host.reduce IntOp.andi x v reducesTo_S128x10_S_d0_1 h_S_) main_v36 main_c_13
  let main_v38 : IVec S_ 1 := andi main_v33 main_v37
  let main_v39 : FVec F S10 .f32 := Host.absf main_arg10
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x10 .f32) (main_arg10 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x10 .f32) (main_arg10 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S2000x128 : Shape := ⟨2, ![2000, 128]⟩
abbrev S800000x128 : Shape := ⟨2, ![800000, 128]⟩
abbrev S1x128 : Shape := ⟨2, ![1, 128]⟩
abbrev S2000x1 : Shape := ⟨2, ![2000, 1]⟩
abbrev S512 : Shape := ⟨1, ![512]⟩
abbrev S512x128 : Shape := ⟨2, ![512, 128]⟩
abbrev S512x1 : Shape := ⟨2, ![512, 1]⟩
abbrev S1x10 : Shape := ⟨2, ![1, 10]⟩
abbrev S512x10 : Shape := ⟨2, ![512, 10]⟩

abbrev nBuf : Space → Nat
  | .hbm => 119
  | .vmem => 46
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x10, .f32⟩
  | .hbm, ⟨10, _⟩ => ⟨S10, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000, .f32⟩
  | .hbm, ⟨45, _⟩ => ⟨S800000, .f32⟩
  | .hbm, ⟨46, _⟩ => ⟨S800000x1, .f32⟩
  | .hbm, ⟨47, _⟩ => ⟨S50000x128, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x128, .f32⟩
  | .hbm, ⟨57, _⟩ => ⟨S800000x128, .f32⟩
  | .hbm, ⟨58, _⟩ => ⟨S800000x128, .f32⟩
  | .hbm, ⟨59, _⟩ => ⟨S_, .f32⟩
  | .hbm, ⟨60, _⟩ => ⟨S50000x128, .f32⟩
  | .hbm, ⟨61, _⟩ => ⟨S800000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .i32⟩
  | .hbm, ⟨67, _⟩ => ⟨S800000, .i32⟩
  | .hbm, ⟨68, _⟩ => ⟨S800000, .i1⟩
  | .hbm, ⟨69, _⟩ => ⟨S_, .i32⟩
  | .hbm, ⟨70, _⟩ => ⟨S800000, .i32⟩
  | .hbm, ⟨71, _⟩ => ⟨S800000, .i32⟩
  | .hbm, ⟨72, _⟩ => ⟨S800000, .i32⟩
  | .hbm, ⟨73, _⟩ => ⟨S800000x1, .i32⟩
  | .hbm, ⟨74, _⟩ => ⟨S800000x128, .f32⟩
  | .hbm, ⟨75, _⟩ => ⟨S800000x128, .f32⟩
  | .hbm, ⟨76, _⟩ => ⟨S800000x128, .f32⟩
  | .hbm, ⟨77, _⟩ => ⟨S_, .f32⟩
  | .hbm, ⟨78, _⟩ => ⟨S50000x128, .f32⟩
  | .hbm, ⟨79, _⟩ => ⟨S800000x1, .i32⟩
  | .hbm, ⟨80, _⟩ => ⟨S50000x128, .f32⟩
  | .hbm, ⟨81, _⟩ => ⟨S1x128, .f32⟩
  | .hbm, ⟨82, _⟩ => ⟨S50000x128, .f32⟩
  | .hbm, ⟨83, _⟩ => ⟨S50000x128, .f32⟩
  | .hbm, ⟨84, _⟩ => ⟨S_, .i32⟩
  | .hbm, ⟨85, _⟩ => ⟨S800000, .i32⟩
  | .hbm, ⟨86, _⟩ => ⟨S800000, .i1⟩
  | .hbm, ⟨87, _⟩ => ⟨S_, .i32⟩
  | .hbm, ⟨88, _⟩ => ⟨S800000, .i32⟩
  | .hbm, ⟨89, _⟩ => ⟨S800000, .i32⟩
  | .hbm, ⟨90, _⟩ => ⟨S800000, .i32⟩
  | .hbm, ⟨91, _⟩ => ⟨S800000x1, .i32⟩
  | .hbm, ⟨92, _⟩ => ⟨S800000x128, .f32⟩
  | .hbm, ⟨93, _⟩ => ⟨S800000x128, .f32⟩
  | .hbm, ⟨94, _⟩ => ⟨S800000x128, .f32⟩
  | .hbm, ⟨95, _⟩ => ⟨S_, .f32⟩
  | .hbm, ⟨96, _⟩ => ⟨S50000x128, .f32⟩
  | .hbm, ⟨97, _⟩ => ⟨S800000x1, .i32⟩
  | .hbm, ⟨98, _⟩ => ⟨S50000x128, .f32⟩
  | .hbm, ⟨99, _⟩ => ⟨S1x128, .f32⟩
  | .hbm, ⟨100, _⟩ => ⟨S50000x128, .f32⟩
  | .hbm, ⟨101, _⟩ => ⟨S_, .f32⟩
  | .hbm, ⟨102, _⟩ => ⟨S50000, .f32⟩
  | .hbm, ⟨103, _⟩ => ⟨S_, .f32⟩
  | .hbm, ⟨104, _⟩ => ⟨S512, .f32⟩
  | .hbm, ⟨105, _⟩ => ⟨S50000x1, .i32⟩
  | .hbm, ⟨106, _⟩ => ⟨S512, .f32⟩
  | .hbm, ⟨107, _⟩ => ⟨S_, .f32⟩
  | .hbm, ⟨108, _⟩ => ⟨S512x128, .f32⟩
  | .hbm, ⟨109, _⟩ => ⟨S50000x1, .i32⟩
  | .hbm, ⟨110, _⟩ => ⟨S512x128, .f32⟩
  | .hbm, ⟨111, _⟩ => ⟨S_, .f32⟩
  | .hbm, ⟨112, _⟩ => ⟨S512, .f32⟩
  | .hbm, ⟨113, _⟩ => ⟨S512, .f32⟩
  | .hbm, ⟨114, _⟩ => ⟨S512x1, .f32⟩
  | .hbm, ⟨115, _⟩ => ⟨S512x128, .f32⟩
  | .hbm, ⟨116, _⟩ => ⟨S512x128, .f32⟩
  | .hbm, ⟨117, _⟩ => ⟨S1x10, .f32⟩
  | .hbm, ⟨118, _⟩ => ⟨S512x10, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S128x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x1, .f32⟩
  | .local _ .vmem, ⟨24, _⟩ => ⟨S2000x1, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S128x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x1, .f32⟩
  | .local _ .vmem, ⟨38, _⟩ => ⟨S2000x1, .f32⟩
  | .local _ .vmem, ⟨39, _⟩ => ⟨S1x128, .f32⟩
  | .local _ .vmem, ⟨40, _⟩ => ⟨S2000x128, .f32⟩
  | .local _ .vmem, ⟨41, _⟩ => ⟨S2000x128, .f32⟩
  | .local _ .vmem, ⟨42, _⟩ => ⟨S512x128, .f32⟩
  | .local _ .vmem, ⟨43, _⟩ => ⟨S128x10, .f32⟩
  | .local _ .vmem, ⟨44, _⟩ => ⟨S1x10, .f32⟩
  | .local _ .vmem, ⟨45, _⟩ => ⟨S512x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_3 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_8 : Ref sig .tc := ⟨.hbm, 66, rfl⟩
abbrev main_v45 : Ref sig .tc := ⟨.hbm, 67, rfl⟩
abbrev main_v46 : Ref sig .tc := ⟨.hbm, 68, rfl⟩
abbrev main_c_9 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_c_11 : Ref sig .tc := ⟨.hbm, 84, rfl⟩
abbrev main_v60 : Ref sig .tc := ⟨.hbm, 85, rfl⟩
abbrev main_v61 : Ref sig .tc := ⟨.hbm, 86, rfl⟩
abbrev main_c_12 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_13 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_14 : Ref sig .tc := ⟨.hbm, 101, rfl⟩
abbrev main_v74 : Ref sig .tc := ⟨.hbm, 102, rfl⟩
abbrev main_cst_15 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_16 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_17 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg1_0 : Ref sig .tc := ⟨.vmem, 43, rfl⟩
abbrev cc6_stg2_0 : Ref sig .tc := ⟨.vmem, 44, rfl⟩
abbrev cc6_stg3_0 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem1_0 : DmaSem sig := 43
abbrev cc6_sem2_0 : DmaSem sig := 44
abbrev cc6_sem3_0 : DmaSem sig := 45

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S512x128 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S128x10 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x10 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S512x10 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  shapeCasts_S800000_S800000x1 : S800000.ShapeCasts S800000x1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  broadcasts_S2000x1_S2000x128 : S2000x1.Broadcasts S2000x128
  bcast_S_S512 : S_.BroadcastsInDim S512 (![] : Fin 0 → Fin S512.rank)
  bcast_S50000_S50000x1_0 : S50000.BroadcastsInDim S50000x1 (![0] : Fin 1 → Fin S50000x1.rank)
  bcast_S_S512x128 : S_.BroadcastsInDim S512x128 (![] : Fin 0 → Fin S512x128.rank)
  shapeCasts_S512_S512x1 : S512.ShapeCasts S512x1
  bcast_S512x1_S512x128_0_1 : S512x1.BroadcastsInDim S512x128 (![0, 1] : Fin 2 → Fin S512x128.rank)
  shapeCasts_S10_S1x10 : S10.ShapeCasts S1x10
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S512x10 : S1x10.Broadcasts S512x10
  inb_S512x10_S512x10_0_0 : ∀ a, (![0, 0] : Fin 2 → Nat) a + S512x10.size a ≤ S512x10.size a
  h_S512x10 : 0 < S512x10.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S2000x128_S128x128_S2000x128_1_0_0_1_n_n_wf : DotDims.WF S2000x128 S128x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S512_S50000x1_S50000_n_0_0_1_wf : ScatterDims.WF S512 S50000x1 S50000 [] [0] [0] 1
  scatter_S512x128_S50000x1_S50000x128_1_0_0_1_wf : ScatterDims.WF S512x128 S50000x1 S50000x128 [1] [0] [0] 1
  dot_S512x128_S128x10_S512x10_1_0_0_1_n_n_wf : DotDims.WF S512x128 S128x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S50000x128.size a
  hwx3_4 : ∀ i : grid3.Coords, EltTy.bits .f32 = 32 ∨ (Rect.block (s := S50000x128) S2000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S50000x128.size a
  hwx4_2 : ∀ i : grid4.Coords, EltTy.bits .f32 = 32 ∨ (Rect.block (s := S50000x128) S2000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x128.size a ≤ S50000x128.size a
  hwx5_1 : ∀ i : grid5.Coords, EltTy.bits .f32 = 32 ∨ (Rect.block (s := S50000x128) S2000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x1.size a ≤ S50000x1.size a
  hwx5_2 : ∀ i : grid5.Coords, EltTy.bits .f32 = 32 ∨ (Rect.block (s := S50000x1) S2000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x128.size a ≤ S50000x128.size a
  hwx5_4 : ∀ i : grid5.Coords, EltTy.bits .f32 = 32 ∨ (Rect.block (s := S50000x128) S2000x128.size (cc5_transform_4 i) (hinb5_4 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S512x128.size a ≤ S512x128.size a
  hwx6_0 : ∀ i : grid6.Coords, EltTy.bits .f32 = 32 ∨ (Rect.block (s := S512x128) S512x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x10.size a ≤ S128x10.size a
  hwx6_1 : ∀ i : grid6.Coords, EltTy.bits .f32 = 32 ∨ (Rect.block (s := S128x10) S128x10.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x10.size a ≤ S1x10.size a
  hwx6_2 : ∀ i : grid6.Coords, EltTy.bits .f32 = 32 ∨ (Rect.block (s := S1x10) S1x10.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S512x10.size a ≤ S512x10.size a
  hwx6_3 : ∀ i : grid6.Coords, EltTy.bits .f32 = 32 ∨ (Rect.block (s := S512x10) S512x10.size (cc6_transform_3 i) (hinb6_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v57) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v58) S2000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v58) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v59) S2000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v71) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v59) S2000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v12) S2000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v72) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v73) S2000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v85) S512x128.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S128x10.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v86) S1x10.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v87) S512x10.size cc6_transform_3 reads6_3 true true 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S512 : Shape := ⟨1, ![512]⟩
abbrev S512x128 : Shape := ⟨2, ![512, 128]⟩
abbrev S512x1 : Shape := ⟨2, ![512, 1]⟩
abbrev S512x10 : Shape := ⟨2, ![512, 10]⟩
abbrev S1x10 : Shape := ⟨2, ![1, 10]⟩

abbrev nBuf : Space → Nat
  | .hbm => 183
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x10, .f32⟩
  | 10 => ⟨S10, .f32⟩
  | 11 => ⟨S1x800000, .i32⟩
  | 12 => ⟨S800000, .i32⟩
  | 13 => ⟨S1x800000, .i32⟩
  | 14 => ⟨S800000, .i32⟩
  | 15 => ⟨S_, .f32⟩
  | 16 => ⟨S800000, .f32⟩
  | 17 => ⟨S_, .f32⟩
  | 18 => ⟨S50000, .f32⟩
  | 19 => ⟨S800000x1, .i32⟩
  | 20 => ⟨S50000, .f32⟩
  | 21 => ⟨S_, .f32⟩
  | 22 => ⟨S50000, .f32⟩
  | 23 => ⟨S50000, .f32⟩
  | 24 => ⟨S50000, .f32⟩
  | 25 => ⟨S50000x128, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000, .f32⟩
  | 44 => ⟨S800000, .f32⟩
  | 45 => ⟨S800000x1, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x128, .f32⟩
  | 55 => ⟨S800000x128, .f32⟩
  | 56 => ⟨S800000x128, .f32⟩
  | 57 => ⟨S_, .f32⟩
  | 58 => ⟨S50000x128, .f32⟩
  | 59 => ⟨S800000x1, .i32⟩
  | 60 => ⟨S50000x128, .f32⟩
  | 61 => ⟨S50000, .f32⟩
  | 62 => ⟨S50000x1, .f32⟩
  | 63 => ⟨S50000x128, .f32⟩
  | 64 => ⟨S50000x128, .f32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S50000x128, .f32⟩
  | 73 => ⟨S_, .i32⟩
  | 74 => ⟨S800000, .i32⟩
  | 75 => ⟨S800000, .i1⟩
  | 76 => ⟨S_, .i32⟩
  | 77 => ⟨S800000, .i32⟩
  | 78 => ⟨S800000, .i32⟩
  | 79 => ⟨S800000, .i32⟩
  | 80 => ⟨S800000x1, .i32⟩
  | 81 => ⟨S800000, .f32⟩
  | 82 => ⟨S_, .i32⟩
  | 83 => ⟨S800000, .i32⟩
  | 84 => ⟨S800000, .i1⟩
  | 85 => ⟨S_, .i32⟩
  | 86 => ⟨S800000, .i32⟩
  | 87 => ⟨S800000, .i32⟩
  | 88 => ⟨S800000, .i32⟩
  | 89 => ⟨S800000x1, .i32⟩
  | 90 => ⟨S800000, .f32⟩
  | 91 => ⟨S800000, .f32⟩
  | 92 => ⟨S800000x1, .f32⟩
  | 93 => ⟨S_, .i32⟩
  | 94 => ⟨S800000, .i32⟩
  | 95 => ⟨S800000, .i1⟩
  | 96 => ⟨S_, .i32⟩
  | 97 => ⟨S800000, .i32⟩
  | 98 => ⟨S800000, .i32⟩
  | 99 => ⟨S800000, .i32⟩
  | 100 => ⟨S800000x1, .i32⟩
  | 101 => ⟨S800000x128, .f32⟩
  | 102 => ⟨S800000x128, .f32⟩
  | 103 => ⟨S800000x128, .f32⟩
  | 104 => ⟨S_, .f32⟩
  | 105 => ⟨S50000x128, .f32⟩
  | 106 => ⟨S800000x1, .i32⟩
  | 107 => ⟨S50000x128, .f32⟩
  | 108 => ⟨S50000, .f32⟩
  | 109 => ⟨S50000x1, .f32⟩
  | 110 => ⟨S50000x128, .f32⟩
  | 111 => ⟨S50000x128, .f32⟩
  | 112 => ⟨S50000x128, .f32⟩
  | 113 => ⟨S1x128, .f32⟩
  | 114 => ⟨S50000x128, .f32⟩
  | 115 => ⟨S50000x128, .f32⟩
  | 116 => ⟨S_, .f32⟩
  | 117 => ⟨S50000x128, .f32⟩
  | 118 => ⟨S50000x128, .f32⟩
  | 119 => ⟨S50000x128, .f32⟩
  | 120 => ⟨S_, .i32⟩
  | 121 => ⟨S800000, .i32⟩
  | 122 => ⟨S800000, .i1⟩
  | 123 => ⟨S_, .i32⟩
  | 124 => ⟨S800000, .i32⟩
  | 125 => ⟨S800000, .i32⟩
  | 126 => ⟨S800000, .i32⟩
  | 127 => ⟨S800000x1, .i32⟩
  | _ => ⟨S50000x128, .f32⟩

abbrev hbmTy0_1 (i : Nat) : BufTy := match i % 128 with
  | 0 => ⟨S800000, .f32⟩
  | 1 => ⟨S_, .i32⟩
  | 2 => ⟨S800000, .i32⟩
  | 3 => ⟨S800000, .i1⟩
  | 4 => ⟨S_, .i32⟩
  | 5 => ⟨S800000, .i32⟩
  | 6 => ⟨S800000, .i32⟩
  | 7 => ⟨S800000, .i32⟩
  | 8 => ⟨S800000x1, .i32⟩
  | 9 => ⟨S800000, .f32⟩
  | 10 => ⟨S800000, .f32⟩
  | 11 => ⟨S800000x1, .f32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S800000x128, .f32⟩
  | 21 => ⟨S800000x128, .f32⟩
  | 22 => ⟨S800000x128, .f32⟩
  | 23 => ⟨S_, .f32⟩
  | 24 => ⟨S50000x128, .f32⟩
  | 25 => ⟨S800000x1, .i32⟩
  | 26 => ⟨S50000x128, .f32⟩
  | 27 => ⟨S50000, .f32⟩
  | 28 => ⟨S50000x1, .f32⟩
  | 29 => ⟨S50000x128, .f32⟩
  | 30 => ⟨S50000x128, .f32⟩
  | 31 => ⟨S50000x128, .f32⟩
  | 32 => ⟨S1x128, .f32⟩
  | 33 => ⟨S50000x128, .f32⟩
  | 34 => ⟨S50000x128, .f32⟩
  | 35 => ⟨S_, .f32⟩
  | 36 => ⟨S50000, .f32⟩
  | 37 => ⟨S_, .f32⟩
  | 38 => ⟨S512, .f32⟩
  | 39 => ⟨S50000x1, .i32⟩
  | 40 => ⟨S512, .f32⟩
  | 41 => ⟨S_, .f32⟩
  | 42 => ⟨S512x128, .f32⟩
  | 43 => ⟨S50000x1, .i32⟩
  | 44 => ⟨S512x128, .f32⟩
  | 45 => ⟨S_, .f32⟩
  | 46 => ⟨S512, .f32⟩
  | 47 => ⟨S512, .f32⟩
  | 48 => ⟨S512x1, .f32⟩
  | 49 => ⟨S512x128, .f32⟩
  | 50 => ⟨S512x128, .f32⟩
  | 51 => ⟨S512x10, .f32⟩
  | 52 => ⟨S1x10, .f32⟩
  | 53 => ⟨S512x10, .f32⟩
  | 54 => ⟨S512x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call0_cst : Ref sig .tc := ⟨.hbm, 69, rfl⟩
abbrev main_call0_v0 : Ref sig .tc := ⟨.hbm, 70, rfl⟩
abbrev main_v48 : Ref sig .tc := ⟨.hbm, 71, rfl⟩
abbrev main_v49 : Ref sig .tc := ⟨.hbm, 72, rfl⟩
abbrev main_c_8 : Ref sig .tc := ⟨.hbm, 73, rfl⟩
abbrev main_v50 : Ref sig .tc := ⟨.hbm, 74, rfl⟩
abbrev main_v51 : Ref sig .tc := ⟨.hbm, 75, rfl⟩
abbrev main_c_9 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_c_10 : Ref sig .tc := ⟨.hbm, 82, rfl⟩
abbrev main_v57 : Ref sig .tc := ⟨.hbm, 83, rfl⟩
abbrev main_v58 : Ref sig .tc := ⟨.hbm, 84, rfl⟩
abbrev main_c_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_c_12 : Ref sig .tc := ⟨.hbm, 93, rfl⟩
abbrev main_v66 : Ref sig .tc := ⟨.hbm, 94, rfl⟩
abbrev main_v67 : Ref sig .tc := ⟨.hbm, 95, rfl⟩
abbrev main_c_13 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_14 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_call1_cst : Ref sig .tc := ⟨.hbm, 116, rfl⟩
abbrev main_call1_v0 : Ref sig .tc := ⟨.hbm, 117, rfl⟩
abbrev main_v86 : Ref sig .tc := ⟨.hbm, 118, rfl⟩
abbrev main_v87 : Ref sig .tc := ⟨.hbm, 119, rfl⟩
abbrev main_c_15 : Ref sig .tc := ⟨.hbm, 120, rfl⟩
abbrev main_v88 : Ref sig .tc := ⟨.hbm, 121, rfl⟩
abbrev main_v89 : Ref sig .tc := ⟨.hbm, 122, rfl⟩
abbrev main_c_16 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_c_17 : Ref sig .tc := ⟨.hbm, 129, rfl⟩
abbrev main_v95 : Ref sig .tc := ⟨.hbm, 130, rfl⟩
abbrev main_v96 : Ref sig .tc := ⟨.hbm, 131, rfl⟩
abbrev main_c_18 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_c_19 : Ref sig .tc := ⟨.hbm, 140, rfl⟩
abbrev main_v104 : Ref sig .tc := ⟨.hbm, 141, rfl⟩
abbrev main_v105 : Ref sig .tc := ⟨.hbm, 142, rfl⟩
abbrev main_c_20 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_cst_21 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_cst_22 : Ref sig .tc := ⟨.hbm, 163, rfl⟩
abbrev main_v124 : Ref sig .tc := ⟨.hbm, 164, rfl⟩
abbrev main_cst_23 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_cst_24 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_cst_25 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S512 : S_.BroadcastsInDim S512 (![] : Fin 0 → Fin S512.rank)
  bcast_S_S512x128 : S_.BroadcastsInDim S512x128 (![] : Fin 0 → Fin S512x128.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S512_S50000x1_S50000_n_0_0_1_wf : ScatterDims.WF S512 S50000x1 S50000 [] [0] [0] 1
  scatter_S512x128_S50000x1_S50000x128_1_0_0_1_wf : ScatterDims.WF S512x128 S50000x1 S50000x128 [1] [0] [0] 1
  dot_S512x128_S128x10_S512x10_1_0_0_1_n_n_wf : DotDims.WF S512x128 S128x10 S512x10 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

class Facts : Prop extends Facts₀ where

variable [Facts]
-- ==== Proof.LibPlainDot.lean ====
/-
  The plain matrix product read at one entry, at the ideal values.

  Take dimension numbers that contract the left operand's column axis against the right operand's row axis and
  have no batch axis: an m×k matrix A times a k×n matrix B. Then a kernel's `tpu.matmul` into the zero
  accumulator and the host's `dot_general` both hold, at entry (a, b), the sum over the contracted coordinate c
  of A(a, c) · B(c, b) — in the extended reals, with no finiteness asked, since both are that sum by definition
  once the contraction index is renamed by its one coordinate.

  The dimension record may be any record equal to the library's `DotDims.plain m k n`; for a record written out
  with those lists the equality is `rfl`.
-/
import Idealize.ShloMosaic.PureOps.Ideal.Laws
import Idealize.ShloMosaic.Lib.ValueIdx

noncomputable section

open scoped BigOperators

namespace Cert.PlainDot

open Idealize.ShloMosaic Idealize.ShloMosaic.ValueIdx

variable {m k n : Nat} {φ₁ φ₂ : FTy}

/-- The left operand's row coordinate is the output's row. -/
theorem lhsIdx_plain_0 (j : (⟨2, ![m, n]⟩ : Shape).Idx) (q : (DotDims.plain m k n).contr.Idx) :
    ((DotDims.plain m k n).lhsIdx j q 0).val = (j 0).val := by
  unfold DotDims.lhsIdx
  rw [dif_neg (show ¬(0 : Fin 2) ∈ (DotDims.plain m k n).lhsBatch from List.not_mem_nil),
    dif_pos (show (0 : Fin 2) ∈ (DotDims.plain m k n).lhsNonContracting from List.mem_singleton.mpr rfl)]
  rfl

/-- The left operand's column coordinate is the contraction coordinate. -/
theorem lhsIdx_plain_1 (j : (⟨2, ![m, n]⟩ : Shape).Idx) (q : (DotDims.plain m k n).contr.Idx) :
    ((DotDims.plain m k n).lhsIdx j q 1).val = (q ⟨0, Nat.one_pos⟩).val :=
  (DotDims.plain m k n).lhsIdx_val_of_single rfl j q

/-- The right operand's row coordinate is the contraction coordinate. -/
theorem rhsIdx_plain_0 (j : (⟨2, ![m, n]⟩ : Shape).Idx) (q : (DotDims.plain m k n).contr.Idx) :
    ((DotDims.plain m k n).rhsIdx j q 0).val = (q ⟨0, Nat.one_pos⟩).val :=
  (DotDims.plain m k n).rhsIdx_val_of_single rfl j q

/-- The right operand's column coordinate is the output's column. -/
theorem rhsIdx_plain_1 (j : (⟨2, ![m, n]⟩ : Shape).Idx) (q : (DotDims.plain m k n).contr.Idx) :
    ((DotDims.plain m k n).rhsIdx j q 1).val = (j 1).val := by
  unfold DotDims.rhsIdx
  rw [dif_neg (show ¬(1 : Fin 2) ∈ (DotDims.plain m k n).rhsBatch from List.not_mem_nil),
    dif_pos (show (1 : Fin 2) ∈ (DotDims.plain m k n).rhsNonContracting from List.mem_singleton.mpr rfl)]
  rfl

/-- At output entry (a, b) and contraction coordinate c the left operand is read at (a, c). -/
theorem lhsIdx_plain (a : Fin m) (b : Fin n) (c : Fin k) :
    (DotDims.plain m k n).lhsIdx (ix2 a b) ((contrEquiv1 (DotDims.plain m k n) k rfl rfl).symm c) = ix2 a c := by
  have hc := contrEquiv1_symm_val (DotDims.plain m k n) k rfl rfl c
  funext ax
  apply Fin.ext
  match ax with
  | ⟨0, _⟩ => exact lhsIdx_plain_0 _ _
  | ⟨1, _⟩ => exact (lhsIdx_plain_1 _ _).trans hc

/-- At output entry (a, b) and contraction coordinate c the right operand is read at (c, b). -/
theorem rhsIdx_plain (a : Fin m) (b : Fin n) (c : Fin k) :
    (DotDims.plain m k n).rhsIdx (ix2 a b) ((contrEquiv1 (DotDims.plain m k n) k rfl rfl).symm c) = ix2 c b := by
  have hc := contrEquiv1_symm_val (DotDims.plain m k n) k rfl rfl c
  funext ax
  apply Fin.ext
  match ax with
  | ⟨0, _⟩ => exact (rhsIdx_plain_0 _ _).trans hc
  | ⟨1, _⟩ => exact rhsIdx_plain_1 _ _

/-- The sum over the contraction index of a plain product is the sum over its one coordinate. -/
theorem sum_contr_plain (A : (⟨2, ![m, k]⟩ : Shape).Idx → EReal) (B : (⟨2, ![k, n]⟩ : Shape).Idx → EReal)
    (a : Fin m) (b : Fin n) :
    (∑ q : (DotDims.plain m k n).contr.Idx,
        A ((DotDims.plain m k n).lhsIdx (ix2 a b) q) * B ((DotDims.plain m k n).rhsIdx (ix2 a b) q))
      = ∑ c : Fin k, A (ix2 a c) * B (ix2 c b) := by
  rw [← Equiv.sum_comp (contrEquiv1 (DotDims.plain m k n) k rfl rfl).symm]
  refine Finset.sum_congr rfl fun c _ => ?_
  rw [lhsIdx_plain, rhsIdx_plain]

/-- A `tpu.matmul` into the zero accumulator, with the plain dimension numbers, at entry (a, b):
    the sum over c of A(a, c) · B(c, b). -/
theorem matmul_zero_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂)
    (a : Fin m) (b : Fin n) :
    FloatOps.matmul D prec A B (constant (F := Ideal) ⟨2, ![m, n]⟩ .f32 0x00000000#32) (ix2 a b)
      = ∑ c : Fin k, A (ix2 a c) * B (ix2 c b) := by
  subst hD
  rw [Ideal.matmul_constant_zero_apply]
  exact sum_contr_plain A B a b

/-- The host's `dot_general` with the plain dimension numbers, at entry (a, b): the same sum. -/
theorem dotGeneral_apply (D : DotDims ⟨2, ![m, k]⟩ ⟨2, ![k, n]⟩ ⟨2, ![m, n]⟩) (hD : D = DotDims.plain m k n)
    (prec : Option ContractPrecision) (sched : HostSchedule) (A : FVec Ideal ⟨2, ![m, k]⟩ φ₁)
    (B : FVec Ideal ⟨2, ![k, n]⟩ φ₂) (a : Fin m) (b : Fin n) :
    FloatOps.dotGeneral D prec sched A B (ix2 a b) = ∑ c : Fin k, A (ix2 a c) * B (ix2 c b) := by
  subst hD
  rw [Ideal.dotGeneral_apply]
  exact sum_contr_plain A B a b

end Cert.PlainDot

end
-- ==== Proof.LibProduct.lean ====
/-
  The plain matrix product as one array, and its two spellings.

  For an R×K matrix X and a K×N matrix W the product is the array

      prod X W (i, j) = ∑ c, X(i, c) · W(c, j)

  in the extended reals. A host's general dot product with the plain dimension numbers IS this array, and a
  product on the matrix unit into the zero accumulator holds the same sum at every entry — with no finiteness
  asked, since each is that sum by definition once the contraction index is renamed by its one coordinate.
  The dimension record may be any record equal to the plain one (for a record written out with those lists the
  equality is `rfl`).
-/
import Idealize.ShloMosaic.PureOps.Ideal.Laws
import Idealize.ShloMosaic.Lib.ValueIdx
import proofs.«121799_j61108794688062_1_alg».proof.Proof.LibPlainDot

noncomputable section

open scoped BigOperators

namespace Cert.Product

open Idealize.ShloMosaic Idealize.ShloMosaic.ValueIdx

variable {R K N : Nat}

/-- The product X · W as one array, entry by entry. -/
def prod (X : (⟨2, ![R, K]⟩ : Shape).Idx → EReal) (W : (⟨2, ![K, N]⟩ : Shape).Idx → EReal) :
    (⟨2, ![R, N]⟩ : Shape).Idx → EReal :=
  fun i => ∑ c : Fin K, X (ix2 (i 0) c) * W (ix2 c (i 1))

/-- The product at entry (p, q). -/
theorem prod_apply (X : (⟨2, ![R, K]⟩ : Shape).Idx → EReal) (W : (⟨2, ![K, N]⟩ : Shape).Idx → EReal)
    (p : Fin R) (q : Fin N) : prod X W (ix2 p q) = ∑ c : Fin K, X (ix2 p c) * W (ix2 c q) := rfl

/-- The host's general dot product with the plain dimension numbers is the product. -/
theorem dotGeneral_eq (D : DotDims ⟨2, ![R, K]⟩ ⟨2, ![K, N]⟩ ⟨2, ![R, N]⟩) (hD : D = DotDims.plain R K N)
    (prec : Option ContractPrecision) (X : FVec Ideal ⟨2, ![R, K]⟩ .f32) (W : FVec Ideal ⟨2, ![K, N]⟩ .f32) :
    Host.dotGeneral D prec X W = prod X W := by
  funext j
  obtain ⟨p, q, rfl⟩ : ∃ (p : Fin R) (q : Fin N), j = ix2 p q := ⟨j 0, j 1, eq_ix2 j⟩
  exact PlainDot.dotGeneral_apply D hD prec .single X W p q

/-- A product on the matrix unit into the zero accumulator, after a change of float format of both operands,
    at entry (p, q): the product's entry. -/
theorem matmul_truncf_apply (D : DotDims ⟨2, ![R, K]⟩ ⟨2, ![K, N]⟩ ⟨2, ![R, N]⟩) (hD : D = DotDims.plain R K N)
    (prec : Option ContractPrecision) (X : FVec Ideal ⟨2, ![R, K]⟩ .f32) (W : FVec Ideal ⟨2, ![K, N]⟩ .f32)
    (hlt : FTy.bf16.bits < FTy.f32.bits) (p : Fin R) (q : Fin N) :
    matmul D prec (truncf .bf16 X hlt) (truncf .bf16 W hlt) (constant (F := Ideal) ⟨2, ![R, N]⟩ .f32 0x00000000#32) (ix2 p q)
      = prod X W (ix2 p q) :=
  PlainDot.matmul_zero_apply D hD prec (truncf .bf16 X hlt) (truncf .bf16 W hlt) p q

end Cert.Product

end
-- ==== Proof.LibRowVector.lean ====
/-
  A length-n vector laid out as a 1×n row, and a 1×n row copied to every row of an R×n matrix, read at an entry.

  * `broadcastTo_row`: a 1×n row broadcast to R×n holds, at (p, k), the row's entry (0, k) — for n ≠ 1
    (a unit axis of the operand is the one that is copied; a length-1 last axis would be copied too).
  * `shapeCast_row`: a length-n vector reshaped to a 1×n row holds, at (0, k), the vector's entry k: both sit at
    row-major position k.
-/
import Idealize.ShloMosaic.Lib.Pipeline.Value
import Idealize.ShloMosaic.Lib.ValueIdx

noncomputable section

namespace Cert.RowVector

open Idealize.ShloMosaic Idealize.ShloMosaic.ValueIdx

variable {α : Type} {R n : Nat}

/-- A 1×n row copied to every row of an R×n matrix, at (p, k): the row at (0, k). -/
theorem broadcastTo_row (hn : n ≠ 1) (v : (⟨2, ![1, n]⟩ : Shape).Idx → α)
    (h : (⟨2, ![1, n]⟩ : Shape).Broadcasts ⟨2, ![R, n]⟩) (p : Fin R) (k : Fin n) :
    broadcastTo ⟨2, ![R, n]⟩ v h (ix2 p k) = v (ix2 0 k) :=
  broadcastTo_apply v h (ix2 p k) (ix2 0 k) (fun a => match a with
    | ⟨0, _⟩ => by
      show (0 : Nat) = if (1 : Nat) = 1 then 0 else _
      rw [if_pos rfl]
    | ⟨1, _⟩ => by
      show k.val = if n = 1 then 0 else k.val
      rw [if_neg hn])

/-- A length-n vector reshaped to a 1×n row, at (0, k): the vector at k. -/
theorem shapeCast_row (x : (⟨1, ![n]⟩ : Shape).Idx → α)
    (h : (⟨1, ![n]⟩ : Shape).ShapeCasts ⟨2, ![1, n]⟩) (k : Fin n) :
    shapeCast ⟨2, ![1, n]⟩ x h (ix2 0 k) = x (ix1 k) :=
  shapeCast_apply x h (ix2 0 k) (ix1 k) (by
    rw [Shape.rowMajor_val_two, Shape.rowMajor_val_one]
    show k.val = 0 * n + k.val
    omega)

end Cert.RowVector

end
-- ==== Proof.LibRowInDim.lean ====
/-
  A 1×n row copied to every row of an R×n matrix by a host broadcast along both axes, read at an entry.

  `broadcast_in_dim` with dims = [0, 1] from 1×n to R×n copies along the operand's unit axis 0 and keeps axis 1
  (for n ≠ 1, where axis 1 is not itself a unit axis): entry (p, k) of the result is the row's entry (0, k).
-/
import Idealize.ShloMosaic.Lib.Pipeline.Value
import Idealize.ShloMosaic.Lib.ValueIdx

noncomputable section

namespace Cert.RowInDim

open Idealize.ShloMosaic Idealize.ShloMosaic.ValueIdx

variable {α : Type} {R n : Nat}

/-- The row broadcast along both axes into R×n, at (p, k): the row at (0, k). -/
theorem broadcastInDim_rows (hn : n ≠ 1) (v : (⟨2, ![1, n]⟩ : Shape).Idx → α)
    (h : (⟨2, ![1, n]⟩ : Shape).BroadcastsInDim ⟨2, ![R, n]⟩ (![0, 1] : Fin 2 → Fin 2)) (p : Fin R) (k : Fin n) :
    broadcastInDim ⟨2, ![R, n]⟩ ![0, 1] h v (ix2 p k) = v (ix2 0 k) :=
  broadcastInDim_apply _ h v (ix2 p k) (ix2 0 k) (fun a => match a with
    | ⟨0, _⟩ => by
      show (0 : Nat) = if (1 : Nat) = 1 then 0 else _
      rw [if_pos rfl]
    | ⟨1, _⟩ => by
      show k.val = if n = 1 then 0 else k.val
      rw [if_neg hn])

end Cert.RowInDim

end
-- ==== Proof.LibColumnInDim.lean ====
/-
  A per-row vector carried to a matrix by the host's `broadcast_in_dim`, read at an entry.

  * `broadcastInDim_column`: a length-a vector broadcast along axis 0 into an a×1 column holds, at (i, u), the
    vector's entry i.
  * `broadcastInDim_lanes`: an a×1 column broadcast along both axes into a×b holds, at (p, c), the column's entry
    of row p, whatever the lane c.
  * `shapeCast_column` and `shapeCast_eq_broadcastInDim`: a reshape of the vector to a×1 holds the same entries,
    so the reshape and the broadcast are one array.
-/
import Idealize.ShloMosaic.Lib.Pipeline.Value
import Idealize.ShloMosaic.Lib.ValueIdx

noncomputable section

namespace Cert.ColumnInDim

open Idealize.ShloMosaic Idealize.ShloMosaic.ValueIdx

variable {α : Type} {a b : Nat}

/-- The vector broadcast along axis 0 into an a×1 column, at (i, u): the vector at i. -/
theorem broadcastInDim_column (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) :=
  broadcastInDim_apply _ h x (ix2 i u) (ix1 i) (fun ax => match ax with
    | ⟨0, _⟩ => by
      show i.val = if a = 1 then 0 else i.val
      split
      · have := i.isLt; omega
      · rfl)

/-- The column broadcast along both axes into a×b, at (p, c): the column at (p, 0). -/
theorem broadcastInDim_lanes (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) :=
  broadcastInDim_apply _ h v (ix2 p c) (ix2 p (0 : Fin 1)) (fun ax => match ax with
    | ⟨0, _⟩ => by
      show p.val = if a = 1 then 0 else p.val
      split
      · have := p.isLt; omega
      · rfl
    | ⟨1, _⟩ => by
      show (0 : Nat) = if (1 : Nat) = 1 then 0 else c.val
      rw [if_pos rfl])

/-- The vector reshaped to an a×1 column, at (i, u): the vector at i. -/
theorem shapeCast_column (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- So the reshape and the broadcast are one array. -/
theorem shapeCast_eq_broadcastInDim (x : (⟨1, ![a]⟩ : Shape).Idx → α)
    (h : (⟨1, ![a]⟩ : Shape).ShapeCasts ⟨2, ![a, 1]⟩)
    (h' : (⟨1, ![a]⟩ : Shape).BroadcastsInDim ⟨2, ![a, 1]⟩ (![0] : Fin 1 → Fin 2)) :
    shapeCast ⟨2, ![a, 1]⟩ x h = broadcastInDim ⟨2, ![a, 1]⟩ ![0] h' x := by
  funext j
  obtain ⟨i, u, rfl⟩ : ∃ (i : Fin a) (u : Fin 1), j = ix2 i u := ⟨j 0, j 1, eq_ix2 j⟩
  rw [shapeCast_column, broadcastInDim_column]

end Cert.ColumnInDim

end
-- ==== Proof.LibCombine.lean ====
/-
  A graph-convolution layer's combine step as one array, and its two spellings.

  For R×N arrays A (the aggregated messages) and H (the projected features), an R×1 column D (a per-row factor)
  and a 1×N row B (a per-lane offset) the combine step is the array

      combine A H D B (i, j) = (A(i, j) + H(i, j) · D(i, 0)) + B(0, j)

  in the extended reals, and `combineRelu` clamps it below at zero. A host spells it with the column and the row
  broadcast to R×N along both axes; a kernel body spells it with the two vector broadcasts (of a whole block's
  column and of the row). Each spelling holds that value at every entry by definition, so no finiteness is asked.
  N ≠ 1, so that the row's own axis is not one a broadcast copies.
-/
import Idealize.ShloMosaic.PureOps.Ideal.Laws
import Idealize.ShloMosaic.Lib.Pipeline.Value
import Idealize.ShloMosaic.Lib.ValueIdx
import proofs.«121799_j61108794688062_1_alg».proof.Proof.LibRowVector
import proofs.«121799_j61108794688062_1_alg».proof.Proof.LibRowInDim
import proofs.«121799_j61108794688062_1_alg».proof.Proof.LibColumnInDim

noncomputable section

namespace Cert.Combine

open Idealize.ShloMosaic Idealize.ShloMosaic.ValueIdx

variable {R N : Nat}

/-- The zero every clamp compares against: the value of the all-zero f32 pattern. -/
abbrev zero : EReal := Ideal.ofBits .f32 0x00000000#32

/-- (A + H · D) + B, entry by entry: D a per-row factor, B a per-lane offset. -/
def combine (A H : (⟨2, ![R, N]⟩ : Shape).Idx → EReal) (D : (⟨2, ![R, 1]⟩ : Shape).Idx → EReal)
    (B : (⟨2, ![1, N]⟩ : Shape).Idx → EReal) : (⟨2, ![R, N]⟩ : Shape).Idx → EReal :=
  fun i => (A i + H i * D (ix2 (i 0) (0 : Fin 1))) + B (ix2 (0 : Fin 1) (i 1))

/-- The same, clamped below at zero. -/
def combineRelu (A H : (⟨2, ![R, N]⟩ : Shape).Idx → EReal) (D : (⟨2, ![R, 1]⟩ : Shape).Idx → EReal)
    (B : (⟨2, ![1, N]⟩ : Shape).Idx → EReal) : (⟨2, ![R, N]⟩ : Shape).Idx → EReal :=
  fun i => max (combine A H D B i) zero

theorem combine_apply (A H : (⟨2, ![R, N]⟩ : Shape).Idx → EReal) (D : (⟨2, ![R, 1]⟩ : Shape).Idx → EReal)
    (B : (⟨2, ![1, N]⟩ : Shape).Idx → EReal) (p : Fin R) (q : Fin N) :
    combine A H D B (ix2 p q) = (A (ix2 p q) + H (ix2 p q) * D (ix2 p (0 : Fin 1))) + B (ix2 (0 : Fin 1) q) := rfl

theorem combineRelu_apply (A H : (⟨2, ![R, N]⟩ : Shape).Idx → EReal) (D : (⟨2, ![R, 1]⟩ : Shape).Idx → EReal)
    (B : (⟨2, ![1, N]⟩ : Shape).Idx → EReal) (p : Fin R) (q : Fin N) :
    combineRelu A H D B (ix2 p q)
      = max ((A (ix2 p q) + H (ix2 p q) * D (ix2 p (0 : Fin 1))) + B (ix2 (0 : Fin 1) q)) zero := rfl

/-- An R×1 column copied to every lane of an R×N array by a vector broadcast, at (p, c): the column at (p, 0). -/
theorem broadcastTo_column {α : Type} (v : (⟨2, ![R, 1]⟩ : Shape).Idx → α)
    (h : (⟨2, ![R, 1]⟩ : Shape).Broadcasts ⟨2, ![R, N]⟩) (p : Fin R) (c : Fin N) :
    broadcastTo ⟨2, ![R, N]⟩ v h (ix2 p c) = v (ix2 p (0 : Fin 1)) :=
  broadcastTo_apply v h (ix2 p c) (ix2 p (0 : Fin 1)) (fun ax => match ax with
    | ⟨0, _⟩ => by
      show p.val = if R = 1 then 0 else p.val
      split
      · have := p.isLt; omega
      · rfl
    | ⟨1, _⟩ => by
      show (0 : Nat) = if (1 : Nat) = 1 then 0 else c.val
      rw [if_pos rfl])

/-- A scalar broadcast to every entry by the host, at an index: the scalar. -/
theorem broadcastInDim_scalar {α : Type} {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply _ h x j ix0 (fun ax => ax.elim0)

/-- A host's spelling of the combine step IS the combine step. -/
theorem host_eq (hN : N ≠ 1) (A H : FVec Ideal ⟨2, ![R, N]⟩ .f32) (D : FVec Ideal ⟨2, ![R, 1]⟩ .f32)
    (B : FVec Ideal ⟨2, ![1, N]⟩ .f32)
    (hD : (⟨2, ![R, 1]⟩ : Shape).BroadcastsInDim ⟨2, ![R, N]⟩ (![0, 1] : Fin 2 → Fin 2))
    (hB : (⟨2, ![1, N]⟩ : Shape).BroadcastsInDim ⟨2, ![R, N]⟩ (![0, 1] : Fin 2 → Fin 2)) :
    addf (addf A (mulf H (broadcastInDim ⟨2, ![R, N]⟩ ![0, 1] hD D))) (broadcastInDim ⟨2, ![R, N]⟩ ![0, 1] hB B)
      = combine A H D B := by
  funext j
  obtain ⟨p, q, rfl⟩ : ∃ (p : Fin R) (q : Fin N), j = ix2 p q := ⟨j 0, j 1, eq_ix2 j⟩
  show (A (ix2 p q) + H (ix2 p q) * broadcastInDim ⟨2, ![R, N]⟩ ![0, 1] hD D (ix2 p q))
      + broadcastInDim ⟨2, ![R, N]⟩ ![0, 1] hB B (ix2 p q) = _
  rw [ColumnInDim.broadcastInDim_lanes, RowInDim.broadcastInDim_rows hN, combine_apply]

/-- A host's clamp at zero (a maximum with the zero scalar broadcast to every entry), entry by entry. -/
theorem host_relu_eq (X : FVec Ideal ⟨2, ![R, N]⟩ .f32)
    (h0 : (⟨0, ![]⟩ : Shape).BroadcastsInDim ⟨2, ![R, N]⟩ (![] : Fin 0 → Fin 2)) :
    maximumf X (broadcastInDim ⟨2, ![R, N]⟩ ![] h0 (constant (F := Ideal) ⟨0, ![]⟩ .f32 0x00000000#32))
      = fun i => max (X i) zero := by
  funext j
  show max (X j) (broadcastInDim ⟨2, ![R, N]⟩ ![] h0 (constant (F := Ideal) ⟨0, ![]⟩ .f32 0x00000000#32) j) = _
  rw [broadcastInDim_scalar]
  rfl

/-- So a host's spelling of the clamped combine step IS the clamped combine step. -/
theorem host_relu_combine_eq (hN : N ≠ 1) (A H : FVec Ideal ⟨2, ![R, N]⟩ .f32) (D : FVec Ideal ⟨2, ![R, 1]⟩ .f32)
    (B : FVec Ideal ⟨2, ![1, N]⟩ .f32)
    (hD : (⟨2, ![R, 1]⟩ : Shape).BroadcastsInDim ⟨2, ![R, N]⟩ (![0, 1] : Fin 2 → Fin 2))
    (hB : (⟨2, ![1, N]⟩ : Shape).BroadcastsInDim ⟨2, ![R, N]⟩ (![0, 1] : Fin 2 → Fin 2))
    (h0 : (⟨0, ![]⟩ : Shape).BroadcastsInDim ⟨2, ![R, N]⟩ (![] : Fin 0 → Fin 2)) :
    maximumf (addf (addf A (mulf H (broadcastInDim ⟨2, ![R, N]⟩ ![0, 1] hD D)))
        (broadcastInDim ⟨2, ![R, N]⟩ ![0, 1] hB B))
        (broadcastInDim ⟨2, ![R, N]⟩ ![] h0 (constant (F := Ideal) ⟨0, ![]⟩ .f32 0x00000000#32))
      = combineRelu A H D B := by
  rw [host_relu_eq, host_eq hN]
  rfl

/-- A kernel body's spelling on one block (the block's column and the row spread by vector broadcasts), at entry
    (r, q) of the block. -/
theorem kernel_apply (hN : N ≠ 1) (a h : FVec Ideal ⟨2, ![R, N]⟩ .f32) (d : FVec Ideal ⟨2, ![R, 1]⟩ .f32)
    (b : FVec Ideal ⟨2, ![1, N]⟩ .f32)
    (hd : (⟨2, ![R, 1]⟩ : Shape).Broadcasts ⟨2, ![R, N]⟩) (hb : (⟨2, ![1, N]⟩ : Shape).Broadcasts ⟨2, ![R, N]⟩)
    (r : Fin R) (q : Fin N) :
    addf (addf a (mulf h (broadcastTo ⟨2, ![R, N]⟩ d hd))) (broadcastTo ⟨2, ![R, N]⟩ b hb) (ix2 r q)
      = (a (ix2 r q) + h (ix2 r q) * d (ix2 r (0 : Fin 1))) + b (ix2 (0 : Fin 1) q) := by
  show (a (ix2 r q) + h (ix2 r q) * broadcastTo ⟨2, ![R, N]⟩ d hd (ix2 r q)) + broadcastTo ⟨2, ![R, N]⟩ b hb (ix2 r q) = _
  rw [broadcastTo_column, RowVector.broadcastTo_row hN]

end Cert.Combine

end
-- ==== Proof.LibRowOfVector.lean ====
/-
  Two spellings of a length-n vector laid out as a 1×n row.

  A reshape of the vector to 1×n and a broadcast of it along axis 1 into a 1×n array are the same array: both hold,
  at (0, k), the vector's entry k (for n ≠ 1, where the broadcast does not copy along the vector's own axis).
-/
import Idealize.ShloMosaic.Lib.Pipeline.Value
import Idealize.ShloMosaic.Lib.ValueIdx

noncomputable section

namespace Cert.RowOfVector

open Idealize.ShloMosaic Idealize.ShloMosaic.ValueIdx

variable {α : Type} {n : Nat}

/-- The vector broadcast along axis 1 into a 1×n row, at (0, k): the vector at k. -/
theorem broadcastInDim_row (hn : n ≠ 1) (x : (⟨1, ![n]⟩ : Shape).Idx → α)
    (h : (⟨1, ![n]⟩ : Shape).BroadcastsInDim ⟨2, ![1, n]⟩ (![1] : Fin 1 → Fin 2)) (z : Fin 1) (k : Fin n) :
    broadcastInDim ⟨2, ![1, n]⟩ ![1] h x (ix2 z k) = x (ix1 k) :=
  broadcastInDim_apply _ h x (ix2 z k) (ix1 k) (fun a => match a with
    | ⟨0, _⟩ => by
      show k.val = if n = 1 then 0 else k.val
      rw [if_neg hn])

/-- The vector reshaped to a 1×n row, at (0, k): the vector at k. -/
theorem shapeCast_row (x : (⟨1, ![n]⟩ : Shape).Idx → α)
    (h : (⟨1, ![n]⟩ : Shape).ShapeCasts ⟨2, ![1, n]⟩) (z : Fin 1) (k : Fin n) :
    shapeCast ⟨2, ![1, n]⟩ x h (ix2 z k) = x (ix1 k) :=
  shapeCast_apply x h (ix2 z k) (ix1 k) (by
    rw [Shape.rowMajor_val_two, Shape.rowMajor_val_one]
    show k.val = z.val * n + k.val
    have hz : z.val = 0 := by have := z.isLt; omega
    rw [hz]; omega)

/-- So the reshape and the broadcast are one array. -/
theorem shapeCast_eq_broadcastInDim (hn : n ≠ 1) (x : (⟨1, ![n]⟩ : Shape).Idx → α)
    (h : (⟨1, ![n]⟩ : Shape).ShapeCasts ⟨2, ![1, n]⟩)
    (h' : (⟨1, ![n]⟩ : Shape).BroadcastsInDim ⟨2, ![1, n]⟩ (![1] : Fin 1 → Fin 2)) :
    shapeCast ⟨2, ![1, n]⟩ x h = broadcastInDim ⟨2, ![1, n]⟩ ![1] h' x := by
  funext j
  obtain ⟨z, k, rfl⟩ : ∃ (z : Fin 1) (k : Fin n), j = ix2 z k := ⟨j 0, j 1, eq_ix2 j⟩
  rw [shapeCast_row, broadcastInDim_row hn]

end Cert.RowOfVector

end
-- ==== Proof.LibHostRead.lean ====
/-
  GENERAL LEMMAS: host layout operations read at an index.

  * a host operation of three operands whose function is given as a function of the three contents leaves that
    function of the three operands' contents in its result buffer;
  * a matrix (or vector) padded on the high side only reads, inside the original extents, the operand at the same
    index, and outside them the padding value;
  * three equal-shape blocks joined along the lanes of a matrix (or along a vector) read, at position
    w·g + r of the joined axis, block g at position r.
  Nothing here depends on a program.
-/
import Idealize.ShloMosaic.Lib.StableHlo.Run
import Idealize.ShloMosaic.Lib.Pipeline.Value
import Idealize.ShloMosaic.Lib.ValueIdx

noncomputable section

namespace Cert.HostRead

open Idealize.ShloMosaic Idealize.ShloMosaic.ValueIdx Idealize.ShloMosaic.StableHlo Idealize.SL.Sem

/-- A three-operand host operation whose function is `g` of the three contents: its result buffer holds `g` of the
    operands' contents. -/
theorem nary3_result {τ : Topo} {sig : RefSig} {Val : EltTy → Type} {x a b y : Ref sig .tc}
    (g : x.ty.Contents Val → a.ty.Contents Val → b.ty.Contents Val → y.ty.Contents Val) (hxs hy)
    (F : Valuation τ sig Val) :
    (nary (τ := τ) ![x, a, b] y (fun u => g (u 0) (u 1) (u 2)) hxs hy).result F (no_index (Proc.devRef .tc y))
      = g (F (Proc.devRef .tc x)) (F (Proc.devRef .tc a)) (F (Proc.devRef .tc b)) :=
  nary_result ![x, a, b] y _ hxs hy F

variable {α : Type}

/-- A matrix padded on the high side of both axes, read inside the original extents. -/
theorem pad2_inside {a b A B ha hb : Nat} (X : (⟨2, ![a, b]⟩ : Shape).Idx → α) {u : Shape} (v : u.Idx → α)
    (h : (⟨2, ![a, b]⟩ : Shape).Pads ![0, 0] ![ha, hb] ![0, 0] ⟨2, ![A, B]⟩) (hu : 0 < u.numel)
    (i : Fin A) (j : Fin B) (hi : i.val < a) (hj : j.val < b) :
    pad ⟨2, ![A, B]⟩ ![0, 0] ![ha, hb] ![0, 0] X v h hu (ix2 i j) = X (ix2 ⟨i.val, hi⟩ ⟨j.val, hj⟩) := by
  unfold pad
  rw [dif_pos (fun ax => match ax with
    | ⟨0, _⟩ => ⟨Nat.zero_le _, Nat.mod_one _, by show (i.val - 0) / (0 + 1) < a; simpa using hi⟩
    | ⟨1, _⟩ => ⟨Nat.zero_le _, Nat.mod_one _, by show (j.val - 0) / (0 + 1) < b; simpa using hj⟩)]
  refine congrArg X (funext fun ax => Fin.ext ?_)
  match ax with
  | ⟨0, _⟩ => show (i.val - 0) / (0 + 1) = i.val; simp
  | ⟨1, _⟩ => show (j.val - 0) / (0 + 1) = j.val; simp

/-- A matrix padded on the high side, read at a row past the original rows: the padding value. -/
theorem pad2_past_rows {a b A B ha hb : Nat} (X : (⟨2, ![a, b]⟩ : Shape).Idx → α) {u : Shape} (v : u.Idx → α)
    (h : (⟨2, ![a, b]⟩ : Shape).Pads ![0, 0] ![ha, hb] ![0, 0] ⟨2, ![A, B]⟩) (hu : 0 < u.numel)
    (i : Fin A) (j : Fin B) (hi : a ≤ i.val) :
    pad ⟨2, ![A, B]⟩ ![0, 0] ![ha, hb] ![0, 0] X v h hu (ix2 i j) = v (Shape.Idx.first hu) := by
  unfold pad
  rw [dif_neg]
  intro hin
  have h0 : (i.val - 0) / (0 + 1) < a := (hin (0 : Fin 2)).2.2
  simp at h0
  omega

/-- A vector padded on the high side, read inside the original extent. -/
theorem pad1_inside {a A ha : Nat} (x : (⟨1, ![a]⟩ : Shape).Idx → α) {u : Shape} (v : u.Idx → α)
    (h : (⟨1, ![a]⟩ : Shape).Pads ![0] ![ha] ![0] ⟨1, ![A]⟩) (hu : 0 < u.numel) (i : Fin A) (hi : i.val < a) :
    pad ⟨1, ![A]⟩ ![0] ![ha] ![0] x v h hu (ix1 i) = x (ix1 ⟨i.val, hi⟩) := by
  unfold pad
  rw [dif_pos (fun ax => match ax with
    | ⟨0, _⟩ => ⟨Nat.zero_le _, Nat.mod_one _, by show (i.val - 0) / (0 + 1) < a; simpa using hi⟩)]
  refine congrArg x (funext fun ax => Fin.ext ?_)
  match ax with
  | ⟨0, _⟩ => show (i.val - 0) / (0 + 1) = i.val; simp

/-- Three K×w blocks joined along the lanes, read at lane w·g + r: block g at lane r. -/
theorem join3_lanes {K w n : Nat} (A0 A1 A2 : (⟨2, ![K, w]⟩ : Shape).Idx → α)
    (h : Shape.Concatenates [(⟨2, ![K, w]⟩ : Shape), ⟨2, ![K, w]⟩, ⟨2, ![K, w]⟩] ⟨2, ![K, n]⟩ 1) (k : Fin K) (r : Fin w) (l : Fin n) :
    (l.val = r.val → concatenate ⟨2, ![K, n]⟩ 1 [⟨⟨2, ![K, w]⟩, A0⟩, ⟨⟨2, ![K, w]⟩, A1⟩, ⟨⟨2, ![K, w]⟩, A2⟩] h (ix2 k l) = A0 (ix2 k r))
    ∧ (l.val = w + r.val → concatenate ⟨2, ![K, n]⟩ 1 [⟨⟨2, ![K, w]⟩, A0⟩, ⟨⟨2, ![K, w]⟩, A1⟩, ⟨⟨2, ![K, w]⟩, A2⟩] h (ix2 k l) = A1 (ix2 k r))
    ∧ (l.val = w + w + r.val → concatenate ⟨2, ![K, n]⟩ 1 [⟨⟨2, ![K, w]⟩, A0⟩, ⟨⟨2, ![K, w]⟩, A1⟩, ⟨⟨2, ![K, w]⟩, A2⟩] h (ix2 k l) = A2 (ix2 k r)) := by
  have hi : ∀ b : Fin 2, b.cast (rfl : (2 : Nat) = 2) ≠ (1 : Fin 2) → ((ix2 k r : (⟨2, ![K, w]⟩ : Shape).Idx) b).val = ((ix2 k l : (⟨2, ![K, n]⟩ : Shape).Idx) (b.cast rfl)).val :=
    fun b hb => match b with
      | ⟨0, _⟩ => rfl
      | ⟨1, _⟩ => absurd rfl hb
  refine ⟨fun hl => ?_, fun hl => ?_, fun hl => ?_⟩
  · exact concatenate_apply_piece (t := ⟨2, ![K, n]⟩) (1 : Fin 2) [⟨⟨2, ![K, w]⟩, A0⟩, ⟨⟨2, ![K, w]⟩, A1⟩, ⟨⟨2, ![K, w]⟩, A2⟩] h (ix2 k l) 0 (by show 0 < 3; omega) _ A0 rfl rfl 0 (by simp) (ix2 k r) hi (by show 0 + r.val = l.val; omega)
  · exact concatenate_apply_piece (t := ⟨2, ![K, n]⟩) (1 : Fin 2) [⟨⟨2, ![K, w]⟩, A0⟩, ⟨⟨2, ![K, w]⟩, A1⟩, ⟨⟨2, ![K, w]⟩, A2⟩] h (ix2 k l) 1 (by show 1 < 3; omega) _ A1 rfl rfl w (by simp) (ix2 k r) hi (by show w + r.val = l.val; omega)
  · exact concatenate_apply_piece (t := ⟨2, ![K, n]⟩) (1 : Fin 2) [⟨⟨2, ![K, w]⟩, A0⟩, ⟨⟨2, ![K, w]⟩, A1⟩, ⟨⟨2, ![K, w]⟩, A2⟩] h (ix2 k l) 2 (by show 2 < 3; omega) _ A2 rfl rfl (w + w) (by simp) (ix2 k r) hi (by show w + w + r.val = l.val; omega)

/-- Three length-w vectors joined end to end, read at position w·g + r: vector g at position r. -/
theorem join3_vec {w n : Nat} (a0 a1 a2 : (⟨1, ![w]⟩ : Shape).Idx → α)
    (h : Shape.Concatenates [(⟨1, ![w]⟩ : Shape), ⟨1, ![w]⟩, ⟨1, ![w]⟩] ⟨1, ![n]⟩ 0) (r : Fin w) (l : Fin n) :
    (l.val = r.val → concatenate ⟨1, ![n]⟩ 0 [⟨⟨1, ![w]⟩, a0⟩, ⟨⟨1, ![w]⟩, a1⟩, ⟨⟨1, ![w]⟩, a2⟩] h (ix1 l) = a0 (ix1 r))
    ∧ (l.val = w + r.val → concatenate ⟨1, ![n]⟩ 0 [⟨⟨1, ![w]⟩, a0⟩, ⟨⟨1, ![w]⟩, a1⟩, ⟨⟨1, ![w]⟩, a2⟩] h (ix1 l) = a1 (ix1 r))
    ∧ (l.val = w + w + r.val → concatenate ⟨1, ![n]⟩ 0 [⟨⟨1, ![w]⟩, a0⟩, ⟨⟨1, ![w]⟩, a1⟩, ⟨⟨1, ![w]⟩, a2⟩] h (ix1 l) = a2 (ix1 r)) := by
  have hi : ∀ b : Fin 1, b.cast (rfl : (1 : Nat) = 1) ≠ (0 : Fin 1) → ((ix1 r : (⟨1, ![w]⟩ : Shape).Idx) b).val = ((ix1 l : (⟨1, ![n]⟩ : Shape).Idx) (b.cast rfl)).val :=
    fun b hb => match b with
      | ⟨0, _⟩ => absurd rfl hb
  refine ⟨fun hl => ?_, fun hl => ?_, fun hl => ?_⟩
  · exact concatenate_apply_piece (t := ⟨1, ![n]⟩) (0 : Fin 1) [⟨⟨1, ![w]⟩, a0⟩, ⟨⟨1, ![w]⟩, a1⟩, ⟨⟨1, ![w]⟩, a2⟩] h (ix1 l) 0 (by show 0 < 3; omega) _ a0 rfl rfl 0 (by simp) (ix1 r) hi (by show 0 + r.val = l.val; omega)
  · exact concatenate_apply_piece (t := ⟨1, ![n]⟩) (0 : Fin 1) [⟨⟨1, ![w]⟩, a0⟩, ⟨⟨1, ![w]⟩, a1⟩, ⟨⟨1, ![w]⟩, a2⟩] h (ix1 l) 1 (by show 1 < 3; omega) _ a1 rfl rfl w (by simp) (ix1 r) hi (by show w + r.val = l.val; omega)
  · exact concatenate_apply_piece (t := ⟨1, ![n]⟩) (0 : Fin 1) [⟨⟨1, ![w]⟩, a0⟩, ⟨⟨1, ![w]⟩, a1⟩, ⟨⟨1, ![w]⟩, a2⟩] h (ix1 l) 2 (by show 2 < 3; omega) _ a2 rfl rfl (w + w) (by simp) (ix1 r) hi (by show w + w + r.val = l.val; omega)

end Cert.HostRead

end
-- ==== Proof.LibLinear.lean ====
/-
  An affine layer read at one entry, at the ideal values.

  For an R×K matrix X, a K×N matrix W and a length-N vector b the layer is the array

      dense X W b (i, j) = (∑ c, X(i, c) · W(c, j)) + b(j)

  in the extended reals. Two spellings of it are read here at an entry (p, q), with no finiteness asked, since
  each is that sum by definition once the contraction index is renamed by its one coordinate:

    * a kernel's: the product on the matrix unit into the zero accumulator of the two operands after a change of
      float format (the identity on ideal values), the left operand first re-cast to its own shape; the vector
      laid out as a 1×N row, copied to every row and added;
    * a host's: the general dot product with the plain dimension numbers; the vector broadcast to a 1×N row and
      then to every row, and added.

  Row i of the layer depends on row i of X alone. So rows appended below X (a padding of any value) change nothing
  in the first rows: the layer of the padded matrix, cut back to the original rows, is the layer of X
  (`slice_dense_pad`).

  The dimension record of either product may be any record equal to the plain one (for a record written out with
  those lists the equality is `rfl`); N ≠ 1 so that the row's own axis is not one that a broadcast copies.
-/
import Idealize.ShloMosaic.PureOps.Ideal.Laws
import Idealize.ShloMosaic.Lib.Pipeline.Value
import Idealize.ShloMosaic.Lib.ValueIdx
import proofs.«121799_j61108794688062_1_alg».proof.Proof.LibPlainDot
import proofs.«121799_j61108794688062_1_alg».proof.Proof.LibRowVector
import proofs.«121799_j61108794688062_1_alg».proof.Proof.LibRowInDim
import proofs.«121799_j61108794688062_1_alg».proof.Proof.LibRowOfVector
import proofs.«121799_j61108794688062_1_alg».proof.Proof.LibHostRead

noncomputable section

open scoped BigOperators

namespace Cert.Linear

open Idealize.ShloMosaic Idealize.ShloMosaic.ValueIdx

variable {R K N : Nat}

/-- The affine layer X · W + b as one array, entry by entry. -/
def dense (X : (⟨2, ![R, K]⟩ : Shape).Idx → EReal) (W : (⟨2, ![K, N]⟩ : Shape).Idx → EReal)
    (b : (⟨1, ![N]⟩ : Shape).Idx → EReal) : (⟨2, ![R, N]⟩ : Shape).Idx → EReal :=
  fun i => (∑ c : Fin K, X (ix2 (i 0) c) * W (ix2 c (i 1))) + b (ix1 (i 1))

/-- The layer at entry (p, q). -/
theorem dense_apply (X : (⟨2, ![R, K]⟩ : Shape).Idx → EReal) (W : (⟨2, ![K, N]⟩ : Shape).Idx → EReal)
    (b : (⟨1, ![N]⟩ : Shape).Idx → EReal) (p : Fin R) (q : Fin N) :
    dense X W b (ix2 p q) = (∑ c : Fin K, X (ix2 p c) * W (ix2 c q)) + b (ix1 q) := rfl

/-- A kernel's spelling of the layer, at entry (p, q). -/
theorem kernel_apply (D : DotDims ⟨2, ![R, K]⟩ ⟨2, ![K, N]⟩ ⟨2, ![R, N]⟩) (hD : D = DotDims.plain R K N) (hN : N ≠ 1)
    (prec : Option ContractPrecision) (X : FVec Ideal ⟨2, ![R, K]⟩ .f32) (W : FVec Ideal ⟨2, ![K, N]⟩ .f32)
    (b : FVec Ideal ⟨1, ![N]⟩ .f32)
    (hX : (⟨2, ![R, K]⟩ : Shape).ShapeCasts ⟨2, ![R, K]⟩) (hb : (⟨1, ![N]⟩ : Shape).ShapeCasts ⟨2, ![1, N]⟩)
    (hbc : (⟨2, ![1, N]⟩ : Shape).Broadcasts ⟨2, ![R, N]⟩) (hlt : FTy.bf16.bits < FTy.f32.bits)
    (p : Fin R) (q : Fin N) :
    addf (matmul D prec (truncf .bf16 (shapeCast ⟨2, ![R, K]⟩ X hX) hlt) (truncf .bf16 W hlt)
          (constant (F := Ideal) ⟨2, ![R, N]⟩ .f32 0x00000000#32))
        (broadcastTo ⟨2, ![R, N]⟩ (shapeCast ⟨2, ![1, N]⟩ b hb) hbc) (ix2 p q)
      = dense X W b (ix2 p q) := by
  show matmul D prec (truncf .bf16 (shapeCast ⟨2, ![R, K]⟩ X hX) hlt) (truncf .bf16 W hlt)
        (constant (F := Ideal) ⟨2, ![R, N]⟩ .f32 0x00000000#32) (ix2 p q)
      + broadcastTo ⟨2, ![R, N]⟩ (shapeCast ⟨2, ![1, N]⟩ b hb) hbc (ix2 p q) = _
  rw [RowVector.broadcastTo_row hN, RowVector.shapeCast_row, dense_apply]
  refine congrArg (· + b (ix1 q))
    ((PlainDot.matmul_zero_apply D hD prec (truncf .bf16 (shapeCast ⟨2, ![R, K]⟩ X hX) hlt) (truncf .bf16 W hlt) p q).trans ?_)
  refine Finset.sum_congr rfl fun c _ => ?_
  show shapeCast ⟨2, ![R, K]⟩ X hX (ix2 p c) * W (ix2 c q) = _
  rw [shapeCast_self]

/-- A host's spelling of the layer, at entry (r, c). -/
theorem host_apply (D : DotDims ⟨2, ![R, K]⟩ ⟨2, ![K, N]⟩ ⟨2, ![R, N]⟩) (hD : D = DotDims.plain R K N) (hN : N ≠ 1)
    (prec : Option ContractPrecision) (X : FVec Ideal ⟨2, ![R, K]⟩ .f32) (W : FVec Ideal ⟨2, ![K, N]⟩ .f32)
    (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2)) (r : Fin R) (c : Fin N) :
    addf (Host.dotGeneral D prec X W)
        (broadcastInDim ⟨2, ![R, N]⟩ ![0, 1] h2 (broadcastInDim ⟨2, ![1, N]⟩ ![1] h1 b)) (ix2 r c)
      = dense X W b (ix2 r c) := by
  show FloatOps.dotGeneral D prec .single X W (ix2 r c)
      + broadcastInDim ⟨2, ![R, N]⟩ ![0, 1] h2 (broadcastInDim ⟨2, ![1, N]⟩ ![1] h1 b) (ix2 r c) = _
  rw [RowInDim.broadcastInDim_rows hN, PlainDot.dotGeneral_apply D hD, RowOfVector.broadcastInDim_row hN, dense_apply]

/-- So a host's spelling of the layer IS the layer. -/
theorem host_eq (D : DotDims ⟨2, ![R, K]⟩ ⟨2, ![K, N]⟩ ⟨2, ![R, N]⟩) (hD : D = DotDims.plain R K N) (hN : N ≠ 1)
    (prec : Option ContractPrecision) (X : FVec Ideal ⟨2, ![R, K]⟩ .f32) (W : FVec Ideal ⟨2, ![K, N]⟩ .f32)
    (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2)) :
    addf (Host.dotGeneral D prec X W)
        (broadcastInDim ⟨2, ![R, N]⟩ ![0, 1] h2 (broadcastInDim ⟨2, ![1, N]⟩ ![1] h1 b))
      = dense X W b := by
  funext j
  obtain ⟨r, c, rfl⟩ : ∃ (r : Fin R) (c : Fin N), j = ix2 r c := ⟨j 0, j 1, eq_ix2 j⟩
  exact host_apply D hD hN prec X W b h1 h2 r c

/-- Rows appended below a matrix do not reach the rows above them: the layer of a matrix padded with extra rows,
    cut back to the original rows, is the layer of the matrix. -/
theorem slice_dense_pad {a A ha : Nat} (X : (⟨2, ![a, K]⟩ : Shape).Idx → EReal) {u : Shape} (v : u.Idx → EReal)
    (W : (⟨2, ![K, N]⟩ : Shape).Idx → EReal) (b : (⟨1, ![N]⟩ : Shape).Idx → EReal)
    (hp : (⟨2, ![a, K]⟩ : Shape).Pads ![0, 0] ![ha, 0] ![0, 0] ⟨2, ![A, K]⟩) (hu : 0 < u.numel)
    (hs : (⟨2, ![A, N]⟩ : Shape).Slices ![0, 0] ⟨2, ![a, N]⟩) (haA : a ≤ A) :
    extractStridedSlice ⟨2, ![a, N]⟩ ![0, 0] (dense (pad ⟨2, ![A, K]⟩ ![0, 0] ![ha, 0] ![0, 0] X v hp hu) W b) hs
      = dense X W b := by
  funext j
  obtain ⟨r, q, rfl⟩ : ∃ (r : Fin a) (q : Fin N), j = ix2 r q := ⟨j 0, j 1, eq_ix2 j⟩
  have hr : r.val < A := lt_of_lt_of_le r.isLt haA
  rw [extractStridedSlice_apply ![0, 0] _ hs (ix2 r q) (ix2 ⟨r.val, hr⟩ q) (fun ax => match ax with
      | ⟨0, _⟩ => by show r.val = 0 + r.val; omega
      | ⟨1, _⟩ => by show q.val = 0 + q.val; omega),
    dense_apply, dense_apply]
  refine congrArg (· + b (ix1 q)) (Finset.sum_congr rfl fun c _ => ?_)
  rw [HostRead.pad2_inside X v hp hu ⟨r.val, hr⟩ c r.isLt c.isLt]

end Cert.Linear

end
-- ==== Proof.RefNet.lean ====
/-
  The reference program as a composition of a few whole-array functions.

  The reference computes, for node features x0, edges x1, graph ids x2, three weight matrices and biases and a
  final linear layer:  the symmetric normalisation dis = rsqrt(deg + 1) of the in-degrees; per layer the
  projection h · W, the messages (row src(e) of the projection times dis[src(e)] · dis[dst(e)]) summed at dst(e),
  plus the projection times dis², plus the bias, clamped at zero after the first two layers; the per-graph mean;
  and the final affine layer. Each layer re-spells the edge coefficients and dis², always as the same operations of
  the same arrays; here those repeats are identified, a layer is named as ONE function of its input features, and
  the reference's staged term is shown to be the three layers, the pooling and the affine head composed. The
  gathers and scatters are carried as they are spelt: nothing here reads them.
-/
import proofs.«121799_j61108794688062_1_alg».proof.Proof.Gen.ReferenceIdeal.Read
import proofs.«121799_j61108794688062_1_alg».proof.Proof.LibProduct
import proofs.«121799_j61108794688062_1_alg».proof.Proof.LibCombine
import proofs.«121799_j61108794688062_1_alg».proof.Proof.LibLinear

noncomputable section

namespace Cert.ReferenceIdeal.Net

open Cert.ReferenceIdeal Cert.ReferenceIdeal.Gen Cert.ReferenceIdeal.Read Idealize.ShloMosaic Idealize.ShloMosaic.ValueIdx
open Cert.Product Cert.Combine

abbrev TFeat := (⟨S50000x128, .f32⟩ : BufTy).Contents (Elt Ideal)
abbrev TW := (⟨S128x128, .f32⟩ : BufTy).Contents (Elt Ideal)
abbrev TB := (⟨S128, .f32⟩ : BufTy).Contents (Elt Ideal)
abbrev TE := (⟨S2x800000, .i32⟩ : BufTy).Contents (Elt Ideal)
abbrev TG := (⟨S50000, .i32⟩ : BufTy).Contents (Elt Ideal)
abbrev TWl := (⟨S128x10, .f32⟩ : BufTy).Contents (Elt Ideal)
abbrev TBl := (⟨S10, .f32⟩ : BufTy).Contents (Elt Ideal)
abbrev TPool := (⟨S512x128, .f32⟩ : BufTy).Contents (Elt Ideal)
abbrev TOut := (⟨S512x10, .f32⟩ : BufTy).Contents (Elt Ideal)

/-! ## The repeated spellings are one array each -/

section Repeats
variable (x1 : TE)

/-- The source index column (negative indices wrapped), as layer 1's messages gather it, is the one the edge
    coefficients gather the normalisation through. -/
theorem nsrc_33 : val_main_v33 (F := Ideal) x1 = val_main_v17 x1 := by
  unfold val_main_v33 val_main_v32 val_main_v29 val_main_v31 val_main_v28 val_main_v30 val_main_c_5 val_main_c_6
    val_main_v17 val_main_v16 val_main_v13 val_main_v15 val_main_v12 val_main_v14 val_main_c val_main_c_2
  rfl
theorem nsrc_55 : val_main_v55 (F := Ideal) x1 = val_main_v17 x1 := by
  unfold val_main_v55 val_main_v54 val_main_v51 val_main_v53 val_main_v50 val_main_v52 val_main_c_8 val_main_c_9
    val_main_v17 val_main_v16 val_main_v13 val_main_v15 val_main_v12 val_main_v14 val_main_c val_main_c_2
  rfl
theorem nsrc_71 : val_main_v71 (F := Ideal) x1 = val_main_v17 x1 := by
  unfold val_main_v71 val_main_v70 val_main_v67 val_main_v69 val_main_v66 val_main_v68 val_main_c_12 val_main_c_13
    val_main_v17 val_main_v16 val_main_v13 val_main_v15 val_main_v12 val_main_v14 val_main_c val_main_c_2
  rfl
theorem nsrc_93 : val_main_v93 (F := Ideal) x1 = val_main_v17 x1 := by
  unfold val_main_v93 val_main_v92 val_main_v89 val_main_v91 val_main_v88 val_main_v90 val_main_c_15 val_main_c_16
    val_main_v17 val_main_v16 val_main_v13 val_main_v15 val_main_v12 val_main_v14 val_main_c val_main_c_2
  rfl
theorem nsrc_109 : val_main_v109 (F := Ideal) x1 = val_main_v17 x1 := by
  unfold val_main_v109 val_main_v108 val_main_v105 val_main_v107 val_main_v104 val_main_v106 val_main_c_19 val_main_c_20
    val_main_v17 val_main_v16 val_main_v13 val_main_v15 val_main_v12 val_main_v14 val_main_c val_main_c_2
  rfl

/-- The destination index column of the later layers' coefficients is the first layer's. -/
theorem ndst_62 : val_main_v62 (F := Ideal) x1 = val_main_v24 x1 := by
  unfold val_main_v62 val_main_v61 val_main_v58 val_main_v60 val_main_v57 val_main_v59 val_main_c_10 val_main_c_11
    val_main_v24 val_main_v23 val_main_v20 val_main_v22 val_main_v19 val_main_v21 val_main_c_3 val_main_c_4
  rfl
theorem ndst_100 : val_main_v100 (F := Ideal) x1 = val_main_v24 x1 := by
  unfold val_main_v100 val_main_v99 val_main_v96 val_main_v98 val_main_v95 val_main_v97 val_main_c_17 val_main_c_18
    val_main_v24 val_main_v23 val_main_v20 val_main_v22 val_main_v19 val_main_v21 val_main_c_3 val_main_c_4
  rfl

/-- The edge coefficients dis[src] · dis[dst], as a column, are the same array in every layer. -/
theorem coef_65 : val_main_v65 (F := Ideal) x1 = val_main_v27 x1 := by
  unfold val_main_v65 val_main_v64 val_main_v56 val_main_v63 val_main_v27 val_main_v26 val_main_v18 val_main_v25
  rw [nsrc_55, ndst_62]
theorem coef_103 : val_main_v103 (F := Ideal) x1 = val_main_v27 x1 := by
  unfold val_main_v103 val_main_v102 val_main_v94 val_main_v101 val_main_v27 val_main_v26 val_main_v18 val_main_v25
  rw [nsrc_93, ndst_100]

/-- The coefficients spread over the 128 lanes. -/
theorem bcoef_73 : val_main_v73 (F := Ideal) x1 = val_main_v35 x1 := by
  unfold val_main_v73 val_main_v35; rw [coef_65]
theorem bcoef_111 : val_main_v111 (F := Ideal) x1 = val_main_v35 x1 := by
  unfold val_main_v111 val_main_v35; rw [coef_103]

/-- The destination index column the messages are scattered by. -/
theorem dcol_76 : val_main_v76 (F := Ideal) x1 = val_main_v38 x1 := by
  unfold val_main_v76 val_main_v38; rfl
theorem dcol_114 : val_main_v114 (F := Ideal) x1 = val_main_v38 x1 := by
  unfold val_main_v114 val_main_v38; rfl

/-- The self-loop factor dis², spread over the 128 lanes. -/
theorem dis2_80 : val_main_v80 (F := Ideal) x1 = val_main_v42 x1 := by
  unfold val_main_v80 val_main_v79 val_main_v78 val_main_v42 val_main_v41 val_main_v40; rfl
theorem dis2_118 : val_main_v118 (F := Ideal) x1 = val_main_v42 x1 := by
  unfold val_main_v118 val_main_v117 val_main_v116 val_main_v42 val_main_v41 val_main_v40; rfl

end Repeats

/-- The zero array the messages are summed into. -/
theorem zeros_75 : val_main_v75 (F := Ideal) = val_main_v37 := by
  unfold val_main_v75 val_main_cst_14 val_main_v37 val_main_cst_7; rfl
theorem zeros_113 : val_main_v113 (F := Ideal) = val_main_v37 := by
  unfold val_main_v113 val_main_cst_21 val_main_v37 val_main_cst_7; rfl
/-- The zero array the clamp compares against. -/
theorem relu0_1 : val_main_call1_v0 (F := Ideal) = val_main_call0_v0 := by
  unfold val_main_call1_v0 val_main_call1_cst val_main_call0_v0 val_main_call0_cst; rfl

/-! ## One layer as one function of its input features -/

/-- The aggregation: every edge takes its source node's row of H times the edge's coefficient, and the messages
    are summed at the destination nodes. -/
def agg {F : FTy → Type} [FloatOps F] (H : (⟨S50000x128, .f32⟩ : BufTy).Contents (Elt F))
    (x1 : (⟨S2x800000, .i32⟩ : BufTy).Contents (Elt F)) : (⟨S50000x128, .f32⟩ : BufTy).Contents (Elt F) :=
  Host.scatterAdd scatter_S50000x128_S800000x1_S800000x128_1_0_0_1 (val_main_v37 (F := F)) (val_main_v38 (F := F) x1)
    (mulf (Host.gather gather_S50000x128_S800000x1_S800000x128_1_0_n_n_0_1_1128 H (val_main_v17 (F := F) x1))
      (val_main_v35 (F := F) x1))

/-- A layer clamped at zero: the projection h · W aggregated, plus the projection times dis², plus the bias. -/
def layerRelu (h : TFeat) (W : TW) (b : TB) (x1 : TE) : TFeat :=
  combineRelu (agg (prod h W) x1) (prod h W) (val_main_v41 (F := Ideal) x1) (val_main_v45 (F := Ideal) b)

/-- The last layer: the same, not clamped. -/
def layerLin (h : TFeat) (W : TW) (b : TB) (x1 : TE) : TFeat :=
  combine (agg (prod h W) x1) (prod h W) (val_main_v41 (F := Ideal) x1) (val_main_v45 (F := Ideal) b)

/-- The per-graph mean: node rows summed by graph id, over the graph's node count (at least one). -/
def meanPool {F : FTy → Type} [FloatOps F] (h : (⟨S50000x128, .f32⟩ : BufTy).Contents (Elt F))
    (x2 : (⟨S50000, .i32⟩ : BufTy).Contents (Elt F)) : (⟨S512x128, .f32⟩ : BufTy).Contents (Elt F) :=
  Host.divf (Host.scatterAdd scatter_S512x128_S50000x1_S50000x128_1_0_0_1 (val_main_v128 (F := F)) (val_main_v129 (F := F) x2) h)
    (val_main_v134 (F := F) x2)

/-- The whole network. -/
def net (x0 : TFeat) (x1 : TE) (x2 : TG) (x3 : TW) (x4 : TB) (x5 : TW) (x6 : TB) (x7 : TW) (x8 : TB) (x9 : TWl) (x10 : TBl) : TOut :=
  Linear.dense (meanPool (layerLin (layerRelu (layerRelu x0 x3 x4 x1) x5 x6 x1) x7 x8 x1) x2) x9 x10

section Layers
variable (x0 : TFeat) (x1 : TE) (x2 : TG) (x3 : TW) (x4 : TB) (x5 : TW) (x6 : TB) (x7 : TW) (x8 : TB) (x9 : TWl) (x10 : TBl)

theorem v11_eq : val_main_v11 (F := Ideal) x0 x3 = prod x0 x3 := by
  unfold val_main_v11
  exact dotGeneral_eq dot_S50000x128_S128x128_S50000x128_1_0_0_1_n_n rfl none x0 x3

theorem v39_eq : val_main_v39 (F := Ideal) x0 x1 x3 = agg (val_main_v11 x0 x3) x1 := by
  unfold val_main_v39 val_main_v36 val_main_v34 agg
  rw [nsrc_33]

theorem v48_eq : val_main_v48 (F := Ideal) x0 x1 x3 x4 = layerRelu x0 x3 x4 x1 := by
  unfold val_main_v48 val_main_v47 val_main_v44 val_main_v43 val_main_v46 val_main_v42 val_main_call0_v0 val_main_call0_cst layerRelu
  rw [v39_eq, v11_eq]
  exact host_relu_combine_eq (by decide) _ _ _ _ bcast_S50000x1_S50000x128_0_1 bcast_S1x128_S50000x128_0_1 bcast_S_S50000x128

theorem v49_eq : val_main_v49 (F := Ideal) x0 x1 x3 x4 x5 = prod (val_main_v48 x0 x1 x3 x4) x5 := by
  unfold val_main_v49
  exact dotGeneral_eq dot_S50000x128_S128x128_S50000x128_1_0_0_1_n_n rfl none _ x5

theorem v77_eq : val_main_v77 (F := Ideal) x0 x1 x3 x4 x5 = agg (val_main_v49 x0 x1 x3 x4 x5) x1 := by
  unfold val_main_v77 val_main_v74 val_main_v72 agg
  rw [zeros_75, dcol_76, nsrc_71, bcoef_73]

/-- The bias laid out as a row is spelt the same in every layer. -/
theorem brow_83 : val_main_v83 (F := Ideal) x6 = val_main_v45 x6 := by unfold val_main_v83 val_main_v45; rfl
theorem brow_121 : val_main_v121 (F := Ideal) x8 = val_main_v45 x8 := by unfold val_main_v121 val_main_v45; rfl

theorem v86_eq : val_main_v86 (F := Ideal) x0 x1 x3 x4 x5 x6 = layerRelu (val_main_v48 x0 x1 x3 x4) x5 x6 x1 := by
  unfold val_main_v86 val_main_v85 val_main_v82 val_main_v81 val_main_v84 layerRelu
  rw [v77_eq, dis2_80, relu0_1, brow_83, v49_eq]
  unfold val_main_v42 val_main_call0_v0 val_main_call0_cst
  exact host_relu_combine_eq (by decide) _ _ _ _ bcast_S50000x1_S50000x128_0_1 bcast_S1x128_S50000x128_0_1 bcast_S_S50000x128

theorem v87_eq : val_main_v87 (F := Ideal) x0 x1 x3 x4 x5 x6 x7 = prod (val_main_v86 x0 x1 x3 x4 x5 x6) x7 := by
  unfold val_main_v87
  exact dotGeneral_eq dot_S50000x128_S128x128_S50000x128_1_0_0_1_n_n rfl none _ x7

theorem v115_eq : val_main_v115 (F := Ideal) x0 x1 x3 x4 x5 x6 x7 = agg (val_main_v87 x0 x1 x3 x4 x5 x6 x7) x1 := by
  unfold val_main_v115 val_main_v112 val_main_v110 agg
  rw [zeros_113, dcol_114, nsrc_109, bcoef_111]

theorem v123_eq : val_main_v123 (F := Ideal) x0 x1 x3 x4 x5 x6 x7 x8 = layerLin (val_main_v86 x0 x1 x3 x4 x5 x6) x7 x8 x1 := by
  unfold val_main_v123 val_main_v120 val_main_v119 val_main_v122 layerLin
  rw [v115_eq, dis2_118, brow_121, v87_eq]
  unfold val_main_v42
  exact host_eq (by decide) _ _ _ _ bcast_S50000x1_S50000x128_0_1 bcast_S1x128_S50000x128_0_1

theorem v135_eq : val_main_v135 (F := Ideal) x0 x1 x2 x3 x4 x5 x6 x7 x8 = meanPool (val_main_v123 x0 x1 x3 x4 x5 x6 x7 x8) x2 := by
  unfold val_main_v135 val_main_v130 meanPool
  rfl

theorem v139_eq : val_main_v139 (F := Ideal) x0 x1 x2 x3 x4 x5 x6 x7 x8 x9 x10
    = Linear.dense (val_main_v135 x0 x1 x2 x3 x4 x5 x6 x7 x8) x9 x10 := by
  unfold val_main_v139 val_main_v136 val_main_v138 val_main_v137
  exact Linear.host_eq dot_S512x128_S128x10_S512x10_1_0_0_1_n_n rfl (by decide) none _ x9 x10 bcast_S10_S1x10_1 bcast_S1x10_S512x10_0_1

/-- The reference's result is the network: three layers, the pooling, the affine head. -/
theorem v139_net : val_main_v139 (F := Ideal) x0 x1 x2 x3 x4 x5 x6 x7 x8 x9 x10 = net x0 x1 x2 x3 x4 x5 x6 x7 x8 x9 x10 := by
  rw [v139_eq, v135_eq, v123_eq, v86_eq, v48_eq]
  rfl

end Layers

end Cert.ReferenceIdeal.Net

end
-- ==== Proof.KernelRun.lean ====
/-
  The kernel program's run with its result named.

  Every weakly fair execution of the program — twelve segments: five stretches of host operations and seven
  tiled kernels — terminates without a fault; the final memory holds, at every buffer no kernel scopes, the
  contents the segments' fold leaves after the last one. So the result buffer ends at that fold's contents and
  the argument arrays end as launched.
-/
import proofs.«121799_j61108794688062_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes
-- unfolding plain definitions in a metavariable's type
set_option backward.isDefEq.respectTransparency.types false in
/-- The run: the result buffer at the last boundary's contents, the arguments as launched. -/
theorem run : θ_run defs (onTc (τ := τ) (main (F := F))) ⟨m, fun _ => 0, ρ⟩ (fun r => ∀ c : Dev nD,
      r.2.mem ((c.tc : Thread nD τ).loc main_v87) = W12 m ρ c (Proc.devRef .tc main_v87)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v87 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c)⟩)

end Cert.KernelIdeal.RunValue

end
-- ==== Proof.KernelHost.lean ====
/-
  The host operations between the kernel program's regions, stretch by stretch.

  Each stretch is read as a function of the buffer contents it starts from (any contents W): the buffers it
  computes, as the same arrays the reference names — the edge endpoints, the symmetric normalisation's square
  and the edge coefficients (stretch 0), a layer's aggregated messages and its bias row (stretches 1, 3, 5), the
  per-graph mean and the head's bias row (stretch 6) — and every buffer it does not write, unchanged. The kernel
  program lays a vector out as a column or a row by a reshape where the reference broadcasts it; the two are one
  array. The two programs' gather and scatter dimension records are the same records.
-/
import proofs.«121799_j61108794688062_1_alg».proof.Proof.Gen.KernelIdeal.Launch
import proofs.«121799_j61108794688062_1_alg».proof.Proof.RefNet
import proofs.«121799_j61108794688062_1_alg».proof.Proof.LibColumnInDim
import proofs.«121799_j61108794688062_1_alg».proof.Proof.LibRowOfVector
import Idealize.ShloMosaic.Lib.StableHlo.Run

noncomputable section

namespace Cert.KernelIdeal.HostValues

open Cert.KernelIdeal Cert.KernelIdeal.Gen Idealize.ShloMosaic Idealize.ShloMosaic.TcCoe Idealize.ShloMosaic.StableHlo
open Cert.ReferenceIdeal.Read Cert.ReferenceIdeal.Net

/-! ## The two programs' dimension records are the same records -/

theorem rec_deg : scatter_S50000_S800000x1_S800000_n_0_0_1 = Cert.ReferenceIdeal.scatter_S50000_S800000x1_S800000_n_0_0_1 := rfl
theorem rec_g1 : gather_S50000_S800000x1_S800000_n_0_n_n_0_1_1 = Cert.ReferenceIdeal.gather_S50000_S800000x1_S800000_n_0_n_n_0_1_1 := rfl
theorem rec_g2 : gather_S50000x128_S800000x1_S800000x128_1_0_n_n_0_1_1128 = Cert.ReferenceIdeal.gather_S50000x128_S800000x1_S800000x128_1_0_n_n_0_1_1128 := rfl
theorem rec_agg : scatter_S50000x128_S800000x1_S800000x128_1_0_0_1 = Cert.ReferenceIdeal.scatter_S50000x128_S800000x1_S800000x128_1_0_0_1 := rfl
theorem rec_cnt : scatter_S512_S50000x1_S50000_n_0_0_1 = Cert.ReferenceIdeal.scatter_S512_S50000x1_S50000_n_0_0_1 := rfl
theorem rec_pool : scatter_S512x128_S50000x1_S50000x128_1_0_0_1 = Cert.ReferenceIdeal.scatter_S512x128_S50000x1_S50000x128_1_0_0_1 := rfl

variable {F : FTy → Type} [FloatOps F] (W : Valuation τ sig (Elt F))

/-! ## Stretch 0: the edge endpoints, dis², the edge coefficients -/

theorem ops0_src : after hostOps0 W (Proc.devRef .tc main_v1) = val_main_v1 (F := F) (W (Proc.devRef .tc main_arg1)) := by
  dsimp only [hostOps0]
  after_results_simp
  unfold val_main_v1 val_main_v0
  rfl

theorem ops0_dst : after hostOps0 W (Proc.devRef .tc main_v3) = val_main_v3 (F := F) (W (Proc.devRef .tc main_arg1)) := by
  dsimp only [hostOps0]
  after_results_simp
  unfold val_main_v3 val_main_v2
  rfl

/-- dis² as a 50000×1 column: the kernel program's reshape of it is the reference's broadcast of it. -/
theorem ops0_dis2 : after hostOps0 W (Proc.devRef .tc main_v12) = val_main_v41 (F := F) (W (Proc.devRef .tc main_arg1)) := by
  have e : after hostOps0 W (Proc.devRef .tc main_v12)
      = shapeCast S50000x1 (val_main_v40 (F := F) (W (Proc.devRef .tc main_arg1))) shapeCasts_S50000_S50000x1 := by
    dsimp only [hostOps0]
    after_results_simp
    rw [rec_deg]
    unfold val_main_v40 val_main_v10 val_main_v9 val_main_v7 val_main_v5 val_main_cst_0 val_main_v6 val_main_v3 val_main_v2 val_main_v4 val_main_cst val_main_v8 val_main_cst_1
    rfl
  rw [e]
  unfold val_main_v41
  exact ColumnInDim.shapeCast_eq_broadcastInDim _ _ _

/-- The edge coefficients dis[src] · dis[dst] as an 800000×1 column. -/
theorem ops0_coef : after hostOps0 W (Proc.devRef .tc main_v28) = val_main_v27 (F := F) (W (Proc.devRef .tc main_arg1)) := by
  have e : after hostOps0 W (Proc.devRef .tc main_v28)
      = shapeCast S800000x1 (val_main_v26 (F := F) (W (Proc.devRef .tc main_arg1))) shapeCasts_S800000_S800000x1 := by
    dsimp only [hostOps0]
    after_results_simp
    rw [rec_deg, rec_g1]
    unfold val_main_v26 val_main_v18 val_main_v10 val_main_v9 val_main_v7 val_main_v5 val_main_cst_0 val_main_v6 val_main_v3 val_main_v2 val_main_v4 val_main_cst val_main_v8 val_main_cst_1 val_main_v17 val_main_v16 val_main_v13 val_main_v1 val_main_v0 val_main_v12 val_main_c val_main_v15 val_main_v14 val_main_c_2 val_main_v25 val_main_v24 val_main_v23 val_main_v20 val_main_v19 val_main_c_3 val_main_v22 val_main_v21 val_main_c_4
    rfl
  rw [e]
  unfold val_main_v27
  exact ColumnInDim.shapeCast_eq_broadcastInDim _ _ _

/-- The buffers stretch 0 writes. -/
def wr0 : List (Ref sig .tc) := [main_v0, main_v1, main_v2, main_v3, main_cst, main_v4, main_cst_0, main_v5, main_v6, main_v7, main_cst_1, main_v8, main_v9, main_v10, main_v11, main_v12, main_c, main_v13, main_v14, main_c_2, main_v15, main_v16, main_v17, main_v18, main_v19, main_c_3, main_v20, main_v21, main_c_4, main_v22, main_v23, main_v24, main_v25, main_v26, main_v27, main_v28]
theorem hW0 : (hostOps0 : List (HloOp τ sig (Elt F))).Forall fun op => op.writes ⊆ (wr0.map (Proc.devRef (τ := τ) .tc)).toFinset := by
  simp only [hostOps0, List.Forall, nullary_writes, unary_writes, binary_writes, ternary_writes, reshape_writes,
    Finset.singleton_subset_iff, List.mem_toFinset]
  repeat' apply And.intro
  all_goals exact List.mem_map_of_mem (by decide)
/-- A buffer stretch 0 does not write keeps its contents. -/
theorem keep0 (b : Ref sig .tc) (hb : b ∉ wr0) : after hostOps0 W (Proc.devRef .tc b) = W (Proc.devRef .tc b) :=
  after_of_writes_sub hostOps0 W (hW0) hb

/-! ## Stretches 1, 3, 5: a layer's aggregated messages and its bias row -/

/-- Stretch 1: the messages of the projection in `main_v29`, gathered along the edges, scaled and summed at their destinations. -/
theorem ops1_agg (x1 : (⟨Cert.ReferenceIdeal.S2x800000, .i32⟩ : BufTy).Contents (Elt F)) (h1 : W (Proc.devRef .tc main_v1) = val_main_v1 (F := F) x1)
    (h3 : W (Proc.devRef .tc main_v3) = val_main_v3 (F := F) x1)
    (h28 : W (Proc.devRef .tc main_v28) = val_main_v27 (F := F) x1) :
    after hostOps1 W (Proc.devRef .tc main_v41) = agg (F := F) (W (Proc.devRef .tc main_v29)) x1 := by
  dsimp only [hostOps1]
  after_results_simp
  rw [h1, h3, h28, rec_agg, rec_g2]
  unfold agg val_main_v37 val_main_cst_7 val_main_v38 val_main_v17 val_main_v16 val_main_v13 val_main_v12 val_main_c val_main_v15 val_main_v14 val_main_c_2 val_main_v35
  rfl

/-- Stretch 1: the layer's bias laid out as a 1×128 row (a reshape, which is the broadcast along axis 1). -/
theorem ops1_row : after hostOps1 W (Proc.devRef .tc main_v42) = val_main_v45 (F := F) (W (Proc.devRef .tc main_arg4)) := by
  have e : after hostOps1 W (Proc.devRef .tc main_v42) = shapeCast S1x128 (W (Proc.devRef .tc main_arg4)) shapeCasts_S128_S1x128 := by
    dsimp only [hostOps1]
    after_results_simp
    rfl
  rw [e]
  unfold val_main_v45
  exact RowOfVector.shapeCast_eq_broadcastInDim (by decide) _ _ _

/-- The buffers stretch 1 writes. -/
def wr1 : List (Ref sig .tc) := [main_c_5, main_v30, main_v31, main_c_6, main_v32, main_v33, main_v34, main_v35, main_v36, main_v37, main_v38, main_cst_7, main_v39, main_v40, main_v41, main_v42]
theorem hW1 : (hostOps1 : List (HloOp τ sig (Elt F))).Forall fun op => op.writes ⊆ (wr1.map (Proc.devRef (τ := τ) .tc)).toFinset := by
  simp only [hostOps1, List.Forall, nullary_writes, unary_writes, binary_writes, ternary_writes, reshape_writes,
    Finset.singleton_subset_iff, List.mem_toFinset]
  repeat' apply And.intro
  all_goals exact List.mem_map_of_mem (by decide)
/-- A buffer stretch 1 does not write keeps its contents. -/
theorem keep1 (b : Ref sig .tc) (hb : b ∉ wr1) : after hostOps1 W (Proc.devRef .tc b) = W (Proc.devRef .tc b) :=
  after_of_writes_sub hostOps1 W (hW1) hb

/-- Stretch 3: the messages of the projection in `main_v44`, gathered along the edges, scaled and summed at their destinations. -/
theorem ops3_agg (x1 : (⟨Cert.ReferenceIdeal.S2x800000, .i32⟩ : BufTy).Contents (Elt F)) (h1 : W (Proc.devRef .tc main_v1) = val_main_v1 (F := F) x1)
    (h3 : W (Proc.devRef .tc main_v3) = val_main_v3 (F := F) x1)
    (h28 : W (Proc.devRef .tc main_v28) = val_main_v27 (F := F) x1) :
    after hostOps3 W (Proc.devRef .tc main_v56) = agg (F := F) (W (Proc.devRef .tc main_v44)) x1 := by
  dsimp only [hostOps3]
  after_results_simp
  rw [h1, h3, h28, rec_agg, rec_g2]
  unfold agg val_main_v37 val_main_cst_7 val_main_v38 val_main_v17 val_main_v16 val_main_v13 val_main_v12 val_main_c val_main_v15 val_main_v14 val_main_c_2 val_main_v35
  rfl

/-- Stretch 3: the layer's bias laid out as a 1×128 row (a reshape, which is the broadcast along axis 1). -/
theorem ops3_row : after hostOps3 W (Proc.devRef .tc main_v57) = val_main_v45 (F := F) (W (Proc.devRef .tc main_arg6)) := by
  have e : after hostOps3 W (Proc.devRef .tc main_v57) = shapeCast S1x128 (W (Proc.devRef .tc main_arg6)) shapeCasts_S128_S1x128 := by
    dsimp only [hostOps3]
    after_results_simp
    rfl
  rw [e]
  unfold val_main_v45
  exact RowOfVector.shapeCast_eq_broadcastInDim (by decide) _ _ _

/-- The buffers stretch 3 writes. -/
def wr3 : List (Ref sig .tc) := [main_c_8, main_v45, main_v46, main_c_9, main_v47, main_v48, main_v49, main_v50, main_v51, main_v52, main_v53, main_cst_10, main_v54, main_v55, main_v56, main_v57]
theorem hW3 : (hostOps3 : List (HloOp τ sig (Elt F))).Forall fun op => op.writes ⊆ (wr3.map (Proc.devRef (τ := τ) .tc)).toFinset := by
  simp only [hostOps3, List.Forall, nullary_writes, unary_writes, binary_writes, ternary_writes, reshape_writes,
    Finset.singleton_subset_iff, List.mem_toFinset]
  repeat' apply And.intro
  all_goals exact List.mem_map_of_mem (by decide)
/-- A buffer stretch 3 does not write keeps its contents. -/
theorem keep3 (b : Ref sig .tc) (hb : b ∉ wr3) : after hostOps3 W (Proc.devRef .tc b) = W (Proc.devRef .tc b) :=
  after_of_writes_sub hostOps3 W (hW3) hb

/-- Stretch 5: the messages of the projection in `main_v59`, gathered along the edges, scaled and summed at their destinations. -/
theorem ops5_agg (x1 : (⟨Cert.ReferenceIdeal.S2x800000, .i32⟩ : BufTy).Contents (Elt F)) (h1 : W (Proc.devRef .tc main_v1) = val_main_v1 (F := F) x1)
    (h3 : W (Proc.devRef .tc main_v3) = val_main_v3 (F := F) x1)
    (h28 : W (Proc.devRef .tc main_v28) = val_main_v27 (F := F) x1) :
    after hostOps5 W (Proc.devRef .tc main_v71) = agg (F := F) (W (Proc.devRef .tc main_v59)) x1 := by
  dsimp only [hostOps5]
  after_results_simp
  rw [h1, h3, h28, rec_agg, rec_g2]
  unfold agg val_main_v37 val_main_cst_7 val_main_v38 val_main_v17 val_main_v16 val_main_v13 val_main_v12 val_main_c val_main_v15 val_main_v14 val_main_c_2 val_main_v35
  rfl

/-- Stretch 5: the layer's bias laid out as a 1×128 row (a reshape, which is the broadcast along axis 1). -/
theorem ops5_row : after hostOps5 W (Proc.devRef .tc main_v72) = val_main_v45 (F := F) (W (Proc.devRef .tc main_arg8)) := by
  have e : after hostOps5 W (Proc.devRef .tc main_v72) = shapeCast S1x128 (W (Proc.devRef .tc main_arg8)) shapeCasts_S128_S1x128 := by
    dsimp only [hostOps5]
    after_results_simp
    rfl
  rw [e]
  unfold val_main_v45
  exact RowOfVector.shapeCast_eq_broadcastInDim (by decide) _ _ _

/-- The buffers stretch 5 writes. -/
def wr5 : List (Ref sig .tc) := [main_c_11, main_v60, main_v61, main_c_12, main_v62, main_v63, main_v64, main_v65, main_v66, main_v67, main_v68, main_cst_13, main_v69, main_v70, main_v71, main_v72]
theorem hW5 : (hostOps5 : List (HloOp τ sig (Elt F))).Forall fun op => op.writes ⊆ (wr5.map (Proc.devRef (τ := τ) .tc)).toFinset := by
  simp only [hostOps5, List.Forall, nullary_writes, unary_writes, binary_writes, ternary_writes, reshape_writes,
    Finset.singleton_subset_iff, List.mem_toFinset]
  repeat' apply And.intro
  all_goals exact List.mem_map_of_mem (by decide)
/-- A buffer stretch 5 does not write keeps its contents. -/
theorem keep5 (b : Ref sig .tc) (hb : b ∉ wr5) : after hostOps5 W (Proc.devRef .tc b) = W (Proc.devRef .tc b) :=
  after_of_writes_sub hostOps5 W (hW5) hb

/-! ## Stretch 6: the per-graph mean and the head's bias row -/

/-- The per-graph mean of the node rows in `main_v73`; the node counts' column is a reshape here, a broadcast there. -/
theorem ops6_pool (x2 : (⟨Cert.ReferenceIdeal.S50000, .i32⟩ : BufTy).Contents (Elt F)) (h2 : W (Proc.devRef .tc main_arg2) = x2) :
    after hostOps6 W (Proc.devRef .tc main_v85) = meanPool (F := F) (W (Proc.devRef .tc main_v73)) x2 := by
  have e : after hostOps6 W (Proc.devRef .tc main_v85)
      = Host.divf (F := F) (Host.scatterAdd (F := F) Cert.ReferenceIdeal.scatter_S512x128_S50000x1_S50000x128_1_0_0_1
            (val_main_v128 (F := F)) (val_main_v129 (F := F) x2) (W (Proc.devRef .tc main_v73)))
          (broadcastInDim S512x128 ![0, 1] bcast_S512x1_S512x128_0_1
            (shapeCast S512x1 (val_main_v132 (F := F) x2) shapeCasts_S512_S512x1)) := by
    dsimp only [hostOps6]
    after_results_simp
    rw [h2, rec_pool, rec_cnt]
    unfold val_main_v128 val_main_cst_24 val_main_v129 val_main_v132 val_main_v127 val_main_v125 val_main_cst_23 val_main_v126 val_main_v124 val_main_cst_22 val_main_v131 val_main_cst_25
    rfl
  rw [e]
  unfold meanPool val_main_v134 val_main_v133
  rw [ColumnInDim.shapeCast_eq_broadcastInDim _ _ Cert.ReferenceIdeal.Gen.bcast_S512_S512x1_0]

/-- The head's bias laid out as a 1×10 row. -/
theorem ops6_row : after hostOps6 W (Proc.devRef .tc main_v86)
    = shapeCast S1x10 (W (Proc.devRef .tc main_arg10)) shapeCasts_S10_S1x10 := by
  dsimp only [hostOps6]
  after_results_simp
  rfl

/-- The buffers stretch 6 writes. -/
def wr6 : List (Ref sig .tc) := [main_cst_14, main_v74, main_cst_15, main_v75, main_v76, main_v77, main_cst_16, main_v78, main_v79, main_v80, main_cst_17, main_v81, main_v82, main_v83, main_v84, main_v85, main_v86]
theorem hW6 : (hostOps6 : List (HloOp τ sig (Elt F))).Forall fun op => op.writes ⊆ (wr6.map (Proc.devRef (τ := τ) .tc)).toFinset := by
  simp only [hostOps6, List.Forall, nullary_writes, unary_writes, binary_writes, ternary_writes, reshape_writes,
    Finset.singleton_subset_iff, List.mem_toFinset]
  repeat' apply And.intro
  all_goals exact List.mem_map_of_mem (by decide)
/-- A buffer stretch 6 does not write keeps its contents. -/
theorem keep6 (b : Ref sig .tc) (hb : b ∉ wr6) : after hostOps6 W (Proc.devRef .tc b) = W (Proc.devRef .tc b) :=
  after_of_writes_sub hostOps6 W (hW6) hb

end Cert.KernelIdeal.HostValues

end
-- ==== Proof.Mm0.lean ====
/-
  A dense projection of the stack: what the tiled matrix product leaves in its output array.

  The 50000 rows are cut into 25 blocks of 2000; at block t the body multiplies rows 2000·t … 2000·t + 1999 of the
  left matrix by the whole 128×128 weight matrix on the matrix unit, into a zero accumulator, after a change of
  float format that is the identity on ideal values. Entry (r, q) of the block's product is the sum over k of
  X(2000·t + r, k) · W(k, q): entry (2000·t + r, q) of the whole product X · W. Every row lies in a block, so
  the output array ends holding X · W.
-/
import proofs.«121799_j61108794688062_1_alg».proof.Proof.Gen.KernelIdeal.Frame
import proofs.«121799_j61108794688062_1_alg».proof.Proof.LibProduct
import Idealize.ShloMosaic.Lib.Pipeline.Value
import Idealize.ShloMosaic.Lib.ValueIdx
import Idealize.ShloMosaic.PureOps.Ideal.Laws

noncomputable section

open Idealize.ShloMosaic Idealize.ShloMosaic.TcCoe Idealize.ShloMosaic.ValueIdx Idealize.SL.Sem
open Idealize.ShloMosaic.Pipeline (Dat)
open scoped BigOperators

namespace Cert.KernelIdeal.Mm0

open Cert.KernelIdeal Cert.KernelIdeal.Gen Cert.Product

theorem hz : (![0, 0] : Fin 2 → Nat) = fun _ => 0 := funext fun a => by fin_cases a <;> rfl

/-- The body's product at entry (r, q) of a block: the block's row r against the weight's column q. -/
theorem pay (x : Vec Ideal S2000x128 .f32) (w : Vec Ideal S128x128 .f32) (r : Fin 2000) (q : Fin 128) :
    k0_pay1 (F := Ideal) x w (ix2 r q) = ∑ k : Fin 128, x (ix2 r k) * w (ix2 k q) := by
  unfold k0_pay1
  exact PlainDot.matmul_zero_apply dot_S2000x128_S128x128_S2000x128_1_0_0_1_n_n rfl none _ _ r q

/-- Where each window's block sits at grid point t: the row blocks move with t, the weight stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 25 :=
  (by decide +kernel : ∀ t : Fin grid0.N, _)

/-- One entry of a block's product is the entry of the whole product in the block's row range. -/
theorem point_eq (X : S50000x128.Idx → EReal) (W : S128x128.Idx → EReal)
    (x : Vec Ideal S2000x128 .f32) (w : Vec Ideal S128x128 .f32) (T : Nat) (hT : T < 25)
    (hx : ∀ (r : Fin 2000) (k : Fin 128), x (ix2 r k) = X (ix2 ⟨T * 2000 + r.val, by have := r.isLt; omega⟩ k))
    (hw : ∀ (k q : Fin 128), w (ix2 k q) = W (ix2 k q))
    (y : S2000x128.Idx) (i : S50000x128.Idx) (hi0 : (i 0).val = T * 2000 + (y 0).val) (hi1 : (i 1).val = (y 1).val) :
    k0_pay1 (F := Ideal) x w y = prod X W i := by
  obtain ⟨r, q, rfl⟩ : ∃ (r : Fin 2000) (q : Fin 128), y = ix2 r q := ⟨y 0, y 1, eq_ix2 y⟩
  rw [pay]
  unfold prod
  refine Finset.sum_congr rfl fun k _ => ?_
  rw [hx, hw]
  have e0 : i 0 = (⟨T * 2000 + r.val, by have := r.isLt; omega⟩ : Fin 50000) := Fin.ext hi0
  have e1 : i 1 = q := Fin.ext hi1
  rw [e0, e1]

variable (V : (c : Dev nD) → (b : Ref sig .tc) → Buf (Elt Ideal) ((c : Thread nD τ).loc b))

/-- What point t writes back is block t of the whole product of the arrays as the region finds them. -/
theorem flushed_eq (c : Dev nD) (t : Fin cfg0.N) :
    (dat0 (F := Ideal) V c).flushed 2 t
      = ((cfg0.win 2).blk t).view.read (Elt Ideal) (prod (V c main_arg0) (V c main_arg3)) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x128) hz]
  obtain ⟨e0, e1, e2, e3, e4, e5, e6⟩ := idx_facts t
  funext j
  refine point_eq (V c main_arg0) (V c main_arg3) (iblk0 V c 0 t) (iblk0 V c 1 t) t.val e6 (fun r k => ?_) (fun k q => ?_)
    j (((cfg0.win 2).blk t).view.emb j) ?_ ?_
  · unfold iblk0
    rw [View.read_apply]
    show V c main_arg0 _ = V c main_arg0 _
    refine congrArg _ (funext fun a => Fin.ext ?_)
    match a with
    | ⟨0, _⟩ => show win0_0.index t (0 : Fin 2) * 2000 + 1 * r.val = t.val * 2000 + r.val; rw [e0]; omega
    | ⟨1, _⟩ => show win0_0.index t (1 : Fin 2) * 128 + 1 * k.val = k.val; rw [e1]; omega
  · unfold iblk0
    rw [View.read_apply]
    show V c main_arg3 _ = V c main_arg3 _
    refine congrArg _ (funext fun a => Fin.ext ?_)
    match a with
    | ⟨0, _⟩ => show win0_1.index t (0 : Fin 2) * 128 + 1 * k.val = k.val; rw [e2]; omega
    | ⟨1, _⟩ => show win0_1.index t (1 : Fin 2) * 128 + 1 * q.val = q.val; rw [e3]; omega
  · show win0_2.index t (0 : Fin 2) * 2000 + 1 * (j 0).val = t.val * 2000 + (j 0).val; rw [e4]; omega
  · show win0_2.index t (1 : Fin 2) * 128 + 1 * (j 1).val = (j 1).val; rw [e5]; omega

/-- An index of the array is in point t's block iff each coordinate is in the block's range on its axis. -/
theorem mem_blk (t : Fin cfg0.N) (i : S50000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v29).slice (win0_2.rect t)).set ↔ _
  rw [View.set_slice_whole, Rect.mem_set_unit]
  exact Iff.rfl

/-- Row R of the array lies in the block of point R / 2000. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 25 := N_0
  have hlt : (i 0).val / 2000 < cfg0.N := by rw [hN]; omega
  obtain ⟨e0, e1, e2, e3, e4, e5, e6⟩ := idx_facts ⟨(i 0).val / 2000, hlt⟩
  refine ⟨⟨(i 0).val / 2000, hlt⟩, flush0_2 _, ?_⟩
  rw [mem_blk]
  intro a
  match a with
  | ⟨0, _⟩ =>
    show win0_2.index ⟨(i 0).val / 2000, hlt⟩ (0 : Fin 2) * 2000 ≤ (i 0).val
      ∧ (i 0).val < win0_2.index ⟨(i 0).val / 2000, hlt⟩ (0 : Fin 2) * 2000 + 2000
    rw [e4]; show (i 0).val / 2000 * 2000 ≤ (i 0).val ∧ (i 0).val < (i 0).val / 2000 * 2000 + 2000; omega
  | ⟨1, _⟩ =>
    show win0_2.index ⟨(i 0).val / 2000, hlt⟩ (1 : Fin 2) * 128 ≤ (i 1).val
      ∧ (i 1).val < win0_2.index ⟨(i 0).val / 2000, hlt⟩ (1 : Fin 2) * 128 + 128
    rw [e5]; omega

/-- The output array after the region: the whole product of the arrays as the region finds them. -/
theorem arr (c : Dev nD) : (dat0 (F := Ideal) V c).arrAt 2 cfg0.N = prod (V c main_arg0) (V c main_arg3) :=
  (dat0 V c).arrAt_eq_of_cover 2 (prod (V c main_arg0) (V c main_arg3)) (fun t _ => flushed_eq V c t) cover

end Cert.KernelIdeal.Mm0

end
-- ==== Proof.Mm2.lean ====
/-
  A dense projection of the stack: what the tiled matrix product leaves in its output array.

  The 50000 rows are cut into 25 blocks of 2000; at block t the body multiplies rows 2000·t … 2000·t + 1999 of the
  left matrix by the whole 128×128 weight matrix on the matrix unit, into a zero accumulator, after a change of
  float format that is the identity on ideal values. Entry (r, q) of the block's product is the sum over k of
  X(2000·t + r, k) · W(k, q): entry (2000·t + r, q) of the whole product X · W. Every row lies in a block, so
  the output array ends holding X · W.
-/
import proofs.«121799_j61108794688062_1_alg».proof.Proof.Gen.KernelIdeal.Frame
import proofs.«121799_j61108794688062_1_alg».proof.Proof.LibProduct
import Idealize.ShloMosaic.Lib.Pipeline.Value
import Idealize.ShloMosaic.Lib.ValueIdx
import Idealize.ShloMosaic.PureOps.Ideal.Laws

noncomputable section

open Idealize.ShloMosaic Idealize.ShloMosaic.TcCoe Idealize.ShloMosaic.ValueIdx Idealize.SL.Sem
open Idealize.ShloMosaic.Pipeline (Dat)
open scoped BigOperators

namespace Cert.KernelIdeal.Mm2

open Cert.KernelIdeal Cert.KernelIdeal.Gen Cert.Product

theorem hz : (![0, 0] : Fin 2 → Nat) = fun _ => 0 := funext fun a => by fin_cases a <;> rfl

/-- The body's product at entry (r, q) of a block: the block's row r against the weight's column q. -/
theorem pay (x : Vec Ideal S2000x128 .f32) (w : Vec Ideal S128x128 .f32) (r : Fin 2000) (q : Fin 128) :
    k2_pay1 (F := Ideal) x w (ix2 r q) = ∑ k : Fin 128, x (ix2 r k) * w (ix2 k q) := by
  unfold k2_pay1
  refine (PlainDot.matmul_zero_apply dot_S2000x128_S128x128_S2000x128_1_0_0_1_n_n rfl none _ _ r q).trans ?_
  refine Finset.sum_congr rfl fun k _ => ?_
  show shapeCast S2000x128 x shapeCasts_S2000x128_S2000x128 (ix2 r k) * w (ix2 k q) = _
  rw [shapeCast_self]

/-- Where each window's block sits at grid point t: the row blocks move with t, the weight stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 ∧ t.val < 25 :=
  (by decide +kernel : ∀ t : Fin grid2.N, _)

/-- One entry of a block's product is the entry of the whole product in the block's row range. -/
theorem point_eq (X : S50000x128.Idx → EReal) (W : S128x128.Idx → EReal)
    (x : Vec Ideal S2000x128 .f32) (w : Vec Ideal S128x128 .f32) (T : Nat) (hT : T < 25)
    (hx : ∀ (r : Fin 2000) (k : Fin 128), x (ix2 r k) = X (ix2 ⟨T * 2000 + r.val, by have := r.isLt; omega⟩ k))
    (hw : ∀ (k q : Fin 128), w (ix2 k q) = W (ix2 k q))
    (y : S2000x128.Idx) (i : S50000x128.Idx) (hi0 : (i 0).val = T * 2000 + (y 0).val) (hi1 : (i 1).val = (y 1).val) :
    k2_pay1 (F := Ideal) x w y = prod X W i := by
  obtain ⟨r, q, rfl⟩ : ∃ (r : Fin 2000) (q : Fin 128), y = ix2 r q := ⟨y 0, y 1, eq_ix2 y⟩
  rw [pay]
  unfold prod
  refine Finset.sum_congr rfl fun k _ => ?_
  rw [hx, hw]
  have e0 : i 0 = (⟨T * 2000 + r.val, by have := r.isLt; omega⟩ : Fin 50000) := Fin.ext hi0
  have e1 : i 1 = q := Fin.ext hi1
  rw [e0, e1]

variable (V : (c : Dev nD) → (b : Ref sig .tc) → Buf (Elt Ideal) ((c : Thread nD τ).loc b))

/-- What point t writes back is block t of the whole product of the arrays as the region finds them. -/
theorem flushed_eq (c : Dev nD) (t : Fin cfg2.N) :
    (dat2 (F := Ideal) V c).flushed 2 t
      = ((cfg2.win 2).blk t).view.read (Elt Ideal) (prod (V c main_v43) (V c main_arg5)) := by
  show (cfg2.win 2).cut (grid2.coords t) ((dat2 V c).after 2 t) = _
  rw [after2_2]
  unfold out2_2
  rw [View.canon_unit_zero hz]
  simp only [View.ld_unit_zero (S := S2000x128) hz, View.ld_unit_zero (S := S128x128) hz]
  obtain ⟨e0, e1, e2, e3, e4, e5, e6⟩ := idx_facts t
  funext j
  refine point_eq (V c main_v43) (V c main_arg5) (iblk2 V c 0 t) (iblk2 V c 1 t) t.val e6 (fun r k => ?_) (fun k q => ?_)
    j (((cfg2.win 2).blk t).view.emb j) ?_ ?_
  · unfold iblk2
    rw [View.read_apply]
    show V c main_v43 _ = V c main_v43 _
    refine congrArg _ (funext fun a => Fin.ext ?_)
    match a with
    | ⟨0, _⟩ => show win2_0.index t (0 : Fin 2) * 2000 + 1 * r.val = t.val * 2000 + r.val; rw [e0]; omega
    | ⟨1, _⟩ => show win2_0.index t (1 : Fin 2) * 128 + 1 * k.val = k.val; rw [e1]; omega
  · unfold iblk2
    rw [View.read_apply]
    show V c main_arg5 _ = V c main_arg5 _
    refine congrArg _ (funext fun a => Fin.ext ?_)
    match a with
    | ⟨0, _⟩ => show win2_1.index t (0 : Fin 2) * 128 + 1 * k.val = k.val; rw [e2]; omega
    | ⟨1, _⟩ => show win2_1.index t (1 : Fin 2) * 128 + 1 * q.val = q.val; rw [e3]; omega
  · show win2_2.index t (0 : Fin 2) * 2000 + 1 * (j 0).val = t.val * 2000 + (j 0).val; rw [e4]; omega
  · show win2_2.index t (1 : Fin 2) * 128 + 1 * (j 1).val = (j 1).val; rw [e5]; omega

/-- An index of the array is in point t's block iff each coordinate is in the block's range on its axis. -/
theorem mem_blk (t : Fin cfg2.N) (i : S50000x128.Idx) :
    i ∈ ((cfg2.win 2).blk t).view.set ↔ ∀ a : Fin 2, win2_2.index t a * S2000x128.size a ≤ (i a).val
      ∧ (i a).val < win2_2.index t a * S2000x128.size a + S2000x128.size a := by
  show i ∈ ((View.whole main_v44).slice (win2_2.rect t)).set ↔ _
  rw [View.set_slice_whole, Rect.mem_set_unit]
  exact Iff.rfl

/-- Row R of the array lies in the block of point R / 2000. -/
theorem cover (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 25 := N_2
  have hlt : (i 0).val / 2000 < cfg2.N := by rw [hN]; omega
  obtain ⟨e0, e1, e2, e3, e4, e5, e6⟩ := idx_facts ⟨(i 0).val / 2000, hlt⟩
  refine ⟨⟨(i 0).val / 2000, hlt⟩, flush2_2 _, ?_⟩
  rw [mem_blk]
  intro a
  match a with
  | ⟨0, _⟩ =>
    show win2_2.index ⟨(i 0).val / 2000, hlt⟩ (0 : Fin 2) * 2000 ≤ (i 0).val
      ∧ (i 0).val < win2_2.index ⟨(i 0).val / 2000, hlt⟩ (0 : Fin 2) * 2000 + 2000
    rw [e4]; show (i 0).val / 2000 * 2000 ≤ (i 0).val ∧ (i 0).val < (i 0).val / 2000 * 2000 + 2000; omega
  | ⟨1, _⟩ =>
    show win2_2.index ⟨(i 0).val / 2000, hlt⟩ (1 : Fin 2) * 128 ≤ (i 1).val
      ∧ (i 1).val < win2_2.index ⟨(i 0).val / 2000, hlt⟩ (1 : Fin 2) * 128 + 128
    rw [e5]; omega

/-- The output array after the region: the whole product of the arrays as the region finds them. -/
theorem arr (c : Dev nD) : (dat2 (F := Ideal) V c).arrAt 2 cfg2.N = prod (V c main_v43) (V c main_arg5) :=
  (dat2 V c).arrAt_eq_of_cover 2 (prod (V c main_v43) (V c main_arg5)) (fun t _ => flushed_eq V c t) cover

end Cert.KernelIdeal.Mm2

end
-- ==== Proof.Mm4.lean ====
/-
  A dense projection of the stack: what the tiled matrix product leaves in its output array.

  The 50000 rows are cut into 25 blocks of 2000; at block t the body multiplies rows 2000·t … 2000·t + 1999 of the
  left matrix by the whole 128×128 weight matrix on the matrix unit, into a zero accumulator, after a change of
  float format that is the identity on ideal values. Entry (r, q) of the block's product is the sum over k of
  X(2000·t + r, k) · W(k, q): entry (2000·t + r, q) of the whole product X · W. Every row lies in a block, so
  the output array ends holding X · W.
-/
import proofs.«121799_j61108794688062_1_alg».proof.Proof.Gen.KernelIdeal.Frame
import proofs.«121799_j61108794688062_1_alg».proof.Proof.LibProduct
import Idealize.ShloMosaic.Lib.Pipeline.Value
import Idealize.ShloMosaic.Lib.ValueIdx
import Idealize.ShloMosaic.PureOps.Ideal.Laws

noncomputable section

open Idealize.ShloMosaic Idealize.ShloMosaic.TcCoe Idealize.ShloMosaic.ValueIdx Idealize.SL.Sem
open Idealize.ShloMosaic.Pipeline (Dat)
open scoped BigOperators

namespace Cert.KernelIdeal.Mm4

open Cert.KernelIdeal Cert.KernelIdeal.Gen Cert.Product

theorem hz : (![0, 0] : Fin 2 → Nat) = fun _ => 0 := funext fun a => by fin_cases a <;> rfl

/-- The body's product at entry (r, q) of a block: the block's row r against the weight's column q. -/
theorem pay (x : Vec Ideal S2000x128 .f32) (w : Vec Ideal S128x128 .f32) (r : Fin 2000) (q : Fin 128) :
    k4_pay1 (F := Ideal) x w (ix2 r q) = ∑ k : Fin 128, x (ix2 r k) * w (ix2 k q) := by
  unfold k4_pay1
  refine (PlainDot.matmul_zero_apply dot_S2000x128_S128x128_S2000x128_1_0_0_1_n_n rfl none _ _ r q).trans ?_
  refine Finset.sum_congr rfl fun k _ => ?_
  show shapeCast S2000x128 x shapeCasts_S2000x128_S2000x128 (ix2 r k) * w (ix2 k q) = _
  rw [shapeCast_self]

/-- Where each window's block sits at grid point t: the row blocks move with t, the weight stays. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 ∧ t.val < 25 :=
  (by decide +kernel : ∀ t : Fin grid4.N, _)

/-- One entry of a block's product is the entry of the whole product in the block's row range. -/
theorem point_eq (X : S50000x128.Idx → EReal) (W : S128x128.Idx → EReal)
    (x : Vec Ideal S2000x128 .f32) (w : Vec Ideal S128x128 .f32) (T : Nat) (hT : T < 25)
    (hx : ∀ (r : Fin 2000) (k : Fin 128), x (ix2 r k) = X (ix2 ⟨T * 2000 + r.val, by have := r.isLt; omega⟩ k))
    (hw : ∀ (k q : Fin 128), w (ix2 k q) = W (ix2 k q))
    (y : S2000x128.Idx) (i : S50000x128.Idx) (hi0 : (i 0).val = T * 2000 + (y 0).val) (hi1 : (i 1).val = (y 1).val) :
    k4_pay1 (F := Ideal) x w y = prod X W i := by
  obtain ⟨r, q, rfl⟩ : ∃ (r : Fin 2000) (q : Fin 128), y = ix2 r q := ⟨y 0, y 1, eq_ix2 y⟩
  rw [pay]
  unfold prod
  refine Finset.sum_congr rfl fun k _ => ?_
  rw [hx, hw]
  have e0 : i 0 = (⟨T * 2000 + r.val, by have := r.isLt; omega⟩ : Fin 50000) := Fin.ext hi0
  have e1 : i 1 = q := Fin.ext hi1
  rw [e0, e1]

variable (V : (c : Dev nD) → (b : Ref sig .tc) → Buf (Elt Ideal) ((c : Thread nD τ).loc b))

/-- What point t writes back is block t of the whole product of the arrays as the region finds them. -/
theorem flushed_eq (c : Dev nD) (t : Fin cfg4.N) :
    (dat4 (F := Ideal) V c).flushed 2 t
      = ((cfg4.win 2).blk t).view.read (Elt Ideal) (prod (V c main_v58) (V c main_arg7)) := by
  show (cfg4.win 2).cut (grid4.coords t) ((dat4 V c).after 2 t) = _
  rw [after4_2]
  unfold out4_2
  rw [View.canon_unit_zero hz]
  simp only [View.ld_unit_zero (S := S2000x128) hz, View.ld_unit_zero (S := S128x128) hz]
  obtain ⟨e0, e1, e2, e3, e4, e5, e6⟩ := idx_facts t
  funext j
  refine point_eq (V c main_v58) (V c main_arg7) (iblk4 V c 0 t) (iblk4 V c 1 t) t.val e6 (fun r k => ?_) (fun k q => ?_)
    j (((cfg4.win 2).blk t).view.emb j) ?_ ?_
  · unfold iblk4
    rw [View.read_apply]
    show V c main_v58 _ = V c main_v58 _
    refine congrArg _ (funext fun a => Fin.ext ?_)
    match a with
    | ⟨0, _⟩ => show win4_0.index t (0 : Fin 2) * 2000 + 1 * r.val = t.val * 2000 + r.val; rw [e0]; omega
    | ⟨1, _⟩ => show win4_0.index t (1 : Fin 2) * 128 + 1 * k.val = k.val; rw [e1]; omega
  · unfold iblk4
    rw [View.read_apply]
    show V c main_arg7 _ = V c main_arg7 _
    refine congrArg _ (funext fun a => Fin.ext ?_)
    match a with
    | ⟨0, _⟩ => show win4_1.index t (0 : Fin 2) * 128 + 1 * k.val = k.val; rw [e2]; omega
    | ⟨1, _⟩ => show win4_1.index t (1 : Fin 2) * 128 + 1 * q.val = q.val; rw [e3]; omega
  · show win4_2.index t (0 : Fin 2) * 2000 + 1 * (j 0).val = t.val * 2000 + (j 0).val; rw [e4]; omega
  · show win4_2.index t (1 : Fin 2) * 128 + 1 * (j 1).val = (j 1).val; rw [e5]; omega

/-- An index of the array is in point t's block iff each coordinate is in the block's range on its axis. -/
theorem mem_blk (t : Fin cfg4.N) (i : S50000x128.Idx) :
    i ∈ ((cfg4.win 2).blk t).view.set ↔ ∀ a : Fin 2, win4_2.index t a * S2000x128.size a ≤ (i a).val
      ∧ (i a).val < win4_2.index t a * S2000x128.size a + S2000x128.size a := by
  show i ∈ ((View.whole main_v59).slice (win4_2.rect t)).set ↔ _
  rw [View.set_slice_whole, Rect.mem_set_unit]
  exact Iff.rfl

/-- Row R of the array lies in the block of point R / 2000. -/
theorem cover (i : S50000x128.Idx) :
    ∃ t : Fin cfg4.N, (cfg4.win 2).flush t = true ∧ i ∈ ((cfg4.win 2).blk t).view.set := by
  have hi0 : (i 0).val < 50000 := (i 0).isLt
  have hi1 : (i 1).val < 128 := (i 1).isLt
  have hN : cfg4.N = 25 := N_4
  have hlt : (i 0).val / 2000 < cfg4.N := by rw [hN]; omega
  obtain ⟨e0, e1, e2, e3, e4, e5, e6⟩ := idx_facts ⟨(i 0).val / 2000, hlt⟩
  refine ⟨⟨(i 0).val / 2000, hlt⟩, flush4_2 _, ?_⟩
  rw [mem_blk]
  intro a
  match a with
  | ⟨0, _⟩ =>
    show win4_2.index ⟨(i 0).val / 2000, hlt⟩ (0 : Fin 2) * 2000 ≤ (i 0).val
      ∧ (i 0).val < win4_2.index ⟨(i 0).val / 2000, hlt⟩ (0 : Fin 2) * 2000 + 2000
    rw [e4]; show (i 0).val / 2000 * 2000 ≤ (i 0).val ∧ (i 0).val < (i 0).val / 2000 * 2000 + 2000; omega
  | ⟨1, _⟩ =>
    show win4_2.index ⟨(i 0).val / 2000, hlt⟩ (1 : Fin 2) * 128 ≤ (i 1).val
      ∧ (i 1).val < win4_2.index ⟨(i 0).val / 2000, hlt⟩ (1 : Fin 2) * 128 + 128
    rw [e5]; omega

/-- The output array after the region: the whole product of the arrays as the region finds them. -/
theorem arr (c : Dev nD) : (dat4 (F := Ideal) V c).arrAt 2 cfg4.N = prod (V c main_v58) (V c main_arg7) :=
  (dat4 V c).arrAt_eq_of_cover 2 (prod (V c main_v58) (V c main_arg7)) (fun t _ => flushed_eq V c t) cover

end Cert.KernelIdeal.Mm4

end
-- ==== Proof.Cmb1.lean ====
/-
  A layer's combine step: what the tiled elementwise kernel leaves in its output array.

  The 50000 rows are cut into 25 blocks of 2000. At block t the body reads rows 2000·t … 2000·t + 1999 of the
  aggregated messages A, of the projected features H and of the per-row factor D (a 50000×1 column), and the
  whole 1×128 offset row B, and stores (A + H · D) + B, clamped below at zero, the column and the row spread over the block by
  vector broadcasts. Entry (r, q) of the block is the combine step of the whole arrays at (2000·t + r, q), and
  every row lies in a block, so the output array ends holding the combine step of the whole arrays.
-/
import proofs.«121799_j61108794688062_1_alg».proof.Proof.Gen.KernelIdeal.Frame
import proofs.«121799_j61108794688062_1_alg».proof.Proof.LibCombine
import Idealize.ShloMosaic.Lib.Pipeline.Value
import Idealize.ShloMosaic.Lib.ValueIdx
import Idealize.ShloMosaic.PureOps.Ideal.Laws

noncomputable section

open Idealize.ShloMosaic Idealize.ShloMosaic.TcCoe Idealize.ShloMosaic.ValueIdx Idealize.SL.Sem
open Idealize.ShloMosaic.Pipeline (Dat)

namespace Cert.KernelIdeal.Cmb1

open Cert.KernelIdeal Cert.KernelIdeal.Gen Cert.Combine

theorem hz : (![0, 0] : Fin 2 → Nat) = fun _ => 0 := funext fun a => by fin_cases a <;> rfl

/-- The body's value at entry (r, q) of a block. -/
theorem pay (x0 x1 : Vec Ideal S2000x128 .f32) (x2 : Vec Ideal S2000x1 .f32) (x3 : Vec Ideal S1x128 .f32)
    (r : Fin 2000) (q : Fin 128) :
    k1_pay1 (F := Ideal) x0 x1 x2 x3 (ix2 r q) = max ((x0 (ix2 r q) + x1 (ix2 r q) * x2 (ix2 r (0 : Fin 1))) + x3 (ix2 (0 : Fin 1) q)) Combine.zero := by
  unfold k1_pay1
  simp only [shapeCast_self]
  refine (maximumf_apply _ _ (ix2 r q)).trans ?_
  rw [Combine.kernel_apply (by decide)]
  rfl

/-- Where each window's block sits at grid point t: the three row blocks move with t, the offset row stays. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 ∧ t.val < 25 :=
  (by decide +kernel : ∀ t : Fin grid1.N, _)

/-- One entry of a block's value is the entry of the whole arrays' combine step in the block's row range. -/
theorem point_eq (A H : S50000x128.Idx → EReal) (D : S50000x1.Idx → EReal) (B : S1x128.Idx → EReal)
    (x0 x1 : Vec Ideal S2000x128 .f32) (x2 : Vec Ideal S2000x1 .f32) (x3 : Vec Ideal S1x128 .f32)
    (T : Nat) (hT : T < 25)
    (h0 : ∀ (r : Fin 2000) (q : Fin 128), x0 (ix2 r q) = A (ix2 ⟨T * 2000 + r.val, by have := r.isLt; omega⟩ q))
    (h1 : ∀ (r : Fin 2000) (q : Fin 128), x1 (ix2 r q) = H (ix2 ⟨T * 2000 + r.val, by have := r.isLt; omega⟩ q))
    (h2 : ∀ (r : Fin 2000), x2 (ix2 r (0 : Fin 1)) = D (ix2 ⟨T * 2000 + r.val, by have := r.isLt; omega⟩ (0 : Fin 1)))
    (h3 : ∀ (q : Fin 128), x3 (ix2 (0 : Fin 1) q) = B (ix2 (0 : Fin 1) q))
    (y : S2000x128.Idx) (i : S50000x128.Idx) (hi0 : (i 0).val = T * 2000 + (y 0).val) (hi1 : (i 1).val = (y 1).val) :
    k1_pay1 (F := Ideal) x0 x1 x2 x3 y = combineRelu A H D B i := by
  obtain ⟨r, q, rfl⟩ : ∃ (r : Fin 2000) (q : Fin 128), y = ix2 r q := ⟨y 0, y 1, eq_ix2 y⟩
  have e0 : i 0 = (⟨T * 2000 + r.val, by have := r.isLt; omega⟩ : Fin 50000) := Fin.ext hi0
  have e1 : i 1 = q := Fin.ext hi1
  have hi : i = ix2 (⟨T * 2000 + r.val, by have := r.isLt; omega⟩ : Fin 50000) q :=
    funext fun a => match a with
      | ⟨0, _⟩ => e0
      | ⟨1, _⟩ => e1
  rw [pay, h0, h1, h2, h3, hi, combineRelu_apply]

variable (V : (c : Dev nD) → (b : Ref sig .tc) → Buf (Elt Ideal) ((c : Thread nD τ).loc b))

/-- What point t writes back is block t of the combine step of the arrays as the region finds them. -/
theorem flushed_eq (c : Dev nD) (t : Fin cfg1.N) :
    (dat1 (F := Ideal) V c).flushed 4 t
      = ((cfg1.win 4).blk t).view.read (Elt Ideal) (combineRelu (V c main_v41) (V c main_v29) (V c main_v12) (V c main_v42)) := by
  show (cfg1.win 4).cut (grid1.coords t) ((dat1 V c).after 4 t) = _
  rw [after1_4]
  unfold out1_4
  rw [View.canon_unit_zero hz]
  simp only [View.ld_unit_zero (S := S2000x128) hz, View.ld_unit_zero (S := S2000x1) hz, View.ld_unit_zero (S := S1x128) hz]
  obtain ⟨e0, e1, e2, e3, e4, e5, e6, e7, e8, e9, e10⟩ := idx_facts t
  funext j
  refine point_eq (V c main_v41) (V c main_v29) (V c main_v12) (V c main_v42) (iblk1 V c 0 t) (iblk1 V c 1 t) (iblk1 V c 2 t) (iblk1 V c 3 t)
    t.val e10 (fun r q => ?_) (fun r q => ?_) (fun r => ?_) (fun q => ?_) j (((cfg1.win 4).blk t).view.emb j) ?_ ?_
  · unfold iblk1
    rw [View.read_apply]
    show V c main_v41 _ = V c main_v41 _
    refine congrArg _ (funext fun a => Fin.ext ?_)
    match a with
    | ⟨0, _⟩ => show win1_0.index t (0 : Fin 2) * 2000 + 1 * r.val = t.val * 2000 + r.val; rw [e0]; omega
    | ⟨1, _⟩ => show win1_0.index t (1 : Fin 2) * 128 + 1 * q.val = q.val; rw [e1]; omega
  · unfold iblk1
    rw [View.read_apply]
    show V c main_v29 _ = V c main_v29 _
    refine congrArg _ (funext fun a => Fin.ext ?_)
    match a with
    | ⟨0, _⟩ => show win1_1.index t (0 : Fin 2) * 2000 + 1 * r.val = t.val * 2000 + r.val; rw [e2]; omega
    | ⟨1, _⟩ => show win1_1.index t (1 : Fin 2) * 128 + 1 * q.val = q.val; rw [e3]; omega
  · unfold iblk1
    rw [View.read_apply]
    show V c main_v12 _ = V c main_v12 _
    refine congrArg _ (funext fun a => Fin.ext ?_)
    match a with
    | ⟨0, _⟩ => show win1_2.index t (0 : Fin 2) * 2000 + 1 * r.val = t.val * 2000 + r.val; rw [e4]; omega
    | ⟨1, _⟩ => show win1_2.index t (1 : Fin 2) * 1 + 1 * 0 = 0; rw [e5]
  · unfold iblk1
    rw [View.read_apply]
    show V c main_v42 _ = V c main_v42 _
    refine congrArg _ (funext fun a => Fin.ext ?_)
    match a with
    | ⟨0, _⟩ => show win1_3.index t (0 : Fin 2) * 1 + 1 * 0 = 0; rw [e6]
    | ⟨1, _⟩ => show win1_3.index t (1 : Fin 2) * 128 + 1 * q.val = q.val; rw [e7]; omega
  · show win1_4.index t (0 : Fin 2) * 2000 + 1 * (j 0).val = t.val * 2000 + (j 0).val; rw [e8]; omega
  · show win1_4.index t (1 : Fin 2) * 128 + 1 * (j 1).val = (j 1).val; rw [e9]; omega

/-- An index of the array is in point t's block iff each coordinate is in the block's range on its axis. -/
theorem mem_blk (t : Fin cfg1.N) (i : S50000x128.Idx) :
    i ∈ ((cfg1.win 4).blk t).view.set ↔ ∀ a : Fin 2, win1_4.index t a * S2000x128.size a ≤ (i a).val
      ∧ (i a).val < win1_4.index t a * S2000x128.size a + S2000x128.size a := by
  show i ∈ ((View.whole main_v43).slice (win1_4.rect t)).set ↔ _
  rw [View.set_slice_whole, Rect.mem_set_unit]
  exact Iff.rfl

/-- Row R of the array lies in the block of point R / 2000. -/
theorem cover (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 25 := N_1
  have hlt : (i 0).val / 2000 < cfg1.N := by rw [hN]; omega
  obtain ⟨e0, e1, e2, e3, e4, e5, e6, e7, e8, e9, e10⟩ := idx_facts ⟨(i 0).val / 2000, hlt⟩
  refine ⟨⟨(i 0).val / 2000, hlt⟩, flush1_4 _, ?_⟩
  rw [mem_blk]
  intro a
  match a with
  | ⟨0, _⟩ =>
    show win1_4.index ⟨(i 0).val / 2000, hlt⟩ (0 : Fin 2) * 2000 ≤ (i 0).val
      ∧ (i 0).val < win1_4.index ⟨(i 0).val / 2000, hlt⟩ (0 : Fin 2) * 2000 + 2000
    rw [e8]; show (i 0).val / 2000 * 2000 ≤ (i 0).val ∧ (i 0).val < (i 0).val / 2000 * 2000 + 2000; omega
  | ⟨1, _⟩ =>
    show win1_4.index ⟨(i 0).val / 2000, hlt⟩ (1 : Fin 2) * 128 ≤ (i 1).val
      ∧ (i 1).val < win1_4.index ⟨(i 0).val / 2000, hlt⟩ (1 : Fin 2) * 128 + 128
    rw [e9]; omega

/-- The output array after the region: the combine step of the arrays as the region finds them. -/
theorem arr (c : Dev nD) :
    (dat1 (F := Ideal) V c).arrAt 4 cfg1.N = combineRelu (V c main_v41) (V c main_v29) (V c main_v12) (V c main_v42) :=
  (dat1 V c).arrAt_eq_of_cover 4 (combineRelu (V c main_v41) (V c main_v29) (V c main_v12) (V c main_v42)) (fun t _ => flushed_eq V c t) cover

end Cert.KernelIdeal.Cmb1

end
-- ==== Proof.Cmb3.lean ====
/-
  A layer's combine step: what the tiled elementwise kernel leaves in its output array.

  The 50000 rows are cut into 25 blocks of 2000. At block t the body reads rows 2000·t … 2000·t + 1999 of the
  aggregated messages A, of the projected features H and of the per-row factor D (a 50000×1 column), and the
  whole 1×128 offset row B, and stores (A + H · D) + B, clamped below at zero, the column and the row spread over the block by
  vector broadcasts. Entry (r, q) of the block is the combine step of the whole arrays at (2000·t + r, q), and
  every row lies in a block, so the output array ends holding the combine step of the whole arrays.
-/
import proofs.«121799_j61108794688062_1_alg».proof.Proof.Gen.KernelIdeal.Frame
import proofs.«121799_j61108794688062_1_alg».proof.Proof.LibCombine
import Idealize.ShloMosaic.Lib.Pipeline.Value
import Idealize.ShloMosaic.Lib.ValueIdx
import Idealize.ShloMosaic.PureOps.Ideal.Laws

noncomputable section

open Idealize.ShloMosaic Idealize.ShloMosaic.TcCoe Idealize.ShloMosaic.ValueIdx Idealize.SL.Sem
open Idealize.ShloMosaic.Pipeline (Dat)

namespace Cert.KernelIdeal.Cmb3

open Cert.KernelIdeal Cert.KernelIdeal.Gen Cert.Combine

theorem hz : (![0, 0] : Fin 2 → Nat) = fun _ => 0 := funext fun a => by fin_cases a <;> rfl

/-- The body's value at entry (r, q) of a block. -/
theorem pay (x0 x1 : Vec Ideal S2000x128 .f32) (x2 : Vec Ideal S2000x1 .f32) (x3 : Vec Ideal S1x128 .f32)
    (r : Fin 2000) (q : Fin 128) :
    k3_pay1 (F := Ideal) x0 x1 x2 x3 (ix2 r q) = max ((x0 (ix2 r q) + x1 (ix2 r q) * x2 (ix2 r (0 : Fin 1))) + x3 (ix2 (0 : Fin 1) q)) Combine.zero := by
  unfold k3_pay1
  simp only [shapeCast_self]
  refine (maximumf_apply _ _ (ix2 r q)).trans ?_
  rw [Combine.kernel_apply (by decide)]
  rfl

/-- Where each window's block sits at grid point t: the three row blocks move with t, the offset row stays. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 ∧ t.val < 25 :=
  (by decide +kernel : ∀ t : Fin grid3.N, _)

/-- One entry of a block's value is the entry of the whole arrays' combine step in the block's row range. -/
theorem point_eq (A H : S50000x128.Idx → EReal) (D : S50000x1.Idx → EReal) (B : S1x128.Idx → EReal)
    (x0 x1 : Vec Ideal S2000x128 .f32) (x2 : Vec Ideal S2000x1 .f32) (x3 : Vec Ideal S1x128 .f32)
    (T : Nat) (hT : T < 25)
    (h0 : ∀ (r : Fin 2000) (q : Fin 128), x0 (ix2 r q) = A (ix2 ⟨T * 2000 + r.val, by have := r.isLt; omega⟩ q))
    (h1 : ∀ (r : Fin 2000) (q : Fin 128), x1 (ix2 r q) = H (ix2 ⟨T * 2000 + r.val, by have := r.isLt; omega⟩ q))
    (h2 : ∀ (r : Fin 2000), x2 (ix2 r (0 : Fin 1)) = D (ix2 ⟨T * 2000 + r.val, by have := r.isLt; omega⟩ (0 : Fin 1)))
    (h3 : ∀ (q : Fin 128), x3 (ix2 (0 : Fin 1) q) = B (ix2 (0 : Fin 1) q))
    (y : S2000x128.Idx) (i : S50000x128.Idx) (hi0 : (i 0).val = T * 2000 + (y 0).val) (hi1 : (i 1).val = (y 1).val) :
    k3_pay1 (F := Ideal) x0 x1 x2 x3 y = combineRelu A H D B i := by
  obtain ⟨r, q, rfl⟩ : ∃ (r : Fin 2000) (q : Fin 128), y = ix2 r q := ⟨y 0, y 1, eq_ix2 y⟩
  have e0 : i 0 = (⟨T * 2000 + r.val, by have := r.isLt; omega⟩ : Fin 50000) := Fin.ext hi0
  have e1 : i 1 = q := Fin.ext hi1
  have hi : i = ix2 (⟨T * 2000 + r.val, by have := r.isLt; omega⟩ : Fin 50000) q :=
    funext fun a => match a with
      | ⟨0, _⟩ => e0
      | ⟨1, _⟩ => e1
  rw [pay, h0, h1, h2, h3, hi, combineRelu_apply]

variable (V : (c : Dev nD) → (b : Ref sig .tc) → Buf (Elt Ideal) ((c : Thread nD τ).loc b))

/-- What point t writes back is block t of the combine step of the arrays as the region finds them. -/
theorem flushed_eq (c : Dev nD) (t : Fin cfg3.N) :
    (dat3 (F := Ideal) V c).flushed 4 t
      = ((cfg3.win 4).blk t).view.read (Elt Ideal) (combineRelu (V c main_v56) (V c main_v44) (V c main_v12) (V c main_v57)) := by
  show (cfg3.win 4).cut (grid3.coords t) ((dat3 V c).after 4 t) = _
  rw [after3_4]
  unfold out3_4
  rw [View.canon_unit_zero hz]
  simp only [View.ld_unit_zero (S := S2000x128) hz, View.ld_unit_zero (S := S2000x1) hz, View.ld_unit_zero (S := S1x128) hz]
  obtain ⟨e0, e1, e2, e3, e4, e5, e6, e7, e8, e9, e10⟩ := idx_facts t
  funext j
  refine point_eq (V c main_v56) (V c main_v44) (V c main_v12) (V c main_v57) (iblk3 V c 0 t) (iblk3 V c 1 t) (iblk3 V c 2 t) (iblk3 V c 3 t)
    t.val e10 (fun r q => ?_) (fun r q => ?_) (fun r => ?_) (fun q => ?_) j (((cfg3.win 4).blk t).view.emb j) ?_ ?_
  · unfold iblk3
    rw [View.read_apply]
    show V c main_v56 _ = V c main_v56 _
    refine congrArg _ (funext fun a => Fin.ext ?_)
    match a with
    | ⟨0, _⟩ => show win3_0.index t (0 : Fin 2) * 2000 + 1 * r.val = t.val * 2000 + r.val; rw [e0]; omega
    | ⟨1, _⟩ => show win3_0.index t (1 : Fin 2) * 128 + 1 * q.val = q.val; rw [e1]; omega
  · unfold iblk3
    rw [View.read_apply]
    show V c main_v44 _ = V c main_v44 _
    refine congrArg _ (funext fun a => Fin.ext ?_)
    match a with
    | ⟨0, _⟩ => show win3_1.index t (0 : Fin 2) * 2000 + 1 * r.val = t.val * 2000 + r.val; rw [e2]; omega
    | ⟨1, _⟩ => show win3_1.index t (1 : Fin 2) * 128 + 1 * q.val = q.val; rw [e3]; omega
  · unfold iblk3
    rw [View.read_apply]
    show V c main_v12 _ = V c main_v12 _
    refine congrArg _ (funext fun a => Fin.ext ?_)
    match a with
    | ⟨0, _⟩ => show win3_2.index t (0 : Fin 2) * 2000 + 1 * r.val = t.val * 2000 + r.val; rw [e4]; omega
    | ⟨1, _⟩ => show win3_2.index t (1 : Fin 2) * 1 + 1 * 0 = 0; rw [e5]
  · unfold iblk3
    rw [View.read_apply]
    show V c main_v57 _ = V c main_v57 _
    refine congrArg _ (funext fun a => Fin.ext ?_)
    match a with
    | ⟨0, _⟩ => show win3_3.index t (0 : Fin 2) * 1 + 1 * 0 = 0; rw [e6]
    | ⟨1, _⟩ => show win3_3.index t (1 : Fin 2) * 128 + 1 * q.val = q.val; rw [e7]; omega
  · show win3_4.index t (0 : Fin 2) * 2000 + 1 * (j 0).val = t.val * 2000 + (j 0).val; rw [e8]; omega
  · show win3_4.index t (1 : Fin 2) * 128 + 1 * (j 1).val = (j 1).val; rw [e9]; omega

/-- An index of the array is in point t's block iff each coordinate is in the block's range on its axis. -/
theorem mem_blk (t : Fin cfg3.N) (i : S50000x128.Idx) :
    i ∈ ((cfg3.win 4).blk t).view.set ↔ ∀ a : Fin 2, win3_4.index t a * S2000x128.size a ≤ (i a).val
      ∧ (i a).val < win3_4.index t a * S2000x128.size a + S2000x128.size a := by
  show i ∈ ((View.whole main_v58).slice (win3_4.rect t)).set ↔ _
  rw [View.set_slice_whole, Rect.mem_set_unit]
  exact Iff.rfl

/-- Row R of the array lies in the block of point R / 2000. -/
theorem cover (i : S50000x128.Idx) :
    ∃ t : Fin cfg3.N, (cfg3.win 4).flush t = true ∧ i ∈ ((cfg3.win 4).blk t).view.set := by
  have hi0 : (i 0).val < 50000 := (i 0).isLt
  have hi1 : (i 1).val < 128 := (i 1).isLt
  have hN : cfg3.N = 25 := N_3
  have hlt : (i 0).val / 2000 < cfg3.N := by rw [hN]; omega
  obtain ⟨e0, e1, e2, e3, e4, e5, e6, e7, e8, e9, e10⟩ := idx_facts ⟨(i 0).val / 2000, hlt⟩
  refine ⟨⟨(i 0).val / 2000, hlt⟩, flush3_4 _, ?_⟩
  rw [mem_blk]
  intro a
  match a with
  | ⟨0, _⟩ =>
    show win3_4.index ⟨(i 0).val / 2000, hlt⟩ (0 : Fin 2) * 2000 ≤ (i 0).val
      ∧ (i 0).val < win3_4.index ⟨(i 0).val / 2000, hlt⟩ (0 : Fin 2) * 2000 + 2000
    rw [e8]; show (i 0).val / 2000 * 2000 ≤ (i 0).val ∧ (i 0).val < (i 0).val / 2000 * 2000 + 2000; omega
  | ⟨1, _⟩ =>
    show win3_4.index ⟨(i 0).val / 2000, hlt⟩ (1 : Fin 2) * 128 ≤ (i 1).val
      ∧ (i 1).val < win3_4.index ⟨(i 0).val / 2000, hlt⟩ (1 : Fin 2) * 128 + 128
    rw [e9]; omega

/-- The output array after the region: the combine step of the arrays as the region finds them. -/
theorem arr (c : Dev nD) :
    (dat3 (F := Ideal) V c).arrAt 4 cfg3.N = combineRelu (V c main_v56) (V c main_v44) (V c main_v12) (V c main_v57) :=
  (dat3 V c).arrAt_eq_of_cover 4 (combineRelu (V c main_v56) (V c main_v44) (V c main_v12) (V c main_v57)) (fun t _ => flushed_eq V c t) cover

end Cert.KernelIdeal.Cmb3

end
-- ==== Proof.Cmb5.lean ====
/-
  A layer's combine step: what the tiled elementwise kernel leaves in its output array.

  The 50000 rows are cut into 25 blocks of 2000. At block t the body reads rows 2000·t … 2000·t + 1999 of the
  aggregated messages A, of the projected features H and of the per-row factor D (a 50000×1 column), and the
  whole 1×128 offset row B, and stores (A + H · D) + B, the column and the row spread over the block by
  vector broadcasts. Entry (r, q) of the block is the combine step of the whole arrays at (2000·t + r, q), and
  every row lies in a block, so the output array ends holding the combine step of the whole arrays.
-/
import proofs.«121799_j61108794688062_1_alg».proof.Proof.Gen.KernelIdeal.Frame
import proofs.«121799_j61108794688062_1_alg».proof.Proof.LibCombine
import Idealize.ShloMosaic.Lib.Pipeline.Value
import Idealize.ShloMosaic.Lib.ValueIdx
import Idealize.ShloMosaic.PureOps.Ideal.Laws

noncomputable section

open Idealize.ShloMosaic Idealize.ShloMosaic.TcCoe Idealize.ShloMosaic.ValueIdx Idealize.SL.Sem
open Idealize.ShloMosaic.Pipeline (Dat)

namespace Cert.KernelIdeal.Cmb5

open Cert.KernelIdeal Cert.KernelIdeal.Gen Cert.Combine

theorem hz : (![0, 0] : Fin 2 → Nat) = fun _ => 0 := funext fun a => by fin_cases a <;> rfl

/-- The body's value at entry (r, q) of a block. -/
theorem pay (x0 x1 : Vec Ideal S2000x128 .f32) (x2 : Vec Ideal S2000x1 .f32) (x3 : Vec Ideal S1x128 .f32)
    (r : Fin 2000) (q : Fin 128) :
    k5_pay1 (F := Ideal) x0 x1 x2 x3 (ix2 r q) = (x0 (ix2 r q) + x1 (ix2 r q) * x2 (ix2 r (0 : Fin 1))) + x3 (ix2 (0 : Fin 1) q) := by
  unfold k5_pay1
  simp only [shapeCast_self]
  exact Combine.kernel_apply (by decide) _ _ _ _ _ _ r q

/-- Where each window's block sits at grid point t: the three row blocks move with t, the offset row stays. -/
theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 ∧ t.val < 25 :=
  (by decide +kernel : ∀ t : Fin grid5.N, _)

/-- One entry of a block's value is the entry of the whole arrays' combine step in the block's row range. -/
theorem point_eq (A H : S50000x128.Idx → EReal) (D : S50000x1.Idx → EReal) (B : S1x128.Idx → EReal)
    (x0 x1 : Vec Ideal S2000x128 .f32) (x2 : Vec Ideal S2000x1 .f32) (x3 : Vec Ideal S1x128 .f32)
    (T : Nat) (hT : T < 25)
    (h0 : ∀ (r : Fin 2000) (q : Fin 128), x0 (ix2 r q) = A (ix2 ⟨T * 2000 + r.val, by have := r.isLt; omega⟩ q))
    (h1 : ∀ (r : Fin 2000) (q : Fin 128), x1 (ix2 r q) = H (ix2 ⟨T * 2000 + r.val, by have := r.isLt; omega⟩ q))
    (h2 : ∀ (r : Fin 2000), x2 (ix2 r (0 : Fin 1)) = D (ix2 ⟨T * 2000 + r.val, by have := r.isLt; omega⟩ (0 : Fin 1)))
    (h3 : ∀ (q : Fin 128), x3 (ix2 (0 : Fin 1) q) = B (ix2 (0 : Fin 1) q))
    (y : S2000x128.Idx) (i : S50000x128.Idx) (hi0 : (i 0).val = T * 2000 + (y 0).val) (hi1 : (i 1).val = (y 1).val) :
    k5_pay1 (F := Ideal) x0 x1 x2 x3 y = combine A H D B i := by
  obtain ⟨r, q, rfl⟩ : ∃ (r : Fin 2000) (q : Fin 128), y = ix2 r q := ⟨y 0, y 1, eq_ix2 y⟩
  have e0 : i 0 = (⟨T * 2000 + r.val, by have := r.isLt; omega⟩ : Fin 50000) := Fin.ext hi0
  have e1 : i 1 = q := Fin.ext hi1
  have hi : i = ix2 (⟨T * 2000 + r.val, by have := r.isLt; omega⟩ : Fin 50000) q :=
    funext fun a => match a with
      | ⟨0, _⟩ => e0
      | ⟨1, _⟩ => e1
  rw [pay, h0, h1, h2, h3, hi, combine_apply]

variable (V : (c : Dev nD) → (b : Ref sig .tc) → Buf (Elt Ideal) ((c : Thread nD τ).loc b))

/-- What point t writes back is block t of the combine step of the arrays as the region finds them. -/
theorem flushed_eq (c : Dev nD) (t : Fin cfg5.N) :
    (dat5 (F := Ideal) V c).flushed 4 t
      = ((cfg5.win 4).blk t).view.read (Elt Ideal) (combine (V c main_v71) (V c main_v59) (V c main_v12) (V c main_v72)) := by
  show (cfg5.win 4).cut (grid5.coords t) ((dat5 V c).after 4 t) = _
  rw [after5_4]
  unfold out5_4
  rw [View.canon_unit_zero hz]
  simp only [View.ld_unit_zero (S := S2000x128) hz, View.ld_unit_zero (S := S2000x1) hz, View.ld_unit_zero (S := S1x128) hz]
  obtain ⟨e0, e1, e2, e3, e4, e5, e6, e7, e8, e9, e10⟩ := idx_facts t
  funext j
  refine point_eq (V c main_v71) (V c main_v59) (V c main_v12) (V c main_v72) (iblk5 V c 0 t) (iblk5 V c 1 t) (iblk5 V c 2 t) (iblk5 V c 3 t)
    t.val e10 (fun r q => ?_) (fun r q => ?_) (fun r => ?_) (fun q => ?_) j (((cfg5.win 4).blk t).view.emb j) ?_ ?_
  · unfold iblk5
    rw [View.read_apply]
    show V c main_v71 _ = V c main_v71 _
    refine congrArg _ (funext fun a => Fin.ext ?_)
    match a with
    | ⟨0, _⟩ => show win5_0.index t (0 : Fin 2) * 2000 + 1 * r.val = t.val * 2000 + r.val; rw [e0]; omega
    | ⟨1, _⟩ => show win5_0.index t (1 : Fin 2) * 128 + 1 * q.val = q.val; rw [e1]; omega
  · unfold iblk5
    rw [View.read_apply]
    show V c main_v59 _ = V c main_v59 _
    refine congrArg _ (funext fun a => Fin.ext ?_)
    match a with
    | ⟨0, _⟩ => show win5_1.index t (0 : Fin 2) * 2000 + 1 * r.val = t.val * 2000 + r.val; rw [e2]; omega
    | ⟨1, _⟩ => show win5_1.index t (1 : Fin 2) * 128 + 1 * q.val = q.val; rw [e3]; omega
  · unfold iblk5
    rw [View.read_apply]
    show V c main_v12 _ = V c main_v12 _
    refine congrArg _ (funext fun a => Fin.ext ?_)
    match a with
    | ⟨0, _⟩ => show win5_2.index t (0 : Fin 2) * 2000 + 1 * r.val = t.val * 2000 + r.val; rw [e4]; omega
    | ⟨1, _⟩ => show win5_2.index t (1 : Fin 2) * 1 + 1 * 0 = 0; rw [e5]
  · unfold iblk5
    rw [View.read_apply]
    show V c main_v72 _ = V c main_v72 _
    refine congrArg _ (funext fun a => Fin.ext ?_)
    match a with
    | ⟨0, _⟩ => show win5_3.index t (0 : Fin 2) * 1 + 1 * 0 = 0; rw [e6]
    | ⟨1, _⟩ => show win5_3.index t (1 : Fin 2) * 128 + 1 * q.val = q.val; rw [e7]; omega
  · show win5_4.index t (0 : Fin 2) * 2000 + 1 * (j 0).val = t.val * 2000 + (j 0).val; rw [e8]; omega
  · show win5_4.index t (1 : Fin 2) * 128 + 1 * (j 1).val = (j 1).val; rw [e9]; omega

/-- An index of the array is in point t's block iff each coordinate is in the block's range on its axis. -/
theorem mem_blk (t : Fin cfg5.N) (i : S50000x128.Idx) :
    i ∈ ((cfg5.win 4).blk t).view.set ↔ ∀ a : Fin 2, win5_4.index t a * S2000x128.size a ≤ (i a).val
      ∧ (i a).val < win5_4.index t a * S2000x128.size a + S2000x128.size a := by
  show i ∈ ((View.whole main_v73).slice (win5_4.rect t)).set ↔ _
  rw [View.set_slice_whole, Rect.mem_set_unit]
  exact Iff.rfl

/-- Row R of the array lies in the block of point R / 2000. -/
theorem cover (i : S50000x128.Idx) :
    ∃ t : Fin cfg5.N, (cfg5.win 4).flush t = true ∧ i ∈ ((cfg5.win 4).blk t).view.set := by
  have hi0 : (i 0).val < 50000 := (i 0).isLt
  have hi1 : (i 1).val < 128 := (i 1).isLt
  have hN : cfg5.N = 25 := N_5
  have hlt : (i 0).val / 2000 < cfg5.N := by rw [hN]; omega
  obtain ⟨e0, e1, e2, e3, e4, e5, e6, e7, e8, e9, e10⟩ := idx_facts ⟨(i 0).val / 2000, hlt⟩
  refine ⟨⟨(i 0).val / 2000, hlt⟩, flush5_4 _, ?_⟩
  rw [mem_blk]
  intro a
  match a with
  | ⟨0, _⟩ =>
    show win5_4.index ⟨(i 0).val / 2000, hlt⟩ (0 : Fin 2) * 2000 ≤ (i 0).val
      ∧ (i 0).val < win5_4.index ⟨(i 0).val / 2000, hlt⟩ (0 : Fin 2) * 2000 + 2000
    rw [e8]; show (i 0).val / 2000 * 2000 ≤ (i 0).val ∧ (i 0).val < (i 0).val / 2000 * 2000 + 2000; omega
  | ⟨1, _⟩ =>
    show win5_4.index ⟨(i 0).val / 2000, hlt⟩ (1 : Fin 2) * 128 ≤ (i 1).val
      ∧ (i 1).val < win5_4.index ⟨(i 0).val / 2000, hlt⟩ (1 : Fin 2) * 128 + 128
    rw [e9]; omega

/-- The output array after the region: the combine step of the arrays as the region finds them. -/
theorem arr (c : Dev nD) :
    (dat5 (F := Ideal) V c).arrAt 4 cfg5.N = combine (V c main_v71) (V c main_v59) (V c main_v12) (V c main_v72) :=
  (dat5 V c).arrAt_eq_of_cover 4 (combine (V c main_v71) (V c main_v59) (V c main_v12) (V c main_v72)) (fun t _ => flushed_eq V c t) cover

end Cert.KernelIdeal.Cmb5

end
-- ==== Proof.LibAffineRow.lean ====
/-
  A matrix product plus a row, as one array.

  For an R×K matrix X, a K×N matrix W and a 1×N row B,

      rowAffine X W B (i, j) = (∑ c, X(i, c) · W(c, j)) + B(0, j)

  in the extended reals. When the row is a length-N vector laid out as 1×N by a reshape, this is the affine layer
  X · W + b of that vector.
-/
import Idealize.ShloMosaic.PureOps.Ideal.Laws
import Idealize.ShloMosaic.Lib.Pipeline.Value
import Idealize.ShloMosaic.Lib.ValueIdx
import proofs.«121799_j61108794688062_1_alg».proof.Proof.LibProduct
import proofs.«121799_j61108794688062_1_alg».proof.Proof.LibLinear
import proofs.«121799_j61108794688062_1_alg».proof.Proof.LibRowVector

noncomputable section

open scoped BigOperators

namespace Cert.AffineRow

open Idealize.ShloMosaic Idealize.ShloMosaic.ValueIdx

variable {R K N : Nat}

/-- X · W plus the row B on every row, entry by entry. -/
def rowAffine (X : (⟨2, ![R, K]⟩ : Shape).Idx → EReal) (W : (⟨2, ![K, N]⟩ : Shape).Idx → EReal)
    (B : (⟨2, ![1, N]⟩ : Shape).Idx → EReal) : (⟨2, ![R, N]⟩ : Shape).Idx → EReal :=
  fun i => (∑ c : Fin K, X (ix2 (i 0) c) * W (ix2 c (i 1))) + B (ix2 (0 : Fin 1) (i 1))

theorem rowAffine_apply (X : (⟨2, ![R, K]⟩ : Shape).Idx → EReal) (W : (⟨2, ![K, N]⟩ : Shape).Idx → EReal)
    (B : (⟨2, ![1, N]⟩ : Shape).Idx → EReal) (p : Fin R) (q : Fin N) :
    rowAffine X W B (ix2 p q) = (∑ c : Fin K, X (ix2 p c) * W (ix2 c q)) + B (ix2 (0 : Fin 1) q) := rfl

/-- With the row a reshaped length-N vector, this is the affine layer of the vector. -/
theorem rowAffine_shapeCast (X : (⟨2, ![R, K]⟩ : Shape).Idx → EReal) (W : (⟨2, ![K, N]⟩ : Shape).Idx → EReal)
    (b : (⟨1, ![N]⟩ : Shape).Idx → EReal) (h : (⟨1, ![N]⟩ : Shape).ShapeCasts ⟨2, ![1, N]⟩) :
    rowAffine X W (shapeCast ⟨2, ![1, N]⟩ b h) = Linear.dense X W b := by
  funext j
  obtain ⟨p, q, rfl⟩ : ∃ (p : Fin R) (q : Fin N), j = ix2 p q := ⟨j 0, j 1, eq_ix2 j⟩
  rw [rowAffine_apply, Linear.dense_apply, RowVector.shapeCast_row]

end Cert.AffineRow

end
-- ==== Proof.Lin6.lean ====
/-
  The final linear layer: what the one-block kernel leaves in its output array.

  The grid has one point and every window's block is its whole array. The body multiplies the 512×128 pooled
  features by the 128×10 weight matrix on the matrix unit, into a zero accumulator, after a change of float format
  that is the identity on ideal values, and adds the 1×10 bias row spread over the 512 rows by a vector broadcast.
  So the output array ends holding the product plus the row.
-/
import proofs.«121799_j61108794688062_1_alg».proof.Proof.Gen.KernelIdeal.Frame
import proofs.«121799_j61108794688062_1_alg».proof.Proof.LibAffineRow
import Idealize.ShloMosaic.Lib.Pipeline.Value
import Idealize.ShloMosaic.Lib.ValueIdx
import Idealize.ShloMosaic.PureOps.Ideal.Laws

noncomputable section

open Idealize.ShloMosaic Idealize.ShloMosaic.TcCoe Idealize.ShloMosaic.ValueIdx Idealize.SL.Sem
open Idealize.ShloMosaic.Pipeline (Dat)
open scoped BigOperators

namespace Cert.KernelIdeal.Lin6

open Cert.KernelIdeal Cert.KernelIdeal.Gen Cert.AffineRow

theorem hz : (![0, 0] : Fin 2 → Nat) = fun _ => 0 := funext fun a => by fin_cases a <;> rfl

/-- The body's value at entry (r, q). -/
theorem pay (x : Vec Ideal S512x128 .f32) (w : Vec Ideal S128x10 .f32) (b : Vec Ideal S1x10 .f32)
    (r : Fin 512) (q : Fin 10) :
    k6_pay1 (F := Ideal) x w b (ix2 r q) = (∑ k : Fin 128, x (ix2 r k) * w (ix2 k q)) + b (ix2 (0 : Fin 1) q) := by
  unfold k6_pay1
  simp only [shapeCast_self]
  show matmul dot_S512x128_S128x10_S512x10_1_0_0_1_n_n none (truncf .bf16 x bitsLt_bf16_f32) (truncf .bf16 w bitsLt_bf16_f32)
        (constant (F := Ideal) S512x10 .f32 0x00000000#32) (ix2 r q)
      + broadcastTo S512x10 b broadcasts_S1x10_S512x10 (ix2 r q) = _
  rw [RowVector.broadcastTo_row (by decide)]
  exact congrArg (· + b (ix2 (0 : Fin 1) q))
    (PlainDot.matmul_zero_apply dot_S512x128_S128x10_S512x10_1_0_0_1_n_n rfl none _ _ r q)

/-- Every window's block at the one grid point is its whole array. -/
theorem idx_facts : ∀ t : Fin cfg6.N, win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0 :=
  (by decide +kernel : ∀ t : Fin grid6.N, _)

/-- One entry of the body's value is that entry of the product plus the row, the blocks being the arrays. -/
theorem point_eq (P : S512x128.Idx → EReal) (W : S128x10.Idx → EReal) (B : S1x10.Idx → EReal)
    (x : Vec Ideal S512x128 .f32) (w : Vec Ideal S128x10 .f32) (b : Vec Ideal S1x10 .f32)
    (hx : ∀ (r : Fin 512) (k : Fin 128), x (ix2 r k) = P (ix2 r k))
    (hw : ∀ (k : Fin 128) (q : Fin 10), w (ix2 k q) = W (ix2 k q))
    (hb : ∀ (q : Fin 10), b (ix2 (0 : Fin 1) q) = B (ix2 (0 : Fin 1) q))
    (y : S512x10.Idx) (i : S512x10.Idx) (hi0 : (i 0).val = (y 0).val) (hi1 : (i 1).val = (y 1).val) :
    k6_pay1 (F := Ideal) x w b y = rowAffine P W B i := by
  obtain ⟨r, q, rfl⟩ : ∃ (r : Fin 512) (q : Fin 10), y = ix2 r q := ⟨y 0, y 1, eq_ix2 y⟩
  have e0 : i 0 = r := Fin.ext hi0
  have e1 : i 1 = q := Fin.ext hi1
  have hi : i = ix2 r q :=
    funext fun a => match a with
      | ⟨0, _⟩ => e0
      | ⟨1, _⟩ => e1
  rw [pay, hi, rowAffine_apply, hb]
  refine congrArg (· + B (ix2 (0 : Fin 1) q)) (Finset.sum_congr rfl fun k _ => ?_)
  rw [hx, hw]

variable (V : (c : Dev nD) → (b : Ref sig .tc) → Buf (Elt Ideal) ((c : Thread nD τ).loc b))

/-- What the one point writes back is the product plus the row of the arrays as the region finds them. -/
theorem flushed_eq (c : Dev nD) (t : Fin cfg6.N) :
    (dat6 (F := Ideal) V c).flushed 3 t
      = ((cfg6.win 3).blk t).view.read (Elt Ideal) (rowAffine (V c main_v85) (V c main_arg9) (V c main_v86)) := by
  show (cfg6.win 3).cut (grid6.coords t) ((dat6 V c).after 3 t) = _
  rw [after6_3]
  unfold out6_3
  rw [View.canon_unit_zero hz]
  simp only [View.ld_unit_zero (S := S512x128) hz, View.ld_unit_zero (S := S128x10) hz, View.ld_unit_zero (S := S1x10) hz]
  obtain ⟨e0, e1, e2, e3, e4, e5, e6, e7⟩ := idx_facts t
  funext j
  refine point_eq (V c main_v85) (V c main_arg9) (V c main_v86) (iblk6 V c 0 t) (iblk6 V c 1 t) (iblk6 V c 2 t)
    (fun r k => ?_) (fun k q => ?_) (fun q => ?_) j (((cfg6.win 3).blk t).view.emb j) ?_ ?_
  · unfold iblk6
    rw [View.read_apply]
    show V c main_v85 _ = V c main_v85 _
    refine congrArg _ (funext fun a => Fin.ext ?_)
    match a with
    | ⟨0, _⟩ => show win6_0.index t (0 : Fin 2) * 512 + 1 * r.val = r.val; rw [e0]; omega
    | ⟨1, _⟩ => show win6_0.index t (1 : Fin 2) * 128 + 1 * k.val = k.val; rw [e1]; omega
  · unfold iblk6
    rw [View.read_apply]
    show V c main_arg9 _ = V c main_arg9 _
    refine congrArg _ (funext fun a => Fin.ext ?_)
    match a with
    | ⟨0, _⟩ => show win6_1.index t (0 : Fin 2) * 128 + 1 * k.val = k.val; rw [e2]; omega
    | ⟨1, _⟩ => show win6_1.index t (1 : Fin 2) * 10 + 1 * q.val = q.val; rw [e3]; omega
  · unfold iblk6
    rw [View.read_apply]
    show V c main_v86 _ = V c main_v86 _
    refine congrArg _ (funext fun a => Fin.ext ?_)
    match a with
    | ⟨0, _⟩ => show win6_2.index t (0 : Fin 2) * 1 + 1 * 0 = 0; rw [e4]
    | ⟨1, _⟩ => show win6_2.index t (1 : Fin 2) * 10 + 1 * q.val = q.val; rw [e5]; omega
  · show win6_3.index t (0 : Fin 2) * 512 + 1 * (j 0).val = (j 0).val; rw [e6]; omega
  · show win6_3.index t (1 : Fin 2) * 10 + 1 * (j 1).val = (j 1).val; rw [e7]; omega

/-- An index of the array is in the point's block iff each coordinate is in the block's range on its axis. -/
theorem mem_blk (t : Fin cfg6.N) (i : S512x10.Idx) :
    i ∈ ((cfg6.win 3).blk t).view.set ↔ ∀ a : Fin 2, win6_3.index t a * S512x10.size a ≤ (i a).val
      ∧ (i a).val < win6_3.index t a * S512x10.size a + S512x10.size a := by
  show i ∈ ((View.whole main_v87).slice (win6_3.rect t)).set ↔ _
  rw [View.set_slice_whole, Rect.mem_set_unit]
  exact Iff.rfl

/-- The one point's block is the whole array. -/
theorem cover (i : S512x10.Idx) :
    ∃ t : Fin cfg6.N, (cfg6.win 3).flush t = true ∧ i ∈ ((cfg6.win 3).blk t).view.set := by
  have hi0 : (i 0).val < 512 := (i 0).isLt
  have hi1 : (i 1).val < 10 := (i 1).isLt
  obtain ⟨e0, e1, e2, e3, e4, e5, e6, e7⟩ := idx_facts t6_0
  refine ⟨t6_0, flush6_3 _, ?_⟩
  rw [mem_blk]
  intro a
  match a with
  | ⟨0, _⟩ =>
    show win6_3.index t6_0 (0 : Fin 2) * 512 ≤ (i 0).val ∧ (i 0).val < win6_3.index t6_0 (0 : Fin 2) * 512 + 512
    rw [e6]; omega
  | ⟨1, _⟩ =>
    show win6_3.index t6_0 (1 : Fin 2) * 10 ≤ (i 1).val ∧ (i 1).val < win6_3.index t6_0 (1 : Fin 2) * 10 + 10
    rw [e7]; omega

/-- The output array after the region: the product plus the row of the arrays as the region finds them. -/
theorem arr (c : Dev nD) :
    (dat6 (F := Ideal) V c).arrAt 3 cfg6.N = rowAffine (V c main_v85) (V c main_arg9) (V c main_v86) :=
  (dat6 V c).arrAt_eq_of_cover 3 (rowAffine (V c main_v85) (V c main_arg9) (V c main_v86)) (fun t _ => flushed_eq V c t) cover

end Cert.KernelIdeal.Lin6

end
-- ==== Proof.KernelNet.lean ====
/-
  The kernel program's result as the network.

  The program's buffers are followed through its twelve segments. At each boundary the buffers still needed are
  named: the arguments and, from the first stretch, the edge endpoints, dis² and the edge coefficients, carried
  unchanged through every segment that does not write them; after each projection kernel its product; after each
  host stretch the aggregated messages of that product and the layer's bias row; after each combine kernel the
  layer's output; then the per-graph mean and the head's row; and after the last kernel the result — the affine
  head of the mean of the third layer of the second of the first: the network, as the reference names it.
-/
import proofs.«121799_j61108794688062_1_alg».proof.Proof.Gen.KernelIdeal.Frame
import proofs.«121799_j61108794688062_1_alg».proof.Proof.KernelHost
import proofs.«121799_j61108794688062_1_alg».proof.Proof.Mm0
import proofs.«121799_j61108794688062_1_alg».proof.Proof.Mm2
import proofs.«121799_j61108794688062_1_alg».proof.Proof.Mm4
import proofs.«121799_j61108794688062_1_alg».proof.Proof.Cmb1
import proofs.«121799_j61108794688062_1_alg».proof.Proof.Cmb3
import proofs.«121799_j61108794688062_1_alg».proof.Proof.Cmb5
import proofs.«121799_j61108794688062_1_alg».proof.Proof.Lin6
import proofs.«121799_j61108794688062_1_alg».proof.Proof.LibAffineRow

-- the notations below abbreviate terms over this section's variables
set_option quotPrecheck false

noncomputable section

namespace Cert.KernelIdeal.NetValue

open Cert.KernelIdeal Cert.KernelIdeal.Gen Idealize.ShloMosaic Idealize.ShloMosaic.TcCoe Idealize.SL.Sem
open Cert.ReferenceIdeal.Read Cert.ReferenceIdeal.Net Cert.KernelIdeal.HostValues Cert.Product Cert.Combine Cert.AffineRow

variable (m : (ℓ : Loc nD τ sig) → Buf (Elt Ideal) ℓ) (ρ : Dev nD → PrngReg) (c : Dev nD)

local notation "x0" => m ((c.tc : Thread nD τ).loc main_arg0)
local notation "x1" => m ((c.tc : Thread nD τ).loc main_arg1)
local notation "x2" => m ((c.tc : Thread nD τ).loc main_arg2)
local notation "x3" => m ((c.tc : Thread nD τ).loc main_arg3)
local notation "x4" => m ((c.tc : Thread nD τ).loc main_arg4)
local notation "x5" => m ((c.tc : Thread nD τ).loc main_arg5)
local notation "x6" => m ((c.tc : Thread nD τ).loc main_arg6)
local notation "x7" => m ((c.tc : Thread nD τ).loc main_arg7)
local notation "x8" => m ((c.tc : Thread nD τ).loc main_arg8)
local notation "x9" => m ((c.tc : Thread nD τ).loc main_arg9)
local notation "x10" => m ((c.tc : Thread nD τ).loc main_arg10)
local notation "H1" => prod x0 x3
local notation "L1" => layerRelu x0 x3 x4 x1
local notation "H2" => prod L1 x5
local notation "L2" => layerRelu L1 x5 x6 x1
local notation "H3" => prod L2 x7
local notation "L3" => layerLin L2 x7 x8 x1
local notation "PL" => meanPool (F := Ideal) L3 x2

set_option maxHeartbeats 8000000 in
/-- The result buffer after the last segment holds the network of the arguments as launched. -/
theorem result_eq : W12 m ρ c (Proc.devRef .tc main_v87) = net x0 x1 x2 x3 x4 x5 x6 x7 x8 x9 x10 := by
  -- boundary 1
  have f1_arg0 : W1 m ρ c (Proc.devRef .tc main_arg0) = x0 :=
    keep0 (W0 m ρ c) main_arg0 (by decide)
  have f1_arg3 : W1 m ρ c (Proc.devRef .tc main_arg3) = x3 :=
    keep0 (W0 m ρ c) main_arg3 (by decide)
  have f1_arg2 : W1 m ρ c (Proc.devRef .tc main_arg2) = x2 :=
    keep0 (W0 m ρ c) main_arg2 (by decide)
  have f1_arg4 : W1 m ρ c (Proc.devRef .tc main_arg4) = x4 :=
    keep0 (W0 m ρ c) main_arg4 (by decide)
  have f1_arg5 : W1 m ρ c (Proc.devRef .tc main_arg5) = x5 :=
    keep0 (W0 m ρ c) main_arg5 (by decide)
  have f1_arg6 : W1 m ρ c (Proc.devRef .tc main_arg6) = x6 :=
    keep0 (W0 m ρ c) main_arg6 (by decide)
  have f1_arg7 : W1 m ρ c (Proc.devRef .tc main_arg7) = x7 :=
    keep0 (W0 m ρ c) main_arg7 (by decide)
  have f1_arg8 : W1 m ρ c (Proc.devRef .tc main_arg8) = x8 :=
    keep0 (W0 m ρ c) main_arg8 (by decide)
  have f1_arg9 : W1 m ρ c (Proc.devRef .tc main_arg9) = x9 :=
    keep0 (W0 m ρ c) main_arg9 (by decide)
  have f1_arg10 : W1 m ρ c (Proc.devRef .tc main_arg10) = x10 :=
    keep0 (W0 m ρ c) main_arg10 (by decide)
  have f1_v1 : W1 m ρ c (Proc.devRef .tc main_v1) = val_main_v1 (F := Ideal) x1 :=
    ops0_src (W0 m ρ c)
  have f1_v3 : W1 m ρ c (Proc.devRef .tc main_v3) = val_main_v3 (F := Ideal) x1 :=
    ops0_dst (W0 m ρ c)
  have f1_v12 : W1 m ρ c (Proc.devRef .tc main_v12) = val_main_v41 (F := Ideal) x1 :=
    ops0_dis2 (W0 m ρ c)
  have f1_v28 : W1 m ρ c (Proc.devRef .tc main_v28) = val_main_v27 (F := Ideal) x1 :=
    ops0_coef (W0 m ρ c)
  -- boundary 2
  have f2_v29 : W2 m ρ c (Proc.devRef .tc main_v29) = H1 :=
    (W2_arr m ρ c 2).trans ((Mm0.arr (V1 m ρ) c).trans (by rw [show V1 m ρ c main_arg0 = _ from f1_arg0, show V1 m ρ c main_arg3 = _ from f1_arg3]))
  have f2_arg4 : W2 m ρ c (Proc.devRef .tc main_arg4) = x4 :=
    (W2_of_ne m ρ c main_arg4 (by decide)).trans f1_arg4
  have f2_v1 : W2 m ρ c (Proc.devRef .tc main_v1) = val_main_v1 (F := Ideal) x1 :=
    (W2_of_ne m ρ c main_v1 (by decide)).trans f1_v1
  have f2_v3 : W2 m ρ c (Proc.devRef .tc main_v3) = val_main_v3 (F := Ideal) x1 :=
    (W2_of_ne m ρ c main_v3 (by decide)).trans f1_v3
  have f2_v28 : W2 m ρ c (Proc.devRef .tc main_v28) = val_main_v27 (F := Ideal) x1 :=
    (W2_of_ne m ρ c main_v28 (by decide)).trans f1_v28
  have f2_v12 : W2 m ρ c (Proc.devRef .tc main_v12) = val_main_v41 (F := Ideal) x1 :=
    (W2_of_ne m ρ c main_v12 (by decide)).trans f1_v12
  have f2_arg2 : W2 m ρ c (Proc.devRef .tc main_arg2) = x2 :=
    (W2_of_ne m ρ c main_arg2 (by decide)).trans f1_arg2
  have f2_arg5 : W2 m ρ c (Proc.devRef .tc main_arg5) = x5 :=
    (W2_of_ne m ρ c main_arg5 (by decide)).trans f1_arg5
  have f2_arg6 : W2 m ρ c (Proc.devRef .tc main_arg6) = x6 :=
    (W2_of_ne m ρ c main_arg6 (by decide)).trans f1_arg6
  have f2_arg7 : W2 m ρ c (Proc.devRef .tc main_arg7) = x7 :=
    (W2_of_ne m ρ c main_arg7 (by decide)).trans f1_arg7
  have f2_arg8 : W2 m ρ c (Proc.devRef .tc main_arg8) = x8 :=
    (W2_of_ne m ρ c main_arg8 (by decide)).trans f1_arg8
  have f2_arg9 : W2 m ρ c (Proc.devRef .tc main_arg9) = x9 :=
    (W2_of_ne m ρ c main_arg9 (by decide)).trans f1_arg9
  have f2_arg10 : W2 m ρ c (Proc.devRef .tc main_arg10) = x10 :=
    (W2_of_ne m ρ c main_arg10 (by decide)).trans f1_arg10
  -- boundary 3
  have f3_v41 : W3 m ρ c (Proc.devRef .tc main_v41) = agg (F := Ideal) H1 x1 :=
    (ops1_agg (W2 m ρ c) x1 f2_v1 f2_v3 f2_v28).trans (congrArg (fun h => agg (F := Ideal) h x1) f2_v29)
  have f3_v42 : W3 m ρ c (Proc.devRef .tc main_v42) = val_main_v45 (F := Ideal) x4 :=
    (ops1_row (W2 m ρ c)).trans (congrArg (fun b => val_main_v45 (F := Ideal) b) f2_arg4)
  have f3_v29 : W3 m ρ c (Proc.devRef .tc main_v29) = H1 :=
    (keep1 (W2 m ρ c) main_v29 (by decide)).trans f2_v29
  have f3_v12 : W3 m ρ c (Proc.devRef .tc main_v12) = val_main_v41 (F := Ideal) x1 :=
    (keep1 (W2 m ρ c) main_v12 (by decide)).trans f2_v12
  have f3_arg5 : W3 m ρ c (Proc.devRef .tc main_arg5) = x5 :=
    (keep1 (W2 m ρ c) main_arg5 (by decide)).trans f2_arg5
  have f3_v1 : W3 m ρ c (Proc.devRef .tc main_v1) = val_main_v1 (F := Ideal) x1 :=
    (keep1 (W2 m ρ c) main_v1 (by decide)).trans f2_v1
  have f3_v3 : W3 m ρ c (Proc.devRef .tc main_v3) = val_main_v3 (F := Ideal) x1 :=
    (keep1 (W2 m ρ c) main_v3 (by decide)).trans f2_v3
  have f3_v28 : W3 m ρ c (Proc.devRef .tc main_v28) = val_main_v27 (F := Ideal) x1 :=
    (keep1 (W2 m ρ c) main_v28 (by decide)).trans f2_v28
  have f3_arg6 : W3 m ρ c (Proc.devRef .tc main_arg6) = x6 :=
    (keep1 (W2 m ρ c) main_arg6 (by decide)).trans f2_arg6
  have f3_arg2 : W3 m ρ c (Proc.devRef .tc main_arg2) = x2 :=
    (keep1 (W2 m ρ c) main_arg2 (by decide)).trans f2_arg2
  have f3_arg7 : W3 m ρ c (Proc.devRef .tc main_arg7) = x7 :=
    (keep1 (W2 m ρ c) main_arg7 (by decide)).trans f2_arg7
  have f3_arg8 : W3 m ρ c (Proc.devRef .tc main_arg8) = x8 :=
    (keep1 (W2 m ρ c) main_arg8 (by decide)).trans f2_arg8
  have f3_arg9 : W3 m ρ c (Proc.devRef .tc main_arg9) = x9 :=
    (keep1 (W2 m ρ c) main_arg9 (by decide)).trans f2_arg9
  have f3_arg10 : W3 m ρ c (Proc.devRef .tc main_arg10) = x10 :=
    (keep1 (W2 m ρ c) main_arg10 (by decide)).trans f2_arg10
  -- boundary 4
  have f4_v43 : W4 m ρ c (Proc.devRef .tc main_v43) = L1 :=
    (W4_arr m ρ c 4).trans ((Cmb1.arr (V3 m ρ) c).trans (by rw [show V3 m ρ c main_v41 = _ from f3_v41, show V3 m ρ c main_v29 = _ from f3_v29, show V3 m ρ c main_v12 = _ from f3_v12, show V3 m ρ c main_v42 = _ from f3_v42]; rfl))
  have f4_arg5 : W4 m ρ c (Proc.devRef .tc main_arg5) = x5 :=
    (W4_of_ne m ρ c main_arg5 (by decide)).trans f3_arg5
  have f4_v12 : W4 m ρ c (Proc.devRef .tc main_v12) = val_main_v41 (F := Ideal) x1 :=
    (W4_arr m ρ c 2).trans ((((dat1 (V3 m ρ) c).arrAt_in 2 rfl _).trans (A_eq1 (V3 m ρ) c 2)).trans f3_v12)
  have f4_v1 : W4 m ρ c (Proc.devRef .tc main_v1) = val_main_v1 (F := Ideal) x1 :=
    (W4_of_ne m ρ c main_v1 (by decide)).trans f3_v1
  have f4_v3 : W4 m ρ c (Proc.devRef .tc main_v3) = val_main_v3 (F := Ideal) x1 :=
    (W4_of_ne m ρ c main_v3 (by decide)).trans f3_v3
  have f4_v28 : W4 m ρ c (Proc.devRef .tc main_v28) = val_main_v27 (F := Ideal) x1 :=
    (W4_of_ne m ρ c main_v28 (by decide)).trans f3_v28
  have f4_arg6 : W4 m ρ c (Proc.devRef .tc main_arg6) = x6 :=
    (W4_of_ne m ρ c main_arg6 (by decide)).trans f3_arg6
  have f4_arg2 : W4 m ρ c (Proc.devRef .tc main_arg2) = x2 :=
    (W4_of_ne m ρ c main_arg2 (by decide)).trans f3_arg2
  have f4_arg7 : W4 m ρ c (Proc.devRef .tc main_arg7) = x7 :=
    (W4_of_ne m ρ c main_arg7 (by decide)).trans f3_arg7
  have f4_arg8 : W4 m ρ c (Proc.devRef .tc main_arg8) = x8 :=
    (W4_of_ne m ρ c main_arg8 (by decide)).trans f3_arg8
  have f4_arg9 : W4 m ρ c (Proc.devRef .tc main_arg9) = x9 :=
    (W4_of_ne m ρ c main_arg9 (by decide)).trans f3_arg9
  have f4_arg10 : W4 m ρ c (Proc.devRef .tc main_arg10) = x10 :=
    (W4_of_ne m ρ c main_arg10 (by decide)).trans f3_arg10
  -- boundary 5
  have f5_v44 : W5 m ρ c (Proc.devRef .tc main_v44) = H2 :=
    (W5_arr m ρ c 2).trans ((Mm2.arr (V4 m ρ) c).trans (by rw [show V4 m ρ c main_v43 = _ from f4_v43, show V4 m ρ c main_arg5 = _ from f4_arg5]))
  have f5_v1 : W5 m ρ c (Proc.devRef .tc main_v1) = val_main_v1 (F := Ideal) x1 :=
    (W5_of_ne m ρ c main_v1 (by decide)).trans f4_v1
  have f5_v3 : W5 m ρ c (Proc.devRef .tc main_v3) = val_main_v3 (F := Ideal) x1 :=
    (W5_of_ne m ρ c main_v3 (by decide)).trans f4_v3
  have f5_v28 : W5 m ρ c (Proc.devRef .tc main_v28) = val_main_v27 (F := Ideal) x1 :=
    (W5_of_ne m ρ c main_v28 (by decide)).trans f4_v28
  have f5_arg6 : W5 m ρ c (Proc.devRef .tc main_arg6) = x6 :=
    (W5_of_ne m ρ c main_arg6 (by decide)).trans f4_arg6
  have f5_v12 : W5 m ρ c (Proc.devRef .tc main_v12) = val_main_v41 (F := Ideal) x1 :=
    (W5_of_ne m ρ c main_v12 (by decide)).trans f4_v12
  have f5_arg7 : W5 m ρ c (Proc.devRef .tc main_arg7) = x7 :=
    (W5_of_ne m ρ c main_arg7 (by decide)).trans f4_arg7
  have f5_arg2 : W5 m ρ c (Proc.devRef .tc main_arg2) = x2 :=
    (W5_of_ne m ρ c main_arg2 (by decide)).trans f4_arg2
  have f5_arg8 : W5 m ρ c (Proc.devRef .tc main_arg8) = x8 :=
    (W5_of_ne m ρ c main_arg8 (by decide)).trans f4_arg8
  have f5_arg9 : W5 m ρ c (Proc.devRef .tc main_arg9) = x9 :=
    (W5_of_ne m ρ c main_arg9 (by decide)).trans f4_arg9
  have f5_arg10 : W5 m ρ c (Proc.devRef .tc main_arg10) = x10 :=
    (W5_of_ne m ρ c main_arg10 (by decide)).trans f4_arg10
  -- boundary 6
  have f6_v56 : W6 m ρ c (Proc.devRef .tc main_v56) = agg (F := Ideal) H2 x1 :=
    (ops3_agg (W5 m ρ c) x1 f5_v1 f5_v3 f5_v28).trans (congrArg (fun h => agg (F := Ideal) h x1) f5_v44)
  have f6_v57 : W6 m ρ c (Proc.devRef .tc main_v57) = val_main_v45 (F := Ideal) x6 :=
    (ops3_row (W5 m ρ c)).trans (congrArg (fun b => val_main_v45 (F := Ideal) b) f5_arg6)
  have f6_v44 : W6 m ρ c (Proc.devRef .tc main_v44) = H2 :=
    (keep3 (W5 m ρ c) main_v44 (by decide)).trans f5_v44
  have f6_v12 : W6 m ρ c (Proc.devRef .tc main_v12) = val_main_v41 (F := Ideal) x1 :=
    (keep3 (W5 m ρ c) main_v12 (by decide)).trans f5_v12
  have f6_arg7 : W6 m ρ c (Proc.devRef .tc main_arg7) = x7 :=
    (keep3 (W5 m ρ c) main_arg7 (by decide)).trans f5_arg7
  have f6_v1 : W6 m ρ c (Proc.devRef .tc main_v1) = val_main_v1 (F := Ideal) x1 :=
    (keep3 (W5 m ρ c) main_v1 (by decide)).trans f5_v1
  have f6_v3 : W6 m ρ c (Proc.devRef .tc main_v3) = val_main_v3 (F := Ideal) x1 :=
    (keep3 (W5 m ρ c) main_v3 (by decide)).trans f5_v3
  have f6_v28 : W6 m ρ c (Proc.devRef .tc main_v28) = val_main_v27 (F := Ideal) x1 :=
    (keep3 (W5 m ρ c) main_v28 (by decide)).trans f5_v28
  have f6_arg8 : W6 m ρ c (Proc.devRef .tc main_arg8) = x8 :=
    (keep3 (W5 m ρ c) main_arg8 (by decide)).trans f5_arg8
  have f6_arg2 : W6 m ρ c (Proc.devRef .tc main_arg2) = x2 :=
    (keep3 (W5 m ρ c) main_arg2 (by decide)).trans f5_arg2
  have f6_arg9 : W6 m ρ c (Proc.devRef .tc main_arg9) = x9 :=
    (keep3 (W5 m ρ c) main_arg9 (by decide)).trans f5_arg9
  have f6_arg10 : W6 m ρ c (Proc.devRef .tc main_arg10) = x10 :=
    (keep3 (W5 m ρ c) main_arg10 (by decide)).trans f5_arg10
  -- boundary 7
  have f7_v58 : W7 m ρ c (Proc.devRef .tc main_v58) = L2 :=
    (W7_arr m ρ c 4).trans ((Cmb3.arr (V6 m ρ) c).trans (by rw [show V6 m ρ c main_v56 = _ from f6_v56, show V6 m ρ c main_v44 = _ from f6_v44, show V6 m ρ c main_v12 = _ from f6_v12, show V6 m ρ c main_v57 = _ from f6_v57]; rfl))
  have f7_arg7 : W7 m ρ c (Proc.devRef .tc main_arg7) = x7 :=
    (W7_of_ne m ρ c main_arg7 (by decide)).trans f6_arg7
  have f7_v1 : W7 m ρ c (Proc.devRef .tc main_v1) = val_main_v1 (F := Ideal) x1 :=
    (W7_of_ne m ρ c main_v1 (by decide)).trans f6_v1
  have f7_v3 : W7 m ρ c (Proc.devRef .tc main_v3) = val_main_v3 (F := Ideal) x1 :=
    (W7_of_ne m ρ c main_v3 (by decide)).trans f6_v3
  have f7_v28 : W7 m ρ c (Proc.devRef .tc main_v28) = val_main_v27 (F := Ideal) x1 :=
    (W7_of_ne m ρ c main_v28 (by decide)).trans f6_v28
  have f7_arg8 : W7 m ρ c (Proc.devRef .tc main_arg8) = x8 :=
    (W7_of_ne m ρ c main_arg8 (by decide)).trans f6_arg8
  have f7_v12 : W7 m ρ c (Proc.devRef .tc main_v12) = val_main_v41 (F := Ideal) x1 :=
    (W7_arr m ρ c 2).trans ((((dat3 (V6 m ρ) c).arrAt_in 2 rfl _).trans (A_eq3 (V6 m ρ) c 2)).trans f6_v12)
  have f7_arg2 : W7 m ρ c (Proc.devRef .tc main_arg2) = x2 :=
    (W7_of_ne m ρ c main_arg2 (by decide)).trans f6_arg2
  have f7_arg9 : W7 m ρ c (Proc.devRef .tc main_arg9) = x9 :=
    (W7_of_ne m ρ c main_arg9 (by decide)).trans f6_arg9
  have f7_arg10 : W7 m ρ c (Proc.devRef .tc main_arg10) = x10 :=
    (W7_of_ne m ρ c main_arg10 (by decide)).trans f6_arg10
  -- boundary 8
  have f8_v59 : W8 m ρ c (Proc.devRef .tc main_v59) = H3 :=
    (W8_arr m ρ c 2).trans ((Mm4.arr (V7 m ρ) c).trans (by rw [show V7 m ρ c main_v58 = _ from f7_v58, show V7 m ρ c main_arg7 = _ from f7_arg7]))
  have f8_v1 : W8 m ρ c (Proc.devRef .tc main_v1) = val_main_v1 (F := Ideal) x1 :=
    (W8_of_ne m ρ c main_v1 (by decide)).trans f7_v1
  have f8_v3 : W8 m ρ c (Proc.devRef .tc main_v3) = val_main_v3 (F := Ideal) x1 :=
    (W8_of_ne m ρ c main_v3 (by decide)).trans f7_v3
  have f8_v28 : W8 m ρ c (Proc.devRef .tc main_v28) = val_main_v27 (F := Ideal) x1 :=
    (W8_of_ne m ρ c main_v28 (by decide)).trans f7_v28
  have f8_arg8 : W8 m ρ c (Proc.devRef .tc main_arg8) = x8 :=
    (W8_of_ne m ρ c main_arg8 (by decide)).trans f7_arg8
  have f8_v12 : W8 m ρ c (Proc.devRef .tc main_v12) = val_main_v41 (F := Ideal) x1 :=
    (W8_of_ne m ρ c main_v12 (by decide)).trans f7_v12
  have f8_arg2 : W8 m ρ c (Proc.devRef .tc main_arg2) = x2 :=
    (W8_of_ne m ρ c main_arg2 (by decide)).trans f7_arg2
  have f8_arg9 : W8 m ρ c (Proc.devRef .tc main_arg9) = x9 :=
    (W8_of_ne m ρ c main_arg9 (by decide)).trans f7_arg9
  have f8_arg10 : W8 m ρ c (Proc.devRef .tc main_arg10) = x10 :=
    (W8_of_ne m ρ c main_arg10 (by decide)).trans f7_arg10
  -- boundary 9
  have f9_v71 : W9 m ρ c (Proc.devRef .tc main_v71) = agg (F := Ideal) H3 x1 :=
    (ops5_agg (W8 m ρ c) x1 f8_v1 f8_v3 f8_v28).trans (congrArg (fun h => agg (F := Ideal) h x1) f8_v59)
  have f9_v72 : W9 m ρ c (Proc.devRef .tc main_v72) = val_main_v45 (F := Ideal) x8 :=
    (ops5_row (W8 m ρ c)).trans (congrArg (fun b => val_main_v45 (F := Ideal) b) f8_arg8)
  have f9_v59 : W9 m ρ c (Proc.devRef .tc main_v59) = H3 :=
    (keep5 (W8 m ρ c) main_v59 (by decide)).trans f8_v59
  have f9_v12 : W9 m ρ c (Proc.devRef .tc main_v12) = val_main_v41 (F := Ideal) x1 :=
    (keep5 (W8 m ρ c) main_v12 (by decide)).trans f8_v12
  have f9_arg2 : W9 m ρ c (Proc.devRef .tc main_arg2) = x2 :=
    (keep5 (W8 m ρ c) main_arg2 (by decide)).trans f8_arg2
  have f9_arg10 : W9 m ρ c (Proc.devRef .tc main_arg10) = x10 :=
    (keep5 (W8 m ρ c) main_arg10 (by decide)).trans f8_arg10
  have f9_arg9 : W9 m ρ c (Proc.devRef .tc main_arg9) = x9 :=
    (keep5 (W8 m ρ c) main_arg9 (by decide)).trans f8_arg9
  -- boundary 10
  have f10_v73 : W10 m ρ c (Proc.devRef .tc main_v73) = L3 :=
    (W10_arr m ρ c 4).trans ((Cmb5.arr (V9 m ρ) c).trans (by rw [show V9 m ρ c main_v71 = _ from f9_v71, show V9 m ρ c main_v59 = _ from f9_v59, show V9 m ρ c main_v12 = _ from f9_v12, show V9 m ρ c main_v72 = _ from f9_v72]; rfl))
  have f10_arg2 : W10 m ρ c (Proc.devRef .tc main_arg2) = x2 :=
    (W10_of_ne m ρ c main_arg2 (by decide)).trans f9_arg2
  have f10_arg10 : W10 m ρ c (Proc.devRef .tc main_arg10) = x10 :=
    (W10_of_ne m ρ c main_arg10 (by decide)).trans f9_arg10
  have f10_arg9 : W10 m ρ c (Proc.devRef .tc main_arg9) = x9 :=
    (W10_of_ne m ρ c main_arg9 (by decide)).trans f9_arg9
  -- boundary 11
  have f11_v85 : W11 m ρ c (Proc.devRef .tc main_v85) = PL :=
    (ops6_pool (W10 m ρ c) x2 f10_arg2).trans (congrArg (fun h => meanPool (F := Ideal) h x2) f10_v73)
  have f11_v86 : W11 m ρ c (Proc.devRef .tc main_v86) = shapeCast S1x10 x10 shapeCasts_S10_S1x10 :=
    (ops6_row (W10 m ρ c)).trans (congrArg (fun b => shapeCast S1x10 b shapeCasts_S10_S1x10) f10_arg10)
  have f11_arg9 : W11 m ρ c (Proc.devRef .tc main_arg9) = x9 :=
    (keep6 (W10 m ρ c) main_arg9 (by decide)).trans f10_arg9
  -- the last kernel
  have f12 : W12 m ρ c (Proc.devRef .tc main_v87) = rowAffine PL x9 (shapeCast S1x10 x10 shapeCasts_S10_S1x10) :=
    (W12_arr m ρ c 3).trans ((Lin6.arr (V11 m ρ) c).trans (by rw [show V11 m ρ c main_v85 = _ from f11_v85, show V11 m ρ c main_arg9 = _ from f11_arg9, show V11 m ρ c main_v86 = _ from f11_v86]))
  rw [f12, rowAffine_shapeCast]
  rfl

end Cert.KernelIdeal.NetValue

end
-- ==== Proof.lean ====
/-
  A three-layer graph convolution, a per-graph mean and an affine head: the tiled kernels against the plain
  reference, equal over the extended reals.

  Both programs compute the same network. They share the irregular part verbatim — the degree count, the
  normalisation dis = rsqrt(deg + 1), the gathers along the edges and the scatter-adds at their destinations, the
  pooling by graph id — and differ only in how the regular part is spelt: the kernel program runs each projection
  h · W as a matrix product tiled over 25 row blocks (the operands passed through a change of float format that
  is the identity on ideal values), each layer's combine step (messages + projection · dis² + bias, clamped at zero
  in the first two layers) as an elementwise kernel over the same blocks, and the final affine layer as a one-block
  kernel; it lays vectors out as columns or rows by reshapes where the reference broadcasts them; and it computes
  the edge coefficients and dis² once where the reference spells them per layer. None of this changes a value: a
  tiled product is the whole product, a block's combine step is the whole arrays' combine step on its rows, a
  reshape to a column or a row is the broadcast. So no arithmetic law is used and the finiteness of the inputs is
  never opened.

  The kernel program's result is read off its run segment by segment (the frame of the seven kernels among five
  stretches of host operations, its post strengthened to name the result buffer), the reference's off its run
  and its staged terms; both are the network `Cert.ReferenceIdeal.Net.net` of the argument arrays.
-/
import proofs.«121799_j61108794688062_1_alg».proof.Defs
import proofs.«121799_j61108794688062_1_alg».proof.Proof.Gen.Kernel
import proofs.«121799_j61108794688062_1_alg».proof.Proof.Gen.Kernel.Skeleton
import proofs.«121799_j61108794688062_1_alg».proof.Proof.Gen.Kernel.Launch
import proofs.«121799_j61108794688062_1_alg».proof.Proof.Gen.Kernel.Points
import proofs.«121799_j61108794688062_1_alg».proof.Proof.Gen.Kernel.Frame
import proofs.«121799_j61108794688062_1_alg».proof.Proof.Gen.KernelIdeal
import proofs.«121799_j61108794688062_1_alg».proof.Proof.Gen.KernelIdeal.Skeleton
import proofs.«121799_j61108794688062_1_alg».proof.Proof.Gen.KernelIdeal.Launch
import proofs.«121799_j61108794688062_1_alg».proof.Proof.Gen.KernelIdeal.Points
import proofs.«121799_j61108794688062_1_alg».proof.Proof.Gen.KernelIdeal.Frame
import proofs.«121799_j61108794688062_1_alg».proof.Proof.Gen.ReferenceIdeal
import proofs.«121799_j61108794688062_1_alg».proof.Proof.Gen.Pre_finite_inputs
import proofs.«121799_j61108794688062_1_alg».proof.Proof.Gen.ReferenceIdeal.Run
import proofs.«121799_j61108794688062_1_alg».proof.Proof.Gen.ReferenceIdeal.Read
import proofs.«121799_j61108794688062_1_alg».proof.Proof.RefNet
import proofs.«121799_j61108794688062_1_alg».proof.Proof.KernelRun
import proofs.«121799_j61108794688062_1_alg».proof.Proof.KernelNet
import Idealize.ShloMosaic.Adequacy
import Idealize.ShloMosaic.Init

noncomputable section

namespace Cert.Proof

open Idealize.ShloMosaic Idealize.ShloMosaic.TcCoe Idealize.SL.Sem

namespace Claims

variable [Cert.Kernel.Facts] [Cert.KernelIdeal.Facts] [Cert.ReferenceIdeal.Facts] [Cert.Pre_finite_inputs.Facts]

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel program is the printed one read at the ideal values. -/
theorem preserves : Cert.preserves_Kernel_KernelIdeal := trivial

/-- Both runs end with the network of the argument arrays in their result buffers. -/
theorem algebraic : Cert.algebraic_KernelIdeal_ReferenceIdeal := by
  intro m ρ m' ρ' _ hagree
  refine ⟨fun c => Cert.KernelIdeal.Gen.W12 m ρ c (Proc.devRef .tc Cert.KernelIdeal.main_v87),
    Cert.KernelIdeal.RunValue.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10⟩ := hagree c
  show _ = Cert.KernelIdeal.Gen.W12 m ρ c (Proc.devRef .tc Cert.KernelIdeal.main_v87)
  rw [Cert.ReferenceIdeal.Read.val_main_v139_eq, Cert.ReferenceIdeal.Net.v139_net,
    Cert.KernelIdeal.NetValue.result_eq m ρ c, e0, e1, e2, e3, e4, e5, e6, e7, e8, e9, e10]

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
